-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x16384 .f32) (main_arg1 : FVec F S16384x64 .f32) (main_arg2 : FVec F S64x64 .f32) (main_arg3 : FVec F S64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S1x16384 : Shape := ⟨2, ![1, 16384]⟩
abbrev S2048x2048 : Shape := ⟨2, ![2048, 2048]⟩
abbrev S1x2048 : Shape := ⟨2, ![1, 2048]⟩
abbrev S2048 : Shape := ⟨1, ![2048]⟩
abbrev S16384x1 : Shape := ⟨2, ![16384, 1]⟩
abbrev S2048x1024 : Shape := ⟨2, ![2048, 1024]⟩
abbrev S2048x64 : Shape := ⟨2, ![2048, 64]⟩
abbrev S2048x1 : Shape := ⟨2, ![2048, 1]⟩
abbrev S1024x64 : Shape := ⟨2, ![1024, 64]⟩
abbrev S1x64 : Shape := ⟨2, ![1, 64]⟩

abbrev nBuf : Space → Nat
  | .hbm => 9
  | .vmem => 17
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S64, .f32⟩
  | .hbm, ⟨4, _⟩ => ⟨S1x16384, .f32⟩
  | .hbm, ⟨5, _⟩ => ⟨S16384x1, .f32⟩
  | .hbm, ⟨6, _⟩ => ⟨S16384x64, .f32⟩
  | .hbm, ⟨7, _⟩ => ⟨S16384x64, .f32⟩
  | .hbm, ⟨8, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .f32⟩
  | .local _ .vmem, ⟨5, _⟩ => ⟨S2048x1024, .f32⟩
  | .local _ .vmem, ⟨6, _⟩ => ⟨S2048x64, .f32⟩
  | .local _ .vmem, ⟨7, _⟩ => ⟨S2048x64, .f32⟩
  | .local _ .vmem, ⟨8, _⟩ => ⟨S2048x1, .f32⟩
  | .local _ .vmem, ⟨9, _⟩ => ⟨S2048x1, .f32⟩
  | .local _ .vmem, ⟨10, _⟩ => ⟨S1024x64, .f32⟩
  | .local _ .vmem, ⟨11, _⟩ => ⟨S1024x64, .f32⟩
  | .local _ .vmem, ⟨12, _⟩ => ⟨S64x64, .f32⟩
  | .local _ .vmem, ⟨13, _⟩ => ⟨S64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  shapeCasts_S1x16384_S16384x1 : S1x16384.ShapeCasts S16384x1
  bcast_S16384x1_S16384x64_0_1 : S16384x1.BroadcastsInDim S16384x64 (![0, 1] : Fin 2 → Fin S16384x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S16384x64.size a
  hwx1_6 : ∀ i : grid1.Coords, EltTy.bits .f32 = 32 ∨ (Rect.block (s := S16384x64) S2048x64.size (cc1_transform_6 i) (hinb1_6 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S2048x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x1, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384x64, .f32⟩
  | .hbm, ⟨26, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16384x16384_S16384_d0 : S16384x16384.ReducesTo [0] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.WColsumRuns.lean ====
import proofs.«154289_j20401094656620_2_alg».proof.Proof.Gen.Kernel.Launch
import proofs.«154289_j20401094656620_2_alg».proof.Proof.Gen.Kernel.Skeleton
import proofs.«154289_j20401094656620_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Colsum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-sum region: what its case analyses share

The region's grid is 8 x 8; the inner axis (coordinate 1) walks the eight row blocks of one column
block of the matrix. The output block (1 x 2048) is zeroed when coordinate 1 is 0, the column sums
of the current 2048 x 2048 block are added to it at every point, and when coordinate 1 is 7 it is
replaced by 1 / (x + 1). Everything is stated at the buffer contents `V` the region is entered with. -/

/-- Window `w`'s block at point `t`, read off its array at the region-entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of the matrix at every point, for any
    proof data whose array is `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, from the grid coordinates -/

/-- "coordinate 1 is 0": the first row block of a column block (the accumulator is zeroed). -/
abbrev isFirst (i : grid0.Coords) : Prop :=
  (Scalar.cmpi .ne (Scalar.extui (Scalar.cmpi .eq (BitVec.ofNat 32 (i 1).val) 0#32)) 0#32) = 1#1
/-- "coordinate 1 is 7": the last row block of a column block (the sum becomes 1 / (sum + 1)). -/
abbrev isLast (i : grid0.Coords) : Prop :=
  (Scalar.cmpi .ne (Scalar.extui (Scalar.cmpi .eq (BitVec.ofNat 32 (i 1).val) 7#32)) 0#32) = 1#1

/-- The first condition holds exactly at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)
/-- The second condition holds exactly at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## The staging memrefs at a point -/

/-- One staging buffer of the output window, through which its contents are stated. -/
abbrev VO : View sig .tc .vmem S1x2048 .f32 := (Memref.whole cc0_stg1_0 : Memref sig .tc .vmem S1x2048 .f32).view
/-- The input window's and the output window's current staging memrefs at point `t`, and their wholeness. -/
abbrev msIn (t : Fin cfg0.N) : Memref sig .tc .vmem S2048x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x2048 .f32 := win0_1.stage (cfg0.slots t 1)
abbrev hsOut (t : Fin cfg0.N) : (msOut t).IsWhole := hstage0_1 ((cfg0.slots t 1).cast nbuf0_1)

end Cert.Kernel.Colsum

end
-- ==== Proof.WColsumRunA.lean ====
import proofs.«154289_j20401094656620_2_alg».proof.Proof.WColsumRuns

set_option maxRecDepth 16384

noncomputable section

namespace Cert.Kernel.Colsum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the first row block of a column block (coordinate 1 = 0)

The accumulator is zeroed, the column sums of the block are added, and the second branch is not taken. -/

set_option maxHeartbeats 1000000 in
/-- The pieces the body's stores leave in the output's staging memref (last first) at a first point,
    with the proof that on whole staging memrefs — the input's at `x0`, the output's at anything — the
    body runs to a continuation that holds the input's buffer as it was and the output's with those
    pieces written. -/
noncomputable def runFirst (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) :
    { L : List (View.Piece (Elt F) S1x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.Kernel.Colsum

end
-- ==== Proof.WColsumRunB.lean ====
import proofs.«154289_j20401094656620_2_alg».proof.Proof.WColsumRunA

set_option maxRecDepth 16384

noncomputable section

namespace Cert.Kernel.Colsum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at a middle row block of a column block (coordinate 1 neither 0 nor 7)

Neither branch is taken: the column sums of the block are added to what the output buffer holds. -/

set_option maxHeartbeats 1000000 in
/-- The pieces the body's one store leaves in the output's staging memref at a middle point, with the
    proof that on whole staging memrefs — the input's at `x0`, the output's at its running contents
    `xo` — the body runs to a continuation that holds the input's buffer as it was and the output's
    with those pieces written. -/
noncomputable def runMid (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) :
    { L : List (View.Piece (Elt F) S1x2048 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Colsum

end
-- ==== Proof.WColsumRunC.lean ====
import proofs.«154289_j20401094656620_2_alg».proof.Proof.WColsumRunB

set_option maxRecDepth 16384

noncomputable section

namespace Cert.Kernel.Colsum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the last row block of a column block (coordinate 1 = 7)

The column sums of the block are added to what the output buffer holds, and the second branch then
replaces the sum x by 1 / (x + 1): two stores of the whole buffer. -/

set_option maxHeartbeats 1000000 in
/-- The pieces the body's two stores leave in the output's staging memref (last first) at a last
    point, with the proof that on whole staging memrefs — the input's at `x0`, the output's at its
    running contents `xo` — the body runs to a continuation that holds the input's buffer as it was
    and the output's with those pieces written. -/
noncomputable def runLast (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) :
    { L : List (View.Piece (Elt F) S1x2048 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Colsum

end
-- ==== Proof.WColsumBody.lean ====
import proofs.«154289_j20401094656620_2_alg».proof.Proof.WColsumRunC
import Idealize.ShloMosaic.Lib.Pipeline.Value

set_option maxRecDepth 16384

noncomputable section

namespace Cert.Kernel.Colsum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-sum region: what the output buffer holds point by point, the proof data, the body obligation -/

/-! ## Each case's stores cover the output buffer, and what they leave -/

/-- At a first point the two stores of the whole buffer tile it, so they cover it. -/
theorem coverFirst (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) (y : S1x2048.Idx) :
    ∃ pc ∈ (runFirst c i arg2 harg2 arg3 harg3 hc0 hc1 x0).1, y ∈ pc.1.set :=
  View.cover_of_tiledL (runFirst c i arg2 harg2 arg3 harg3 hc0 hc1 x0).1 S1x2048.size (by sl_kernel_rfl) y

/-- What a first point leaves in the output's staging buffer: its pieces read back. -/
def outFirst (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) : Vec F S1x2048 .f32 :=
  VO.read (Elt F) (VO.writes (Elt F) VO.junk (runFirst c i arg2 harg2 arg3 harg3 hc0 hc1 x0).1)

/-- At a middle point the one store of the whole buffer covers it. -/
theorem coverMid (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) (y : S1x2048.Idx) :
    ∃ pc ∈ (runMid c i arg2 harg2 arg3 harg3 hc0 hc1 x0 xo).1, y ∈ pc.1.set :=
  View.cover_of_tiledL (runMid c i arg2 harg2 arg3 harg3 hc0 hc1 x0 xo).1 S1x2048.size (by sl_kernel_rfl) y

/-- What a middle point leaves in the output's staging buffer. -/
def outMid (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) : Vec F S1x2048 .f32 :=
  VO.read (Elt F) (VO.writes (Elt F) VO.junk (runMid c i arg2 harg2 arg3 harg3 hc0 hc1 x0 xo).1)

/-- At a last point the two stores of the whole buffer tile it, so they cover it. -/
theorem coverLast (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) (y : S1x2048.Idx) :
    ∃ pc ∈ (runLast c i arg2 harg2 arg3 harg3 hc0 hc1 x0 xo).1, y ∈ pc.1.set :=
  View.cover_of_tiledL (runLast c i arg2 harg2 arg3 harg3 hc0 hc1 x0 xo).1 S1x2048.size (by sl_kernel_rfl) y

/-- What a last point leaves in the output's staging buffer. -/
def outLast (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) : Vec F S1x2048 .f32 :=
  VO.read (Elt F) (VO.writes (Elt F) VO.junk (runLast c i arg2 harg2 arg3 harg3 hc0 hc1 x0 xo).1)

/-! ## What the output buffer holds after each point -/

/-- A point ≡ 0 (mod 8) is not ≡ 7 (mod 8). -/
theorem not_seven_of_zero {n : ℕ} (h : n % 8 = 0) : ¬ n % 8 = 7 := by omega

/-- What the output's staging buffer holds after the body at position `n`: the case the position's
    residue mod 8 selects, run at the point's memrefs and its block of the matrix, a case that reads
    the running sum at what this leaves at `n - 1`. -/
def outsAt (c : Dev nD) : (n : ℕ) → n < cfg0.N → Vec F S1x2048 .f32
  | 0, hn => outFirst c (grid0.coords ⟨0, hn⟩) (msIn ⟨0, hn⟩) (hsIn ⟨0, hn⟩) (msOut ⟨0, hn⟩) (hsOut ⟨0, hn⟩)
      ((isFirst_iff ⟨0, hn⟩).mpr (Nat.zero_mod _)) (fun h => not_seven_of_zero (Nat.zero_mod 8) ((isLast_iff ⟨0, hn⟩).mp h))
      (iblk V c 0 ⟨0, hn⟩)
  | n + 1, hn =>
    if h0 : (n + 1) % 8 = 0 then
      outFirst c (grid0.coords ⟨n + 1, hn⟩) (msIn ⟨n + 1, hn⟩) (hsIn ⟨n + 1, hn⟩) (msOut ⟨n + 1, hn⟩) (hsOut ⟨n + 1, hn⟩)
        ((isFirst_iff ⟨n + 1, hn⟩).mpr h0) (fun h => not_seven_of_zero h0 ((isLast_iff ⟨n + 1, hn⟩).mp h))
        (iblk V c 0 ⟨n + 1, hn⟩)
    else if h7 : (n + 1) % 8 = 7 then
      outLast c (grid0.coords ⟨n + 1, hn⟩) (msIn ⟨n + 1, hn⟩) (hsIn ⟨n + 1, hn⟩) (msOut ⟨n + 1, hn⟩) (hsOut ⟨n + 1, hn⟩)
        (fun h => h0 ((isFirst_iff ⟨n + 1, hn⟩).mp h)) ((isLast_iff ⟨n + 1, hn⟩).mpr h7)
        (iblk V c 0 ⟨n + 1, hn⟩) (outsAt c n (Nat.lt_of_succ_lt hn))
    else
      outMid c (grid0.coords ⟨n + 1, hn⟩) (msIn ⟨n + 1, hn⟩) (hsIn ⟨n + 1, hn⟩) (msOut ⟨n + 1, hn⟩) (hsOut ⟨n + 1, hn⟩)
        (fun h => h0 ((isFirst_iff ⟨n + 1, hn⟩).mp h)) (fun h => h7 ((isLast_iff ⟨n + 1, hn⟩).mp h))
        (iblk V c 0 ⟨n + 1, hn⟩) (outsAt c n (Nat.lt_of_succ_lt hn))

/-- `outsAt` at a first point. -/
theorem outsAt_caseFirst (c : Dev nD) (t : Fin cfg0.N) (h0 : t.val % 8 = 0) :
    outsAt V c t.val t.isLt = outFirst c (grid0.coords t) (msIn t) (hsIn t) (msOut t) (hsOut t)
      ((isFirst_iff t).mpr h0) (fun h => not_seven_of_zero h0 ((isLast_iff t).mp h)) (iblk V c 0 t) := by
  obtain ⟨n, hn⟩ := t
  cases n with
  | zero => exact rfl
  | succ n => exact (dif_pos h0).trans rfl

/-- `outsAt` at a last point: over what the point before left. -/
theorem outsAt_caseLast (c : Dev nD) (t : Fin cfg0.N) (h0 : ¬t.val % 8 = 0) (h7 : t.val % 8 = 7) :
    outsAt V c t.val t.isLt = outLast c (grid0.coords t) (msIn t) (hsIn t) (msOut t) (hsOut t)
      (fun h => h0 ((isFirst_iff t).mp h)) ((isLast_iff t).mpr h7) (iblk V c 0 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h7)).trans rfl

/-- `outsAt` at a middle point: over what the point before left. -/
theorem outsAt_caseMid (c : Dev nD) (t : Fin cfg0.N) (h0 : ¬t.val % 8 = 0) (h7 : ¬t.val % 8 = 7) :
    outsAt V c t.val t.isLt = outMid c (grid0.coords t) (msIn t) (hsIn t) (msOut t) (hsOut t)
      (fun h => h0 ((isFirst_iff t).mp h)) (fun h => h7 ((isLast_iff t).mp h)) (iblk V c 0 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h7)).trans rfl

/-! ## The pipeline's proof data -/

/-- The proof data of the column-sum pipeline on core `c`: the arrays as the region finds them
    (`V`); after the body at point `t` the input's buffer at its block of the matrix and the output's
    at `outsAt`; the invariant holds the scoped rest and the generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = outsAt V c t.val t.isLt := by dsimp only [dat]

/-- The rest of the proof data, projected: full shares, nothing owed, the class's invariant, and no
    bound on the recorded pairs. -/
theorem q_eq (c : Dev nD) (w : Fin cfg0.W) : (dat V c).q w = fullShare := by dsimp only [dat]
theorem owed_eq (c : Dev nD) (t : Fin (cfg0.N + 1)) : (dat V c).owed t = 0 := by dsimp only [dat]
theorem Phi_eq (c : Dev nD) (t : Fin (cfg0.N + 1)) : (dat V c).Φ t = Pipeline.ΦA spec0 c := by dsimp only [dat]
theorem recorded_eq (c : Dev nD) (t : Fin (cfg0.N + 1)) : (dat V c).recorded t = Set.univ := rfl

/-- The input's current staging buffer holds its block of the matrix at every point. -/
theorem before_0 (c : Dev nD) (t : Fin cfg0.N) (d) : (dat V c).before 0 t d = iblk V c 0 t :=
  before_in_of V (dat V c) (A_eq V c 0) (after_0 V c) t d

/-- At a point that is not the first of its sweep the output's current staging buffer holds what the
    body left at the point before: the buffer is written back only after a point ≡ 7 (mod 8), and the
    point before one ≢ 0 is ≢ 7. -/
theorem before_1_kept (c : Dev nD) (t : Fin cfg0.N) (h0 : ¬t.val % 8 = 0) (d) :
    (dat V c).before 1 t d = outsAt V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (msIn t) fullShare ((dat V c).before 0 t d))
    ∗ (∃ d, owns (c : Thread nD τ) (msOut t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (msIn t) fullShare ((dat V c).after 0 t)
    ∗ owns (c : Thread nD τ) (msOut t) fullShare ((dat V c).after 1 t))

set_option maxHeartbeats 800000 in
/-- The body at any point: the input's memref holds its block; the residue of the point mod 8 says
    which case it is in; at a point that is not first the output's memref holds what the point before
    left; so the case's run applies; the invariant passes through unread; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  by_cases h0 : t.val % 8 = 0
  · rw [outsAt_caseFirst V c t h0]
    unfold outFirst
    iintro ⟨HΦ, Ho, ⟨%d0, H0⟩, ⟨%d1, H1⟩⟩
    iapply ((runFirst c (grid0.coords t) _ _ _ _ ((isFirst_iff t).mpr h0) (fun h => not_seven_of_zero h0 ((isLast_iff t).mp h)) (iblk V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _ _)
  · by_cases h7 : t.val % 8 = 7
    · rw [outsAt_caseLast V c t h0 h7]
      simp only [before_1_kept V c t h0]
      unfold outLast
      iintro ⟨HΦ, Ho, ⟨%d0, H0⟩, ⟨%d1, H1⟩⟩
      iapply ((runLast c (grid0.coords t) _ _ _ _ (fun h => h0 ((isFirst_iff t).mp h)) ((isLast_iff t).mpr h7) (iblk V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverLast c _ _ _ _ _ _ _ _ _)
    · rw [outsAt_caseMid V c t h0 h7]
      simp only [before_1_kept V c t h0]
      unfold outMid
      iintro ⟨HΦ, Ho, ⟨%d0, H0⟩, ⟨%d1, H1⟩⟩
      iapply ((runMid c (grid0.coords t) _ _ _ _ (fun h => h0 ((isFirst_iff t).mp h)) (fun h => h7 ((isLast_iff t).mp h)) (iblk V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverMid c _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-! ## The value of each case, in terms of the kernel's payloads

Every load and store of the body goes through the whole buffer, so the pieces read back are the last
store's payload, a load after a store reads that store's payload, and a load of the entry contents
reads them. -/

/-- The offsets of the body's rectangles are zero on both axes. -/
theorem offs_zero : (![0, 0] : Fin 2 → ℕ) = fun _ => 0 := by funext a; fin_cases a <;> rfl

/-- A first point leaves the column sums of its block added to zero. -/
theorem outFirst_eq (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) : outFirst c i arg2 harg2 arg3 harg3 hc0 hc1 x0 = k0_pay2 (k0_pay1 (F := F)) x0 := by
  unfold outFirst
  rw [View.read_writes_eq_canon _ _ _ (coverFirst c i arg2 harg2 arg3 harg3 hc0 hc1 x0)]
  unfold runFirst
  dsimp only
  sl_unfold_words
  rw [View.canon_cons_unit_zero (S := S1x2048) offs_zero]
  rw [View.readCov_unit_zero (S := S1x2048) _ offs_zero]
  simp only [View.readAt_eq_ld, harg2.read_unread, View.ld_unit_zero (S := S2048x2048) offs_zero]

/-- A middle point leaves the column sums of its block added to the running sum `xo`. -/
theorem outMid_eq (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) : outMid c i arg2 harg2 arg3 harg3 hc0 hc1 x0 xo = k0_pay2 xo x0 := by
  unfold outMid
  rw [View.read_writes_eq_canon _ _ _ (coverMid c i arg2 harg2 arg3 harg3 hc0 hc1 x0 xo)]
  unfold runMid
  dsimp only
  sl_unfold_words
  rw [View.canon_unit_zero (S := S1x2048) offs_zero]
  simp only [View.readAt_eq_ld, harg2.read_unread, harg3.read_unread, View.ld_unit_zero (S := S2048x2048) offs_zero, View.ld_unit_zero (S := S1x2048) offs_zero]

/-- A last point leaves 1 / (s + 1), `s` the column sums of its block added to the running sum `xo`. -/
theorem outLast_eq (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) : outLast c i arg2 harg2 arg3 harg3 hc0 hc1 x0 xo = k0_pay3 (k0_pay2 xo x0) := by
  unfold outLast
  rw [View.read_writes_eq_canon _ _ _ (coverLast c i arg2 harg2 arg3 harg3 hc0 hc1 x0 xo)]
  unfold runLast
  dsimp only
  sl_unfold_words
  rw [View.canon_cons_unit_zero (S := S1x2048) offs_zero]
  rw [View.readCov_unit_zero (S := S1x2048) _ offs_zero]
  simp only [View.readAt_eq_ld, harg2.read_unread, harg3.read_unread, View.ld_unit_zero (S := S2048x2048) offs_zero, View.ld_unit_zero (S := S1x2048) offs_zero]

/-- After a point ≡ 0 (mod 8) the output buffer holds the column sums of the point's block added to zero. -/
theorem outsAt_first (c : Dev nD) (t : Fin cfg0.N) (h : t.val % 8 = 0) :
    outsAt V c t.val t.isLt = k0_pay2 (k0_pay1 (F := F)) (iblk V c 0 t) :=
  (outsAt_caseFirst V c t h).trans (outFirst_eq c _ _ _ _ _ _ _ _)

/-- After a point ≢ 0, 7 (mod 8) it holds the column sums of the point's block added to what the point before left. -/
theorem outsAt_mid (c : Dev nD) (t : Fin cfg0.N) (h0 : ¬ t.val % 8 = 0) (h7 : ¬ t.val % 8 = 7) :
    outsAt V c t.val t.isLt = k0_pay2 (outsAt V c (t.val - 1) (Nat.lt_of_le_of_lt (Nat.sub_le _ _) t.isLt)) (iblk V c 0 t) :=
  (outsAt_caseMid V c t h0 h7).trans (outMid_eq c _ _ _ _ _ _ _ _ _)

/-- After a point ≡ 7 (mod 8) it holds 1 / (s + 1), `s` the column sums of the point's block added to what the point before left. -/
theorem outsAt_last (c : Dev nD) (t : Fin cfg0.N) (h0 : ¬ t.val % 8 = 0) (h7 : t.val % 8 = 7) :
    outsAt V c t.val t.isLt = k0_pay3 (k0_pay2 (outsAt V c (t.val - 1) (Nat.lt_of_le_of_lt (Nat.sub_le _ _) t.isLt)) (iblk V c 0 t)) :=
  (outsAt_caseLast V c t h0 h7).trans (outLast_eq c _ _ _ _ _ _ _ _ _)

end Cert.Kernel.Colsum

end
-- ==== Proof.WMainRuns.lean ====
import proofs.«154289_j20401094656620_2_alg».proof.Proof.Gen.Kernel.Launch
import proofs.«154289_j20401094656620_2_alg».proof.Proof.Gen.Kernel.Skeleton
import proofs.«154289_j20401094656620_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.MainK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the main kernel's body, in closed form over the grid -/

/-- The first conditional (the accumulator is zeroed): the K coordinate is 0. -/
abbrev condZ (i : grid1.Coords) : Prop :=
  (Scalar.cmpi .ne (Scalar.extui (Scalar.cmpi .eq (BitVec.ofNat 32 (i 1).val) 0#32)) 0#32) = 1#1

/-- It holds exactly at the first point of each sweep of the K axis. -/
theorem hcondZ : ∀ t : Fin cfg1.N, condZ (grid1.coords t) ↔ t.val % 16 = 0 :=
  (by decide +kernel : ∀ t : Fin grid1.N, condZ (grid1.coords t) ↔ t.val % 16 = 0)

/-- The second conditional (the output block is computed and stored): the K coordinate is 15. -/
abbrev condL (i : grid1.Coords) : Prop := k1_cond2 i = 1#1

/-- It holds exactly at the last point of each sweep of the K axis. -/
theorem hcondL : ∀ t : Fin cfg1.N, condL (grid1.coords t) ↔ t.val % 16 = 15 :=
  (by decide +kernel : ∀ t : Fin grid1.N, condL (grid1.coords t) ↔ t.val % 16 = 15)

/-! ## Where the windows are idle -/

/-- Away from the last point of a sweep the body stores nothing into the output block, -/
theorem idle6 : ∀ t : Fin cfg1.N, ¬condL (grid1.coords t) → cfg1.idle 6 (grid1.coords t) = true := by decide +kernel
/-- and the block is not written back there; -/
theorem noFlush6 : ∀ t : Fin cfg1.N, ¬condL (grid1.coords t) → (cfg1.win 6).flush t = false := by decide +kernel
/-- at the last point of a sweep the body stores the whole block. -/
theorem live6 : ∀ t : Fin cfg1.N, condL (grid1.coords t) → cfg1.idle 6 (grid1.coords t) = false := by decide +kernel

/-- The offsets of every access of the body: zero on both axes (each buffer is read and written whole), -/
theorem hz2 : (![0, 0] : Fin 2 → Nat) = fun _ => 0 := funext fun a => by fin_cases a <;> rfl
/-- and on the one axis of the bias. -/
theorem hz1 : (![0] : Fin 1 → Nat) = fun _ => 0 := funext fun a => by fin_cases a <;> rfl

/-- The accumulator: a whole scoped buffer of the kernel's own, carried from point to point. -/
abbrev scM : Memref sig .tc .vmem S2048x64 .f32 := Memref.whole cc1_scratch0

end Cert.Kernel.MainK

end
-- ==== Proof.WMainRun.lean ====
import proofs.«154289_j20401094656620_2_alg».proof.Proof.WMainRuns

set_option maxRecDepth 16384

noncomputable section

namespace Cert.Kernel.MainK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three cases, each run once on any whole buffers -/

set_option maxHeartbeats 1000000 in
/-- The body at the first point of a sweep (the accumulator is zeroed, the output block not touched): from the
    block of A at `x0`, the K block of xs at `x3` and the accumulator at anything, it leaves the accumulator at
    the product of the two blocks added to zero. -/
theorem run_first (c : Dev nD) (E : Set ℕ) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S2048x64 .f32) (harg8 : arg8.IsWhole) (arg9 : Memref sig .tc .vmem S2048x64 .f32) (harg9 : arg9.IsWhole)
    (hc0 : condZ i) (hc1 : ¬condL i)
    (x0 : Vec F S2048x1024 .f32) (x3 : Vec F S1024x64 .f32) (K : PUnit → sProp 𝕄) :
    iprop(owns (c : Thread nD τ) arg2 fullShare x0 ∗ owns (c : Thread nD τ) arg5 fullShare x3 ∗ (∃ d, owns (c : Thread nD τ) arg9 fullShare d)
        ∗ (iprop(owns (c : Thread nD τ) arg2 fullShare x0 ∗ owns (c : Thread nD τ) arg5 fullShare x3
            ∗ owns (c : Thread nD τ) arg9 fullShare (k1_pay2 x0 x3 (k1_pay1 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f3, %hf3, H3⟩, ⟨%ds, %fs, -, HS⟩, Hk⟩
  subst hf0; subst hf3
  sl_exec (disch := first | exact hc0 | exact hc1)
  sl_step
  iapply Hk
  isplitl [H0]
  · iexists f0; isplitr; · ipureintro; rfl
    iexact H0
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2048x64_S2048x64_0_0 y⟩)]
  rw [View.canon_cons_unit_zero (S := S2048x64) hz2]
  sl_unfold_words
  rw [View.readCov_unit_zero (S := S2048x64) _ hz2]
  simp only [View.readAt_eq_ld, View.ld_unit_zero (S := S2048x1024) hz2, View.ld_unit_zero (S := S1024x64) hz2]

set_option maxHeartbeats 1000000 in
/-- The body at a middle point of a sweep (neither conditional taken): from the block of A at `x0`, the K block of xs
    at `x3` and the accumulator at `xs`, it leaves the accumulator at `xs` plus the product of the two blocks. -/
theorem run_mid (c : Dev nD) (E : Set ℕ) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S2048x64 .f32) (harg8 : arg8.IsWhole) (arg9 : Memref sig .tc .vmem S2048x64 .f32) (harg9 : arg9.IsWhole)
    (hc0 : ¬condZ i) (hc1 : ¬condL i)
    (x0 : Vec F S2048x1024 .f32) (x3 : Vec F S1024x64 .f32) (xs : Vec F S2048x64 .f32) (K : PUnit → sProp 𝕄) :
    iprop(owns (c : Thread nD τ) arg2 fullShare x0 ∗ owns (c : Thread nD τ) arg5 fullShare x3 ∗ owns (c : Thread nD τ) arg9 fullShare xs
        ∗ (iprop(owns (c : Thread nD τ) arg2 fullShare x0 ∗ owns (c : Thread nD τ) arg5 fullShare x3
            ∗ owns (c : Thread nD τ) arg9 fullShare (k1_pay2 x0 x3 xs)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f3, %hf3, H3⟩, ⟨%fs, %hfs, HS⟩, Hk⟩
  subst hf0; subst hf3; subst hfs
  sl_exec (disch := first | exact hc0 | exact hc1)
  sl_step
  iapply Hk
  isplitl [H0]
  · iexists f0; isplitr; · ipureintro; rfl
    iexact H0
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2048x64_S2048x64_0_0 y⟩)]
  rw [View.canon_cons_unit_zero (S := S2048x64) hz2]
  simp only [View.readAt_eq_ld, View.ld_unit_zero (S := S2048x1024) hz2, View.ld_unit_zero (S := S1024x64) hz2, View.ld_unit_zero (S := S2048x64) hz2]

set_option maxHeartbeats 2000000 in
/-- The body at the last point of a sweep (the second conditional taken): it adds the product of the blocks into the
    accumulator, then stores into the output block the activation of the completed accumulator with the row block of
    xs, the scaling column, the weights and the bias. -/
theorem run_last (c : Dev nD) (E : Set ℕ) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S2048x64 .f32) (harg8 : arg8.IsWhole) (arg9 : Memref sig .tc .vmem S2048x64 .f32) (harg9 : arg9.IsWhole)
    (hc0 : ¬condZ i) (hc1 : condL i)
    (x0 : Vec F S2048x1024 .f32) (x1 : Vec F S2048x64 .f32) (x2 : Vec F S2048x1 .f32) (x3 : Vec F S1024x64 .f32)
    (x4 : Vec F S64x64 .f32) (x5 : Vec F S64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 (k1_pay2 x0 x3 xs) x1 x2 x4 x5)
            ∗ owns (c : Thread nD τ) arg9 fullShare (k1_pay2 x0 x3 xs)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_cons_self, View.mem_set_unit_zero hz2 inb_S2048x64_S2048x64_0_0 y⟩)]
    rw [View.canon_cons_unit_zero (S := S2048x64) hz2]
    sl_unfold_words
    rw [View.readCov_unit_zero (S := S2048x64) _ hz2]
    simp only [View.readAt_eq_ld, View.ld_unit_zero (S := S2048x1024) hz2, View.ld_unit_zero (S := S1024x64) hz2,
      View.ld_unit_zero (S := S2048x64) hz2, View.ld_unit_zero (S := S2048x1) hz2, View.ld_unit_zero (S := S64x64) hz2,
      View.ld_unit_zero (S := S64) hz1]
  iexists _; isplitr
  swap; · iexact HS
  ipureintro
  sl_unfold_words
  rw [View.read_writes_eq_canon _ _ _ (fun y => ⟨_, List.mem_cons_self, View.mem_set_unit_zero hz2 inb_S2048x64_S2048x64_0_0 y⟩)]
  rw [View.canon_cons_unit_zero (S := S2048x64) hz2]
  simp only [View.readAt_eq_ld, View.ld_unit_zero (S := S2048x1024) hz2, View.ld_unit_zero (S := S1024x64) hz2, View.ld_unit_zero (S := S2048x64) hz2]

end Cert.Kernel.MainK

end
-- ==== Proof.WMainBody.lean ====
import proofs.«154289_j20401094656620_2_alg».proof.Proof.WMainRun

set_option maxRecDepth 16384

noncomputable section

namespace Cert.Kernel.MainK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the accumulator and the output block hold after each point -/

/-- The accumulator after the body at position `n`: at the first point of a sweep of the K axis the product of
    the point's blocks added to zero, afterwards added to what the point before left. -/
def scrAt (c : Dev nD) : (n : ℕ) → n < cfg1.N → Vec F S2048x64 .f32
  | 0, hn => k1_pay2 (iblk V c 0 ⟨0, hn⟩) (iblk V c 3 ⟨0, hn⟩) (k1_pay1 (F := F))
  | n + 1, hn => k1_pay2 (iblk V c 0 ⟨n + 1, hn⟩) (iblk V c 3 ⟨n + 1, hn⟩)
      (if (n + 1) % 16 = 0 then k1_pay1 (F := F) else scrAt c n (Nat.lt_of_succ_lt hn))

/-- The output block's buffer and the accumulator after the body at position `n`. The first component is what the
    last point of a sweep stores from the accumulator it has just completed; elsewhere nothing reads it. -/
def outsAt (c : Dev nD) : (n : ℕ) → n < cfg1.N → Vec F S2048x64 .f32 × Vec F S2048x64 .f32 :=
  fun n hn => (k1_pay3 (scrAt V c n hn) (iblk V c 1 ⟨n, hn⟩) (iblk V c 2 ⟨n, hn⟩) (iblk V c 4 ⟨n, hn⟩) (iblk V c 5 ⟨n, hn⟩),
    scrAt V c n hn)

theorem scrAt_first (c : Dev nD) (t : Fin cfg1.N) (h : t.val % 16 = 0) :
    scrAt V c t.val t.isLt = k1_pay2 (iblk V c 0 t) (iblk V c 3 t) (k1_pay1 (F := F)) := by
  obtain ⟨n, hn⟩ := t
  cases n with
  | zero => rfl
  | succ n => unfold scrAt; rw [if_pos h]

theorem scrAt_next (c : Dev nD) (t : Fin cfg1.N) (h : ¬ t.val % 16 = 0) :
    scrAt V c t.val t.isLt = k1_pay2 (iblk V c 0 t) (iblk V c 3 t)
      (scrAt V c (t.val - 1) (Nat.lt_of_le_of_lt (Nat.sub_le _ _) t.isLt)) := by
  obtain ⟨n, hn⟩ := t
  cases n with
  | zero => exact absurd (Nat.zero_mod _) h
  | succ n => rw [scrAt, if_neg h]; rfl

/-! ## The region invariant -/

/-- A scoped buffer at some contents. -/
abbrev anyAt (c : Dev nD) (b : Ref sig .tc) : sProp 𝕄 :=
  iprop(∃ f : Buf (Elt F) ((c : Thread nD τ).loc b), ((c : Thread nD τ).loc b) ↦{fullShare} f)

/-- What the region is entered with, as a chain: the other region's four staging buffers at some contents, the
    accumulator at some contents, the generator register at some state. -/
theorem PhiA_eq (c : Dev nD) :
    (Pipeline.ΦA spec1 c : sProp 𝕄)
      = iprop((anyAt c cc0_stg0_0 ∗ anyAt c cc0_stg0_1 ∗ anyAt c cc0_stg1_0 ∗ anyAt c cc0_stg1_1
          ∗ (∃ d, owns (c : Thread nD τ) scM fullShare d)) ∗ (∃ r, prngReg c r)) := by
  unfold Pipeline.ΦA; rw [scopedRest1_eq]; simp only [scM, owns_whole]; try rfl

/-- The invariant before position `n`: before the first point what the region is entered with; afterwards the same
    with the accumulator at what the point before left. -/
def PhiS (c : Dev nD) : (n : ℕ) → n ≤ cfg1.N → sProp 𝕄
  | 0, _ => Pipeline.ΦA spec1 c
  | n + 1, hn => iprop((anyAt c cc0_stg0_0 ∗ anyAt c cc0_stg0_1 ∗ anyAt c cc0_stg1_0 ∗ anyAt c cc0_stg1_1
      ∗ owns (c : Thread nD τ) scM fullShare (scrAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((anyAt c cc0_stg0_0 ∗ anyAt c cc0_stg0_1 ∗ anyAt c cc0_stg1_0 ∗ anyAt c cc0_stg1_1
      ∗ owns (c : Thread nD τ) scM fullShare (scrAt V c n hn)) ∗ (∃ r, prngReg c r)) := rfl

theorem PhiS_pos (c : Dev nD) (n : ℕ) (h : n ≤ cfg1.N) (hz : n ≠ 0) :
    PhiS V c n h = iprop((anyAt c cc0_stg0_0 ∗ anyAt c cc0_stg0_1 ∗ anyAt c cc0_stg1_0 ∗ anyAt c cc0_stg1_1
      ∗ owns (c : Thread nD τ) scM fullShare (scrAt V c (n - 1) (by omega))) ∗ (∃ r, prngReg c r)) := by
  cases n with
  | zero => exact absurd rfl hz
  | succ n => rfl

/-! ## The proof data -/

/-- The proof data of the main kernel's pipeline on core `c`: the arrays as the region finds them; after the body
    each input's buffer at its block, the output's at `outsAt`; the invariant `PhiS`; the array the row blocks and
    the K blocks of xs are both read from held in two halves; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q w := match w with
    | ⟨0, _⟩ => fullShare
    | ⟨1, _⟩ => fullShare.left
    | ⟨2, _⟩ => fullShare
    | ⟨3, _⟩ => fullShare.right
    | ⟨4, _⟩ => fullShare
    | ⟨5, _⟩ => fullShare
    | ⟨6, _⟩ => fullShare
  owed _ := 0

theorem A_eq (c : Dev nD) (w : Fin cfg1.W) : (dat V c).A w = V c (Pipeline.arrRef spec1 w) := by
  dsimp only [dat]

theorem owed_eq (c : Dev nD) (t : Fin (cfg1.N + 1)) : (dat V c).owed t = 0 := by dsimp only [dat]

theorem recorded_eq (c : Dev nD) (t : Fin (cfg1.N + 1)) : (dat V c).recorded t = Set.univ := rfl

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
/-- Input window 0's current buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Window 0 is an input: the body leaves its block in place. -/
theorem leaves_0 (c : Dev nD) (t : Fin cfg1.N) :
    (dat V c).leavesExact 0 t = owns (c : Thread nD τ) (st1_0 t) fullShare (iblk V c 0 t) := by
  unfold Dat.leavesExact; rw [show cfg1.idle 0 (cfg1.grid.coords t) = false from rfl, after_0]

theorem after_1 (c : Dev nD) (t : Fin cfg1.N) : (dat V c).after 1 t = iblk V c 1 t := by dsimp only [dat]
/-- Input window 1's current buffer holds its block at every point, fetched there or not. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Window 1 is an input: the body leaves its block in place. -/
theorem leaves_1 (c : Dev nD) (t : Fin cfg1.N) :
    (dat V c).leavesExact 1 t = owns (c : Thread nD τ) (st1_1 t) fullShare (iblk V c 1 t) := by
  unfold Dat.leavesExact; rw [show cfg1.idle 1 (cfg1.grid.coords t) = false from rfl, after_1]

theorem after_2 (c : Dev nD) (t : Fin cfg1.N) : (dat V c).after 2 t = iblk V c 2 t := by dsimp only [dat]
/-- Input window 2's current buffer holds its block at every point, fetched there or not. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Window 2 is an input: the body leaves its block in place. -/
theorem leaves_2 (c : Dev nD) (t : Fin cfg1.N) :
    (dat V c).leavesExact 2 t = owns (c : Thread nD τ) (st1_2 t) fullShare (iblk V c 2 t) := by
  unfold Dat.leavesExact; rw [show cfg1.idle 2 (cfg1.grid.coords t) = false from rfl, after_2]

theorem after_3 (c : Dev nD) (t : Fin cfg1.N) : (dat V c).after 3 t = iblk V c 3 t := by dsimp only [dat]
/-- Input window 3's current buffer holds its block at every point, fetched there or not. -/
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Window 3 is an input: the body leaves its block in place. -/
theorem leaves_3 (c : Dev nD) (t : Fin cfg1.N) :
    (dat V c).leavesExact 3 t = owns (c : Thread nD τ) (st1_3 t) fullShare (iblk V c 3 t) := by
  unfold Dat.leavesExact; rw [show cfg1.idle 3 (cfg1.grid.coords t) = false from rfl, after_3]

theorem after_4 (c : Dev nD) (t : Fin cfg1.N) : (dat V c).after 4 t = iblk V c 4 t := by dsimp only [dat]
/-- Input window 4's current buffer holds its block at every point, fetched there or not. -/
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Window 4 is an input: the body leaves its block in place. -/
theorem leaves_4 (c : Dev nD) (t : Fin cfg1.N) :
    (dat V c).leavesExact 4 t = owns (c : Thread nD τ) (st1_4 t) fullShare (iblk V c 4 t) := by
  unfold Dat.leavesExact; rw [show cfg1.idle 4 (cfg1.grid.coords t) = false from rfl, after_4]

theorem after_5 (c : Dev nD) (t : Fin cfg1.N) : (dat V c).after 5 t = iblk V c 5 t := by dsimp only [dat]
/-- Input window 5's current buffer holds its block at every point, fetched there or not. -/
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
/-- Window 5 is an input: the body leaves its block in place. -/
theorem leaves_5 (c : Dev nD) (t : Fin cfg1.N) :
    (dat V c).leavesExact 5 t = owns (c : Thread nD τ) (st1_5 t) fullShare (iblk V c 5 t) := by
  unfold Dat.leavesExact; rw [show cfg1.idle 5 (cfg1.grid.coords t) = false from rfl, after_5]

theorem after_6 (c : Dev nD) (t : Fin cfg1.N) : (dat V c).after 6 t = (outsAt V c t.val t.isLt).1 := by dsimp only [dat]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point: the inputs' buffers hold their blocks; the closed forms say which case the point is in; the
    invariant hands the body the accumulator at what the point before left (at anything before the first point) and
    takes it back at this point's contents; the output block's buffer is handed back as found except at the last
    point of a sweep, where the body stores it whole; the other scoped buffers, the generator register and what the
    core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5]
  have hN : t.val < 128 := lt_of_lt_of_eq t.isLt (show cfg1.N = 128 from N_1)
  by_cases h0 : t.val % 16 = 0
  · have h1 : ¬ t.val % 16 = 15 := by omega
    have hL : ¬ condL (grid1.coords t) := fun h => h1 ((hcondL t).mp h)
    rw [Dat.leavesExact_idle (dat V c) 6 t (idle6 t hL) (noFlush6 t hL)]
    rw [scrAt_first V c t h0]
    by_cases hz : t.val = 0
    · rw [PhiS_castSucc V c t, PhiS_zero V c _ _ hz, PhiA_eq]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, H6⟩
      iapply (run_first c Set.univ (grid1.coords t) _ _ _ _ _ _ _ _ _ _ _ _ _ _ _ _ ((hcondZ t).mpr h0) hL (iblk V c 0 t) (iblk V c 3 t) _)
      isplitl [H0]; · iexact H0
      isplitl [H3]; · iexact H3
      isplitl [HS]; · iexact HS
      iintro ⟨H0, H3, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc V c t, PhiS_pos V c _ _ hz]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, H6⟩
      iapply (run_first c Set.univ (grid1.coords t) _ _ _ _ _ _ _ _ _ _ _ _ _ _ _ _ ((hcondZ t).mpr h0) hL (iblk V c 0 t) (iblk V c 3 t) _)
      isplitl [H0]; · iexact H0
      isplitl [H3]; · iexact H3
      isplitl [HS]; · iexists _; iexact HS
      iintro ⟨H0, H3, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hZ : ¬ condZ (grid1.coords t) := fun h => h0 ((hcondZ t).mp h)
    have hz : t.val ≠ 0 := fun h => h0 (by rw [h])
    rw [scrAt_next V c t h0]
    rw [PhiS_castSucc V c t, PhiS_pos V c _ _ hz]
    by_cases h1 : t.val % 16 = 15
    · have hL : condL (grid1.coords t) := (hcondL t).mpr h1
      rw [show (dat V c).leavesExact 6 t = owns (c : Thread nD τ) (st1_6 t) fullShare ((dat V c).after 6 t) from by
        unfold Dat.leavesExact; rw [live6 t hL], after_6]
      rw [show (outsAt V c t.val t.isLt).1 = k1_pay3 (scrAt V c t.val t.isLt) (iblk V c 1 t) (iblk V c 2 t) (iblk V c 4 t) (iblk V c 5 t) from rfl]
      rw [scrAt_next V c t h0]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid1.coords t) _ _ _ _ _ _ _ _ _ _ _ _ _ _ _ _ hZ hL (iblk V c 0 t) (iblk V c 1 t) (iblk V c 2 t) (iblk V c 3 t) (iblk V c 4 t) (iblk V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬ condL (grid1.coords t) := fun h => h1 ((hcondL t).mp h)
      rw [Dat.leavesExact_idle (dat V c) 6 t (idle6 t hL) (noFlush6 t hL)]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, H6⟩
      iapply (run_mid c Set.univ (grid1.coords t) _ _ _ _ _ _ _ _ _ _ _ _ _ _ _ _ hZ hL (iblk V c 0 t) (iblk V c 3 t) _ _)
      isplitl [H0]; · iexact H0
      isplitl [H3]; · iexact H3
      isplitl [HS]; · iexact HS
      iintro ⟨H0, H3, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the region was entered with: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HE0, HE1, HE2, HE3, HS⟩, Hg⟩
  isplitr [Hg]
  · isplitl [HE0]; · iexact HE0
    isplitl [HE1]; · iexact HE1
    isplitl [HE2]; · iexact HE2
    isplitl [HE3]; · iexact HE3
    iexists _; iexact HS
  iexact Hg

theorem hout (c : Dev nD) : (dat V c).Φ (Fin.last cfg1.N) ⊢ Pipeline.ΦA spec1 c :=
  Phi_out V c _ (by rw [Fin.val_last]; have : cfg1.N = 128 := N_1; omega)

/-! ## The accumulator and the output block, point by point, over the body's payloads -/

theorem scratch_first (c : Dev nD) (t : Fin cfg1.N) (h : t.val % 16 = 0) :
    (outsAt V c t.val t.isLt).2 = k1_pay2 (iblk V c 0 t) (iblk V c 3 t) (k1_pay1 (F := F)) :=
  scrAt_first V c t h

theorem scratch_next (c : Dev nD) (t : Fin cfg1.N) (h : ¬ t.val % 16 = 0) :
    (outsAt V c t.val t.isLt).2 = k1_pay2 (iblk V c 0 t) (iblk V c 3 t)
      (outsAt V c (t.val - 1) (Nat.lt_of_le_of_lt (Nat.sub_le _ _) t.isLt)).2 :=
  scrAt_next V c t h

theorem out_last (c : Dev nD) (t : Fin cfg1.N) (h : t.val % 16 = 15) :
    (outsAt V c t.val t.isLt).1 = k1_pay3 (outsAt V c t.val t.isLt).2 (iblk V c 1 t) (iblk V c 2 t) (iblk V c 4 t) (iblk V c 5 t) :=
  rfl

end Cert.Kernel.MainK

end
-- ==== Proof.WTwoRegions.lean ====
import proofs.«154289_j20401094656620_2_alg».proof.Proof.Gen.Kernel.Launch
import proofs.«154289_j20401094656620_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.TwoRegions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers at some moment of @main. -/
abbrev Contents (F : FTy → Type) [FloatOps F] : Type := (c : Dev nD) → (b : Ref sig .tc) → Buf (Elt F) ((c : Thread nD τ).loc b)

/-- How the full share of the array that two input windows of the second kernel read (the scaled features,
    by row block and by contraction block) is dealt between them; every other window holds its array whole. -/
def shareOf : Fin cfg1.W → PosShare TreeShare
  | ⟨1, _⟩ => fullShare.left
  | ⟨3, _⟩ => fullShare.right
  | _ => fullShare

/-- What the two kernels' own proofs provide, at ANY contents `V` the buffers may hold when a region is entered:
    the proof data of each pipeline (arrays read off `V`), its body obligation at every grid point, and how its
    invariant starts from and ends at the scoped buffers and the generator register alone. -/
structure Halves (F : FTy → Type) [FloatOps F] where
  dat0 : Contents F → (c : Dev nD) → Dat τ (Elt F) Unit ℕ (UR sig nD τ) ℕ cfg0 c
  A0 : ∀ V c w, (dat0 V c).A w = V c (Pipeline.arrRef spec0 w)
  q0 : ∀ V c w, (dat0 V c).q w = fullShare
  owed0 : ∀ V c t, (dat0 V c).owed t = 0
  rec0 : ∀ V c t, (dat0 V c).recorded t = Set.univ
  in0 : ∀ V c, Pipeline.ΦA spec0 c ⊢ (dat0 V c).Φ 0
  out0 : ∀ V c, (dat0 V c).Φ (Fin.last cfg0.N) ⊢ Pipeline.ΦA spec0 c
  body0 : ∀ V c, BodyObligation (dat0 V c) (defs₀ (F := F)) Variants.none () Set.univ
  dat1 : Contents F → (c : Dev nD) → Dat τ (Elt F) Unit ℕ (UR sig nD τ) ℕ cfg1 c
  A1 : ∀ V c w, (dat1 V c).A w = V c (Pipeline.arrRef spec1 w)
  q1 : ∀ V c w, (dat1 V c).q w = shareOf w
  owed1 : ∀ V c t, (dat1 V c).owed t = 0
  rec1 : ∀ V c t, (dat1 V c).recorded t = Set.univ
  in1 : ∀ V c, Pipeline.ΦA spec1 c ⊢ (dat1 V c).Φ 0
  out1 : ∀ V c, (dat1 V c).Φ (Fin.last cfg1.N) ⊢ Pipeline.ΦA spec1 c
  body1 : ∀ V c, BodyObligation (dat1 V c) (defs₀ (F := F)) Variants.none () Set.univ

variable (H : Halves F) (m : (ℓ : Loc nD τ sig) → Buf (Elt F) ℓ) (ρ : Dev nD → PrngReg)

/-! ## The buffers' contents at each boundary of @main -/

/-- At launch. -/
abbrev C0 : Contents F := fun c b => Gen.V0 m c b

/-- What the first region leaves in its output array: the write-backs of all 64 points folded. -/
def res0 (c : Dev nD) : Buf (Elt F) ((c : Thread nD τ).loc main_v0) := (H.dat0 (C0 m) c).arrAt 1 cfg0.N

/-- The regions' results as the unknowns the generated valuations are written over, the first region's only. -/
def outsA : Gen.Outs (F := F) := fun _ r c =>
  Function.update (β := fun r : Ref sig .tc => Buf (Elt F) ((c : Thread nD τ).loc r)) (fun r => m ((c : Thread nD τ).loc r)) main_v0 (res0 H m c) r

/-- When the second region is entered: after the first region and the three host operations. -/
abbrev C2 : Contents F := fun c b => Gen.V2 m (outsA H m) c b

/-- What the second region leaves in its output array. -/
def res1 (c : Dev nD) : Buf (Elt F) ((c : Thread nD τ).loc main_v4) := (H.dat1 (C2 H m) c).arrAt 6 cfg1.N

/-- Both regions' results. -/
def outs : Gen.Outs (F := F) := fun J r c =>
  if J = 3 then Function.update (β := fun r : Ref sig .tc => Buf (Elt F) ((c : Thread nD τ).loc r)) (fun r => m ((c : Thread nD τ).loc r)) main_v4 (res1 H m c) r
  else outsA H m J r c

theorem outs_one (c : Dev nD) : outs H m 1 main_v0 c = res0 H m c := by
  unfold outs outsA; rw [if_neg (by decide)]; exact Function.update_self ..
theorem outs_three (c : Dev nD) : outs H m 3 main_v4 c = res1 H m c := by
  unfold outs; rw [if_pos rfl]; exact Function.update_self ..
theorem V1_outs (c : Dev nD) : Gen.V1 m (outs H m) c = Gen.V1 m (outsA H m) c := by
  unfold Gen.V1; rw [outs_one]; unfold outsA; rw [Function.update_self]
theorem V2_outs (c : Dev nD) : Gen.V2 m (outs H m) c = Gen.V2 m (outsA H m) c := by
  unfold Gen.V2; rw [V1_outs]

/-! ## The proof data family and the thread state -/

/-- The prefetched tables' admissible contents: neither pipeline has a table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => H.dat0 (C0 m) c
  | ⟨1, _⟩ => fun c => H.dat1 (C2 H m) c

abbrev 𝒱₀ : Variants := Variants.none
/-- No core owes another anything. -/
abbrev Lz : GSem nD τ sig → Finset Unit := fun _ => ∅
abbrev lvz : GSem nD τ sig → Unit → ℕ := fun _ _ => 0

/-- What rides beside the buffers through every segment: the generator register at some state and the core owing nothing. -/
abbrev Rest (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region -/

/-- After the first region each of its arrays holds what the pipeline leaves there: the input array as entered,
    the output array its folded write-backs. -/
theorem hF0 (c : Dev nD) (w : Fin cfg0.W) : (H.dat0 (C0 m) c).arrAt w cfg0.N = Gen.V1 m (outsA H m) c (Pipeline.arrRef spec0 w) := by
  match w with
  | ⟨0, _⟩ =>
    refine (((H.dat0 (C0 m) c).arrAt_in 0 rfl _).trans (H.A0 _ c 0)).trans ?_
    exact (Gen.V1_of m (outsA H m) c main_arg0 (by decide)).symm
  | ⟨1, _⟩ =>
    show res0 H m c = _
    unfold Gen.V1 outsA
    rw [Function.update_self, Function.update_self]

theorem hrest0 (c : Dev nD) : ∀ b, b ∉ Finset.univ.image (Pipeline.arrRef spec0) → (fun b : Ref sig .tc => Gen.V1 m (outsA H m) c b) b = C0 m c b :=
  fun b hb => Gen.V1_of m (outsA H m) c b (fun h => hb (by
    rw [List.mem_singleton] at h; subst h
    exact Finset.mem_image.mpr ⟨1, Finset.mem_univ _, rfl⟩))

-- unification with the pinned configuration may need to unfold plain definitions in a metavariable's type
set_option backward.isDefEq.respectTransparency.types false in
/-- THE FIRST REGION over the thread state: entered from every unscoped buffer at the launch contents, left with the
    output array at its folded write-backs and every other unscoped buffer as entered. Its arrays are split out of
    the unscoped buffers and put back; the generator register goes through the kernel's invariant and comes out. -/
def reg0 : Pipeline.RegionSeg (pcfgs (F := F)) adm (pdats H m) () defs₀ 𝒱₀ Lz lvz 0 where
  win := launch0.win.to₀
  block_pos := launch0.block_pos
  stage_whole := launch0.stage_whole
  K := PEmpty
  osem k := k.elim
  ho := Pipeline.OwnSemFacts.none _
  hbody c := (H.body0 (C0 m) c).loose
  hwaits := Pipeline.hwaits_of_owed_zero _ _ _ _ Lz lvz 0 fun c t => H.owed0 (C0 m) c t
  pre c := iprop(StableHlo.held (c : Thread nD τ) (Pipeline.ucRefs τ sig) (Gen.V0 m c) ∗ Rest c)
  post c := iprop(StableHlo.held (c : Thread nD τ) (Pipeline.ucRefs τ sig) (Gen.V1 m (outs H m) c) ∗ Rest c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats H m) launch0.win launch0.arr_whole c
      ((pdats H m 0 c).share_full fun w => H.q0 (C0 m) c w) (C0 m c) fun w => H.A0 (C0 m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats H m 0 c).recorded 0 = Set.univ from H.rec0 (C0 m) c 0]; trivial)
      rw [show (pdats H m 0 c).owed 0 = 0 from H.owed0 (C0 m) c 0]
      iexact HO
    isplitl [Hp]; · iexact Hp
    iexact Hrest
  hin c := by
    refine (show _ ⊢ Pipeline.ΦA (U := UR sig nD τ) (Val := Elt F) spec0 c from ?_).trans (H.in0 (C0 m) c)
    unfold Pipeline.ΦA
    iintro ⟨Hp, -, Hr⟩
    isplitl [Hr]; · iexact Hr
    iexact Hp
  hout c := by
    rw [Pipeline.ownSems0_none]
    refine (H.out0 (C0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m) ((pdats H m 0 c).share_full fun w => H.q0 (C0 m) c w)
      (C0 m c) (fun b : Ref sig .tc => Gen.V1 m (outsA H m) c b) ((pdats H m 0 c).arrAt · cfg0.N) (hF0 H m c) (hrest0 H m c)
    rw [Pipeline.unscopedBufs_held] at hjoin
    rw [V1_outs]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 0 c).owed (Fin.last _) = 0 from H.owed0 (C0 m) c _]
    iexact HO

/-! ## The second region's arrays: one buffer behind two windows -/

section Shared

variable {c : Dev nD} (dat : Dat τ (Elt F) Unit ℕ (UR sig nD τ) ℕ cfg1 c) (hq : ∀ w, dat.q w = shareOf w)
  (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))

/-- The six distinct buffers behind the seven windows' arrays, one by one. -/
theorem arrBufs1_eq : (Pipeline.arrBufs (Ix := Unit) (Name := ℕ) (U := UR sig nD τ) (Lvl := ℕ) spec1 c V : sProp 𝕄)
    = iprop((((c : Thread nD τ).loc main_arg0) ↦{fullShare} V main_arg0) ∗ (((c : Thread nD τ).loc main_v3) ↦{fullShare} V main_v3)
        ∗ (((c : Thread nD τ).loc main_v1) ↦{fullShare} V main_v1) ∗ (((c : Thread nD τ).loc main_arg2) ↦{fullShare} V main_arg2)
        ∗ (((c : Thread nD τ).loc main_arg3) ↦{fullShare} V main_arg3) ∗ (((c : Thread nD τ).loc main_v4) ↦{fullShare} V main_v4)) := by
  unfold Pipeline.arrBufs
  exact bigSep_eq_bigSepL_of_eq [main_arg0, main_v3, main_v1, main_arg2, main_arg3, main_v4] (by decide) (by decide) _

include hq in
/-- The pipeline's arrays, window by window, each at its share: the scaled features' buffer appears twice, at the two halves. -/
theorem arrays1_eq : (dat.arrays G : sProp 𝕄)
    = iprop((((c : Thread nD τ).loc main_arg0) ↦{fullShare} G 0) ∗ (((c : Thread nD τ).loc main_v3) ↦{fullShare.left} G 1)
        ∗ (((c : Thread nD τ).loc main_v1) ↦{fullShare} G 2) ∗ (((c : Thread nD τ).loc main_v3) ↦{fullShare.right} G 3)
        ∗ (((c : Thread nD τ).loc main_arg2) ↦{fullShare} G 4) ∗ (((c : Thread nD τ).loc main_arg3) ↦{fullShare} G 5)
        ∗ (((c : Thread nD τ).loc main_v4) ↦{fullShare} G 6)) := by
  unfold Dat.arrays
  rw [bigSep_W1]
  rw [(arr_whole1 0).set_eq_univ, (arr_whole1 1).set_eq_univ, (arr_whole1 2).set_eq_univ,
    (arr_whole1 4).set_eq_univ, (arr_whole1 5).set_eq_univ, (arr_whole1 6).set_eq_univ]
  unfold Dat.share
  rw [hq 0, hq 1, hq 2, hq 3, hq 4, hq 5]
  rfl

end Shared

section SharedEntail

variable {c : Dev nD} (dat : Dat τ (Elt F) Unit ℕ (UR sig nD τ) ℕ cfg1 c) (hq : ∀ w, dat.q w = shareOf w)
  (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))

include hq hG in
/-- ENTRY: the six buffers whole make the seven windows' arrays, the scaled features' buffer dealt in two halves. -/
theorem arrays1_of_bufs : (Pipeline.arrBufs (Ix := Unit) (Name := ℕ) (U := UR sig nD τ) (Lvl := ℕ) spec1 c V : sProp 𝕄) ⊢ dat.arrays G := by
  rw [arrBufs1_eq, arrays1_eq dat hq G, hG 0, hG 1, hG 2, hG 3, hG 4, hG 5, hG 6]
  iintro ⟨H0, H3, H1, H2, H5, H6⟩
  ihave Hs := (pointsTo_share (PosShare.mem_left_op_right fullShare)).1 $$ H3
  icases Hs with ⟨Hl, Hr⟩
  isplitl [H0]; · iexact H0
  isplitl [Hl]; · iexact Hl
  isplitl [H1]; · iexact H1
  isplitl [Hr]; · iexact Hr
  isplitl [H2]; · iexact H2
  isplitl [H5]; · iexact H5
  iexact H6

include hq hG in
/-- EXIT: the seven arrays, the two halves holding the same contents, make the six buffers whole again. -/
theorem bufs_of_arrays1 : (dat.arrays G : sProp 𝕄) ⊢ Pipeline.arrBufs (Ix := Unit) (Name := ℕ) (U := UR sig nD τ) (Lvl := ℕ) spec1 c V := by
  rw [arrBufs1_eq, arrays1_eq dat hq G, hG 0, hG 1, hG 2, hG 3, hG 4, hG 5, hG 6]
  iintro ⟨H0, Hl, H1, Hr, H2, H5, H6⟩
  isplitl [H0]; · iexact H0
  isplitl [Hl Hr]
  · iapply (pointsTo_share (PosShare.mem_left_op_right fullShare)).2
    isplitl [Hl]; · iexact Hl
    iexact Hr
  isplitl [H1]; · iexact H1
  isplitl [H2]; · iexact H2
  isplitl [H5]; · iexact H5
  iexact H6

end SharedEntail

/-! ## The second region -/

/-- After the second region each of its arrays holds what the pipeline leaves there: the six input arrays as entered
    (no window of theirs is written back), the output array its folded write-backs. -/
theorem hF1 (c : Dev nD) (w : Fin cfg1.W) :
    (H.dat1 (C2 H m) c).arrAt w cfg1.N = (fun b : Ref sig .tc => Gen.V3 m (outs H m) c b) (Pipeline.arrRef spec1 w) := by
  have hin : ∀ (w : Fin cfg1.W) (hw : (cfg1.win w).isOut = false) (r : Ref sig .tc), Pipeline.arrRef spec1 w = r → r ∉ ([main_v4] : List (Ref sig .tc)) →
      (H.dat1 (C2 H m) c).arrAt w cfg1.N = (fun b : Ref sig .tc => Gen.V3 m (outs H m) c b) (Pipeline.arrRef spec1 w) := by
    intro w hw r hr hne
    refine (((H.dat1 (C2 H m) c).arrAt_in w hw _).trans (H.A1 _ c w)).trans ?_
    subst hr
    show Gen.V2 m (outsA H m) c _ = Gen.V3 m (outs H m) c _
    rw [Gen.V3_of m (outs H m) c _ hne, V2_outs]
  match w with
  | ⟨0, _⟩ => exact hin 0 rfl main_arg0 rfl (by decide)
  | ⟨1, _⟩ => exact hin 1 rfl main_v3 rfl (by decide)
  | ⟨2, _⟩ => exact hin 2 rfl main_v1 rfl (by decide)
  | ⟨3, _⟩ => exact hin 3 rfl main_v3 rfl (by decide)
  | ⟨4, _⟩ => exact hin 4 rfl main_arg2 rfl (by decide)
  | ⟨5, _⟩ => exact hin 5 rfl main_arg3 rfl (by decide)
  | ⟨6, _⟩ =>
    show res1 H m c = _
    show _ = Gen.V3 m (outs H m) c main_v4
    unfold Gen.V3
    rw [outs_three, Function.update_self]

theorem hrest1 (c : Dev nD) : ∀ b, b ∉ Finset.univ.image (Pipeline.arrRef spec1) →
    (fun b : Ref sig .tc => Gen.V3 m (outs H m) c b) b = C2 H m c b :=
  fun b hb => by
    show Gen.V3 m (outs H m) c b = Gen.V2 m (outsA H m) c b
    rw [Gen.V3_of m (outs H m) c b (fun h => hb (by
      rw [List.mem_singleton] at h; subst h
      exact Finset.mem_image.mpr ⟨6, Finset.mem_univ _, rfl⟩)), V2_outs]

/-- The last thread state without the core's debts: every unscoped buffer at the final contents, the generator register at some state. -/
abbrev Tend (c : Dev nD) : sProp 𝕄 :=
  iprop(StableHlo.held (c : Thread nD τ) (Pipeline.ucRefs τ sig) (Gen.V3 m (outs H m) c) ∗ ∃ r, prngReg c r)

set_option backward.isDefEq.respectTransparency.types false in
/-- THE SECOND REGION over the thread state: entered from every unscoped buffer as the host operations left them, left
    with the result array at its folded write-backs. The scaled features' buffer, read through two windows, is dealt
    to them in two halves at the entry and made whole again at the exit; the generator register and the accumulator
    scratch go through the kernel's invariant. -/
def reg1 : Pipeline.RegionSeg (pcfgs (F := F)) adm (pdats H m) () defs₀ 𝒱₀ Lz lvz 1 where
  win := winFacts₀1
  block_pos := block_pos1
  stage_whole := stage_whole1
  K := PEmpty
  osem k := k.elim
  ho := Pipeline.OwnSemFacts.none _
  hbody c := (H.body1 (C2 H m) c).loose
  hwaits := Pipeline.hwaits_of_owed_zero _ _ _ _ Lz lvz 1 fun c t => H.owed1 (C2 H m) c t
  pre c := iprop(StableHlo.held (c : Thread nD τ) (Pipeline.ucRefs τ sig) (Gen.V2 m (outs H m) c) ∗ Rest c)
  post c := iprop(Tend H m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 H m c)
  hentry c := by
    rw [Pipeline.ownSems0_none, V2_outs]
    have hs : (StableHlo.held (c : Thread nD τ) (Pipeline.ucRefs τ sig) (Gen.V2 m (outsA H m) c) : sProp 𝕄)
        = iprop(Pipeline.arrBufs (Ix := Unit) (Name := ℕ) (U := UR sig nD τ) (Lvl := ℕ) spec1 c (C2 H m c)
            ∗ Pipeline.unscopedRest (Ix := Unit) (Name := ℕ) (U := UR sig nD τ) (Lvl := ℕ) spec1 c (C2 H m c)) := by
      rw [← Pipeline.unscopedBufs_held]
      exact Pipeline.unscopedBufs_split₀ cfgs 1 winFacts₀1.arr_unscoped c (C2 H m c)
    iintro ⟨⟨Hub, Hp, HO⟩, -, -⟩
    ihave Hs := (Entails.of_eq hs) $$ Hub
    icases Hs with ⟨Hb, Hrest⟩
    ihave Ha := (arrays1_of_bufs (pdats H m 1 c) (H.q1 (C2 H m) c) (C2 H m c) ((pdats H m 1 c).arrAt · 0) (fun w => H.A1 (C2 H m) c w)) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats H m 1 c).recorded 0 = Set.univ from H.rec1 (C2 H m) c 0]; trivial)
      rw [show (pdats H m 1 c).owed 0 = 0 from H.owed1 (C2 H m) c 0]
      iexact HO
    isplitl [Hp]; · iexact Hp
    iexact Hrest
  hin c := by
    refine (show _ ⊢ Pipeline.ΦA (U := UR sig nD τ) (Val := Elt F) spec1 c from ?_).trans (H.in1 (C2 H m) c)
    unfold Pipeline.ΦA
    iintro ⟨Hp, -, Hr⟩
    isplitl [Hr]; · iexact Hr
    iexact Hp
  hout c := by
    rw [Pipeline.ownSems0_none]
    refine (H.out1 (C2 H m) c).trans ?_
    unfold Pipeline.ΦA
    iintro ⟨Hr, Hp⟩
    isplitl [Hp]; · iexact Hp
    isplitr; · iempintro
    iexact Hr
  hexit c := by
    have hr : Pipeline.unscopedRest (Ix := Unit) (Name := ℕ) (U := UR sig nD τ) (Lvl := ℕ) spec1 c (fun b : Ref sig .tc => Gen.V3 m (outs H m) c b)
        = Pipeline.unscopedRest (Ix := Unit) (Name := ℕ) (U := UR sig nD τ) (Lvl := ℕ) spec1 c (C2 H m c) := by
      unfold Pipeline.unscopedRest
      exact bigSep_congr fun b hb => by rw [hrest1 H m c b (Finset.mem_sdiff.mp hb).2]
    have hs : (StableHlo.held (c : Thread nD τ) (Pipeline.ucRefs τ sig) (Gen.V3 m (outs H m) c) : sProp 𝕄)
        = iprop(Pipeline.arrBufs (Ix := Unit) (Name := ℕ) (U := UR sig nD τ) (Lvl := ℕ) spec1 c (fun b : Ref sig .tc => Gen.V3 m (outs H m) c b)
            ∗ Pipeline.unscopedRest (Ix := Unit) (Name := ℕ) (U := UR sig nD τ) (Lvl := ℕ) spec1 c (C2 H m c)) := by
      rw [← hr, ← Pipeline.unscopedBufs_held]
      exact Pipeline.unscopedBufs_split₀ cfgs 1 winFacts₀1.arr_unscoped c (fun b : Ref sig .tc => Gen.V3 m (outs H m) c b)
    iintro ⟨Ha, HO, HY, Hrest⟩
    imodintro
    isplitl [Ha Hrest HY]
    · isplitl [Ha Hrest]
      · iapply (Entails.of_eq hs.symm)
        isplitl [Ha]
        · iapply (bufs_of_arrays1 (pdats H m 1 c) (H.q1 (C2 H m) c) (fun b : Ref sig .tc => Gen.V3 m (outs H m) c b) ((pdats H m 1 c).arrAt · cfg1.N) (hF1 H m c))
          iexact Ha
        iexact Hrest
      iexact HY
    unfold Pipeline.Dat.owesAt Pipeline.owesWithin
    icases HO with ⟨%W, -, HO⟩; iexists W
    rw [show (pdats H m 1 c).owed (Fin.last _) = 0 from H.owed1 (C2 H m) c _]
    iexact HO

/-! ## @main as segments, and the launch -/

/-- The three host operations between the regions as a segment, from the first region's exit contents. -/
abbrev hostSeg : Pipeline.HostSeg (Name := ℕ) (U := UR sig nD τ) (pcfgs (F := F)) defs₀ 𝒱₀ Lz lvz :=
  Gen.seg1 m (outs H m) 𝒱₀ Lz lvz (fun _ => Rest)

/-- @main's three segments in order. -/
abbrev segs : List (Pipeline.Seg (pcfgs (F := F)) adm (pdats H m) () defs₀ 𝒱₀ Lz lvz) :=
  [ .region (reg0 H m), .host (hostSeg H m), .region (reg1 H m) ]

/-- @main is the run of the segments. -/
theorem main_run (c : Dev nD) : main (F := F) c = Pipeline.Seg.run (segs H m) := (main_chain c).trans (by chain_rfl)

set_option backward.isDefEq.respectTransparency.types false in
/-- THE RUN. From any memory with zero counters every weakly fair execution of @main terminates, nothing faulting, and
    every final state holds every unscoped TensorCore buffer at the last boundary's contents: the arguments as
    launched, the result array at the second region's folded write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V3 m (outs H m) c b) :=
  Pipeline.θ_run_regions_kit (pcfgs (F := F)) adm (pdats H m) () cellOf_inj emb₁ defs₀ 𝒱₀ Lz lvz m ρ main (segs H m)
    (fun c Q => by rw [main_run H m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c)) (Tₙ := Tend H m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs H m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V3 m (outs H m) c) s')
      isplitl [Hh] <;> iassumption)
    (hQ := fun s h c => h c)

include H in
/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V3_main_arg0 m (outs H m) c),
     (h c _ (mem_uc main_arg1 (by decide))).trans (Gen.V3_main_arg1 m (outs H m) c),
     (h c _ (mem_uc main_arg2 (by decide))).trans (Gen.V3_main_arg2 m (outs H m) c),
     (h c _ (mem_uc main_arg3 (by decide))).trans (Gen.V3_main_arg3 m (outs H m) c)⟩) (run_all H m ρ)

/-- THE RESULT: the result array ends at the second region's folded write-backs, and every argument array as launched. -/
theorem result : θ_run defs (onTc (τ := τ) (main (F := F))) ⟨m, fun _ => 0, ρ⟩ (fun r => ∀ c : Dev nD,
      r.2.mem ((c.tc : Thread nD τ).loc main_v4) = res1 H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (by
        show Gen.V3 m (outs H m) c main_v4 = _
        unfold Gen.V3; rw [outs_three, Function.update_self]),
     (h c _ (mem_uc main_arg0 (by decide))).trans (Gen.V3_main_arg0 m (outs H m) c),
     (h c _ (mem_uc main_arg1 (by decide))).trans (Gen.V3_main_arg1 m (outs H m) c),
     (h c _ (mem_uc main_arg2 (by decide))).trans (Gen.V3_main_arg2 m (outs H m) c),
     (h c _ (mem_uc main_arg3 (by decide))).trans (Gen.V3_main_arg3 m (outs H m) c)⟩) (run_all H m ρ)

end Cert.Kernel.TwoRegions

end
-- ==== Proof.WFrames.lean ====
import proofs.«154289_j20401094656620_2_alg».proof.Proof.WColsumBody
import proofs.«154289_j20401094656620_2_alg».proof.Proof.WMainBody
import proofs.«154289_j20401094656620_2_alg».proof.Proof.WTwoRegions

noncomputable section

namespace Cert.Kernel.Frames

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The two kernels' proof data and body obligations, as the two-region run takes them: the column-sum kernel
    keeps nothing but its output block between points (its invariant is the scoped buffers and the generator
    register throughout); the main kernel's invariant carries its accumulator and starts from and ends at the same. -/
def halves : TwoRegions.Halves F where
  dat0 := Colsum.dat
  A0 := Colsum.A_eq
  q0 := fun V c w => by dsimp only [Colsum.dat]
  owed0 := fun V c t => by dsimp only [Colsum.dat]
  rec0 := fun V c t => rfl
  in0 := fun V c => by rw [show (Colsum.dat V c).Φ 0 = Pipeline.ΦA spec0 c from rfl]
  out0 := fun V c => by rw [show (Colsum.dat V c).Φ (Fin.last cfg0.N) = Pipeline.ΦA spec0 c from rfl]
  body0 := Colsum.body_obligation
  dat1 := MainK.dat
  A1 := MainK.A_eq
  q1 := fun V c w => by
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  owed1 := MainK.owed_eq
  rec1 := fun V c t => rfl
  in1 := MainK.hin
  out1 := MainK.hout
  body1 := MainK.body_obligation

/-- Every weakly fair execution of the kernel's @main terminates, nothing faulting, with the argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  TwoRegions.frame halves m ρ

end Cert.Kernel.Frames

end
-- ==== Proof.ColsumRuns.lean ====
import proofs.«154289_j20401094656620_2_alg».proof.Proof.Gen.KernelIdeal.Launch
import proofs.«154289_j20401094656620_2_alg».proof.Proof.Gen.KernelIdeal.Skeleton
import proofs.«154289_j20401094656620_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Colsum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-sum region: what its case analyses share

The region's grid is 8 x 8; the inner axis (coordinate 1) walks the eight row blocks of one column
block of the matrix. The output block (1 x 2048) is zeroed when coordinate 1 is 0, the column sums
of the current 2048 x 2048 block are added to it at every point, and when coordinate 1 is 7 it is
replaced by 1 / (x + 1). Everything is stated at the buffer contents `V` the region is entered with. -/

/-- Window `w`'s block at point `t`, read off its array at the region-entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of the matrix at every point, for any
    proof data whose array is `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, from the grid coordinates -/

/-- "coordinate 1 is 0": the first row block of a column block (the accumulator is zeroed). -/
abbrev isFirst (i : grid0.Coords) : Prop :=
  (Scalar.cmpi .ne (Scalar.extui (Scalar.cmpi .eq (BitVec.ofNat 32 (i 1).val) 0#32)) 0#32) = 1#1
/-- "coordinate 1 is 7": the last row block of a column block (the sum becomes 1 / (sum + 1)). -/
abbrev isLast (i : grid0.Coords) : Prop :=
  (Scalar.cmpi .ne (Scalar.extui (Scalar.cmpi .eq (BitVec.ofNat 32 (i 1).val) 7#32)) 0#32) = 1#1

/-- The first condition holds exactly at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)
/-- The second condition holds exactly at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## The staging memrefs at a point -/

/-- One staging buffer of the output window, through which its contents are stated. -/
abbrev VO : View sig .tc .vmem S1x2048 .f32 := (Memref.whole cc0_stg1_0 : Memref sig .tc .vmem S1x2048 .f32).view
/-- The input window's and the output window's current staging memrefs at point `t`, and their wholeness. -/
abbrev msIn (t : Fin cfg0.N) : Memref sig .tc .vmem S2048x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x2048 .f32 := win0_1.stage (cfg0.slots t 1)
abbrev hsOut (t : Fin cfg0.N) : (msOut t).IsWhole := hstage0_1 ((cfg0.slots t 1).cast nbuf0_1)

end Cert.KernelIdeal.Colsum

end
-- ==== Proof.ColsumRunA.lean ====
import proofs.«154289_j20401094656620_2_alg».proof.Proof.ColsumRuns

set_option maxRecDepth 16384

noncomputable section

namespace Cert.KernelIdeal.Colsum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the first row block of a column block (coordinate 1 = 0)

The accumulator is zeroed, the column sums of the block are added, and the second branch is not taken. -/

set_option maxHeartbeats 1000000 in
/-- The pieces the body's stores leave in the output's staging memref (last first) at a first point,
    with the proof that on whole staging memrefs — the input's at `x0`, the output's at anything — the
    body runs to a continuation that holds the input's buffer as it was and the output's with those
    pieces written. -/
noncomputable def runFirst (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) :
    { L : List (View.Piece (Elt F) S1x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.KernelIdeal.Colsum

end
-- ==== Proof.ColsumRunB.lean ====
import proofs.«154289_j20401094656620_2_alg».proof.Proof.ColsumRunA

set_option maxRecDepth 16384

noncomputable section

namespace Cert.KernelIdeal.Colsum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at a middle row block of a column block (coordinate 1 neither 0 nor 7)

Neither branch is taken: the column sums of the block are added to what the output buffer holds. -/

set_option maxHeartbeats 1000000 in
/-- The pieces the body's one store leaves in the output's staging memref at a middle point, with the
    proof that on whole staging memrefs — the input's at `x0`, the output's at its running contents
    `xo` — the body runs to a continuation that holds the input's buffer as it was and the output's
    with those pieces written. -/
noncomputable def runMid (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) :
    { L : List (View.Piece (Elt F) S1x2048 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Colsum

end
-- ==== Proof.ColsumRunC.lean ====
import proofs.«154289_j20401094656620_2_alg».proof.Proof.ColsumRunB

set_option maxRecDepth 16384

noncomputable section

namespace Cert.KernelIdeal.Colsum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body at the last row block of a column block (coordinate 1 = 7)

The column sums of the block are added to what the output buffer holds, and the second branch then
replaces the sum x by 1 / (x + 1): two stores of the whole buffer. -/

set_option maxHeartbeats 1000000 in
/-- The pieces the body's two stores leave in the output's staging memref (last first) at a last
    point, with the proof that on whole staging memrefs — the input's at `x0`, the output's at its
    running contents `xo` — the body runs to a continuation that holds the input's buffer as it was
    and the output's with those pieces written. -/
noncomputable def runLast (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) :
    { L : List (View.Piece (Elt F) S1x2048 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Colsum

end
-- ==== Proof.ColsumBody.lean ====
import proofs.«154289_j20401094656620_2_alg».proof.Proof.ColsumRunC
import Idealize.ShloMosaic.Lib.Pipeline.Value

set_option maxRecDepth 16384

noncomputable section

namespace Cert.KernelIdeal.Colsum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The column-sum region: what the output buffer holds point by point, the proof data, the body obligation -/

/-! ## Each case's stores cover the output buffer, and what they leave -/

/-- At a first point the two stores of the whole buffer tile it, so they cover it. -/
theorem coverFirst (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) (y : S1x2048.Idx) :
    ∃ pc ∈ (runFirst c i arg2 harg2 arg3 harg3 hc0 hc1 x0).1, y ∈ pc.1.set :=
  View.cover_of_tiledL (runFirst c i arg2 harg2 arg3 harg3 hc0 hc1 x0).1 S1x2048.size (by sl_kernel_rfl) y

/-- What a first point leaves in the output's staging buffer: its pieces read back. -/
def outFirst (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) : Vec F S1x2048 .f32 :=
  VO.read (Elt F) (VO.writes (Elt F) VO.junk (runFirst c i arg2 harg2 arg3 harg3 hc0 hc1 x0).1)

/-- At a middle point the one store of the whole buffer covers it. -/
theorem coverMid (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) (y : S1x2048.Idx) :
    ∃ pc ∈ (runMid c i arg2 harg2 arg3 harg3 hc0 hc1 x0 xo).1, y ∈ pc.1.set :=
  View.cover_of_tiledL (runMid c i arg2 harg2 arg3 harg3 hc0 hc1 x0 xo).1 S1x2048.size (by sl_kernel_rfl) y

/-- What a middle point leaves in the output's staging buffer. -/
def outMid (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) : Vec F S1x2048 .f32 :=
  VO.read (Elt F) (VO.writes (Elt F) VO.junk (runMid c i arg2 harg2 arg3 harg3 hc0 hc1 x0 xo).1)

/-- At a last point the two stores of the whole buffer tile it, so they cover it. -/
theorem coverLast (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) (y : S1x2048.Idx) :
    ∃ pc ∈ (runLast c i arg2 harg2 arg3 harg3 hc0 hc1 x0 xo).1, y ∈ pc.1.set :=
  View.cover_of_tiledL (runLast c i arg2 harg2 arg3 harg3 hc0 hc1 x0 xo).1 S1x2048.size (by sl_kernel_rfl) y

/-- What a last point leaves in the output's staging buffer. -/
def outLast (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) : Vec F S1x2048 .f32 :=
  VO.read (Elt F) (VO.writes (Elt F) VO.junk (runLast c i arg2 harg2 arg3 harg3 hc0 hc1 x0 xo).1)

/-! ## What the output buffer holds after each point -/

/-- A point ≡ 0 (mod 8) is not ≡ 7 (mod 8). -/
theorem not_seven_of_zero {n : ℕ} (h : n % 8 = 0) : ¬ n % 8 = 7 := by omega

/-- What the output's staging buffer holds after the body at position `n`: the case the position's
    residue mod 8 selects, run at the point's memrefs and its block of the matrix, a case that reads
    the running sum at what this leaves at `n - 1`. -/
def outsAt (c : Dev nD) : (n : ℕ) → n < cfg0.N → Vec F S1x2048 .f32
  | 0, hn => outFirst c (grid0.coords ⟨0, hn⟩) (msIn ⟨0, hn⟩) (hsIn ⟨0, hn⟩) (msOut ⟨0, hn⟩) (hsOut ⟨0, hn⟩)
      ((isFirst_iff ⟨0, hn⟩).mpr (Nat.zero_mod _)) (fun h => not_seven_of_zero (Nat.zero_mod 8) ((isLast_iff ⟨0, hn⟩).mp h))
      (iblk V c 0 ⟨0, hn⟩)
  | n + 1, hn =>
    if h0 : (n + 1) % 8 = 0 then
      outFirst c (grid0.coords ⟨n + 1, hn⟩) (msIn ⟨n + 1, hn⟩) (hsIn ⟨n + 1, hn⟩) (msOut ⟨n + 1, hn⟩) (hsOut ⟨n + 1, hn⟩)
        ((isFirst_iff ⟨n + 1, hn⟩).mpr h0) (fun h => not_seven_of_zero h0 ((isLast_iff ⟨n + 1, hn⟩).mp h))
        (iblk V c 0 ⟨n + 1, hn⟩)
    else if h7 : (n + 1) % 8 = 7 then
      outLast c (grid0.coords ⟨n + 1, hn⟩) (msIn ⟨n + 1, hn⟩) (hsIn ⟨n + 1, hn⟩) (msOut ⟨n + 1, hn⟩) (hsOut ⟨n + 1, hn⟩)
        (fun h => h0 ((isFirst_iff ⟨n + 1, hn⟩).mp h)) ((isLast_iff ⟨n + 1, hn⟩).mpr h7)
        (iblk V c 0 ⟨n + 1, hn⟩) (outsAt c n (Nat.lt_of_succ_lt hn))
    else
      outMid c (grid0.coords ⟨n + 1, hn⟩) (msIn ⟨n + 1, hn⟩) (hsIn ⟨n + 1, hn⟩) (msOut ⟨n + 1, hn⟩) (hsOut ⟨n + 1, hn⟩)
        (fun h => h0 ((isFirst_iff ⟨n + 1, hn⟩).mp h)) (fun h => h7 ((isLast_iff ⟨n + 1, hn⟩).mp h))
        (iblk V c 0 ⟨n + 1, hn⟩) (outsAt c n (Nat.lt_of_succ_lt hn))

/-- `outsAt` at a first point. -/
theorem outsAt_caseFirst (c : Dev nD) (t : Fin cfg0.N) (h0 : t.val % 8 = 0) :
    outsAt V c t.val t.isLt = outFirst c (grid0.coords t) (msIn t) (hsIn t) (msOut t) (hsOut t)
      ((isFirst_iff t).mpr h0) (fun h => not_seven_of_zero h0 ((isLast_iff t).mp h)) (iblk V c 0 t) := by
  obtain ⟨n, hn⟩ := t
  cases n with
  | zero => exact rfl
  | succ n => exact (dif_pos h0).trans rfl

/-- `outsAt` at a last point: over what the point before left. -/
theorem outsAt_caseLast (c : Dev nD) (t : Fin cfg0.N) (h0 : ¬t.val % 8 = 0) (h7 : t.val % 8 = 7) :
    outsAt V c t.val t.isLt = outLast c (grid0.coords t) (msIn t) (hsIn t) (msOut t) (hsOut t)
      (fun h => h0 ((isFirst_iff t).mp h)) ((isLast_iff t).mpr h7) (iblk V c 0 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_pos h7)).trans rfl

/-- `outsAt` at a middle point: over what the point before left. -/
theorem outsAt_caseMid (c : Dev nD) (t : Fin cfg0.N) (h0 : ¬t.val % 8 = 0) (h7 : ¬t.val % 8 = 7) :
    outsAt V c t.val t.isLt = outMid c (grid0.coords t) (msIn t) (hsIn t) (msOut t) (hsOut t)
      (fun h => h0 ((isFirst_iff t).mp h)) (fun h => h7 ((isLast_iff t).mp h)) (iblk V c 0 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact ((dif_neg h0).trans (dif_neg h7)).trans rfl

/-! ## The pipeline's proof data -/

/-- The proof data of the column-sum pipeline on core `c`: the arrays as the region finds them
    (`V`); after the body at point `t` the input's buffer at its block of the matrix and the output's
    at `outsAt`; the invariant holds the scoped rest and the generator register; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = outsAt V c t.val t.isLt := by dsimp only [dat]

/-- The rest of the proof data, projected: full shares, nothing owed, the class's invariant, and no
    bound on the recorded pairs. -/
theorem q_eq (c : Dev nD) (w : Fin cfg0.W) : (dat V c).q w = fullShare := by dsimp only [dat]
theorem owed_eq (c : Dev nD) (t : Fin (cfg0.N + 1)) : (dat V c).owed t = 0 := by dsimp only [dat]
theorem Phi_eq (c : Dev nD) (t : Fin (cfg0.N + 1)) : (dat V c).Φ t = Pipeline.ΦA spec0 c := by dsimp only [dat]
theorem recorded_eq (c : Dev nD) (t : Fin (cfg0.N + 1)) : (dat V c).recorded t = Set.univ := rfl

/-- The input's current staging buffer holds its block of the matrix at every point. -/
theorem before_0 (c : Dev nD) (t : Fin cfg0.N) (d) : (dat V c).before 0 t d = iblk V c 0 t :=
  before_in_of V (dat V c) (A_eq V c 0) (after_0 V c) t d

/-- At a point that is not the first of its sweep the output's current staging buffer holds what the
    body left at the point before: the buffer is written back only after a point ≡ 7 (mod 8), and the
    point before one ≢ 0 is ≢ 7. -/
theorem before_1_kept (c : Dev nD) (t : Fin cfg0.N) (h0 : ¬t.val % 8 = 0) (d) :
    (dat V c).before 1 t d = outsAt V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (msIn t) fullShare ((dat V c).before 0 t d))
    ∗ (∃ d, owns (c : Thread nD τ) (msOut t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (msIn t) fullShare ((dat V c).after 0 t)
    ∗ owns (c : Thread nD τ) (msOut t) fullShare ((dat V c).after 1 t))

set_option maxHeartbeats 800000 in
/-- The body at any point: the input's memref holds its block; the residue of the point mod 8 says
    which case it is in; at a point that is not first the output's memref holds what the point before
    left; so the case's run applies; the invariant passes through unread; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  by_cases h0 : t.val % 8 = 0
  · rw [outsAt_caseFirst V c t h0]
    unfold outFirst
    iintro ⟨HΦ, Ho, ⟨%d0, H0⟩, ⟨%d1, H1⟩⟩
    iapply ((runFirst c (grid0.coords t) _ _ _ _ ((isFirst_iff t).mpr h0) (fun h => not_seven_of_zero h0 ((isLast_iff t).mp h)) (iblk V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _ _)
  · by_cases h7 : t.val % 8 = 7
    · rw [outsAt_caseLast V c t h0 h7]
      simp only [before_1_kept V c t h0]
      unfold outLast
      iintro ⟨HΦ, Ho, ⟨%d0, H0⟩, ⟨%d1, H1⟩⟩
      iapply ((runLast c (grid0.coords t) _ _ _ _ (fun h => h0 ((isFirst_iff t).mp h)) ((isLast_iff t).mpr h7) (iblk V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverLast c _ _ _ _ _ _ _ _ _)
    · rw [outsAt_caseMid V c t h0 h7]
      simp only [before_1_kept V c t h0]
      unfold outMid
      iintro ⟨HΦ, Ho, ⟨%d0, H0⟩, ⟨%d1, H1⟩⟩
      iapply ((runMid c (grid0.coords t) _ _ _ _ (fun h => h0 ((isFirst_iff t).mp h)) (fun h => h7 ((isLast_iff t).mp h)) (iblk V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverMid c _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-! ## The value of each case, in terms of the kernel's payloads

Every load and store of the body goes through the whole buffer, so the pieces read back are the last
store's payload, a load after a store reads that store's payload, and a load of the entry contents
reads them. -/

/-- The offsets of the body's rectangles are zero on both axes. -/
theorem offs_zero : (![0, 0] : Fin 2 → ℕ) = fun _ => 0 := by funext a; fin_cases a <;> rfl

/-- A first point leaves the column sums of its block added to zero. -/
theorem outFirst_eq (c : Dev nD) (i : grid0.Coords) (arg2 : Memref sig .tc .vmem S2048x2048 .f32) (harg2 : arg2.IsWhole)
    (arg3 : Memref sig .tc .vmem S1x2048 .f32) (harg3 : arg3.IsWhole) (hc0 : isFirst i) (hc1 : ¬isLast i)
    (x0 : Vec F S2048x2048 .f32) : outFirst c i arg2 harg2 arg3 harg3 hc0 hc1 x0 = k0_pay2 (k0_pay1 (F := F)) x0 := by
  unfold outFirst
  rw [View.read_writes_eq_canon _ _ _ (coverFirst c i arg2 harg2 arg3 harg3 hc0 hc1 x0)]
  unfold runFirst
  dsimp only
  sl_unfold_words
  rw [View.canon_cons_unit_zero (S := S1x2048) offs_zero]
  rw [View.readCov_unit_zero (S := S1x2048) _ offs_zero]
  simp only [View.readAt_eq_ld, harg2.read_unread, View.ld_unit_zero (S := S2048x2048) offs_zero]

/-- A middle point leaves the column sums of its block added to the running sum `xo`. -/
theorem outMid_eq (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : ¬isLast i)
    (x0 : Vec F S2048x2048 .f32) (xo : Vec F S1x2048 .f32) : outMid c i arg2 harg2 arg3 harg3 hc0 hc1 x0 xo = k0_pay2 xo x0 := by
  unfold outMid
  rw [View.read_writes_eq_canon _ _ _ (coverMid c i arg2 harg2 arg3 harg3 hc0 hc1 x0 xo)]
  unfold runMid
  dsimp only
  sl_unfold_words
  rw [View.canon_unit_zero (S := S1x2048) offs_zero]
  simp only [View.readAt_eq_ld, harg2.read_unread, harg3.read_unread, View.ld_unit_zero (S := S2048x2048) offs_zero, View.ld_unit_zero (S := S1x2048) offs_zero]

/-- A last point leaves 1 / (s + 1), `s` the column sums of its block added to the running sum `xo`. -/
theorem outLast_eq (c : Dev nD) (i : grid0.Coords) (arg2 : Memref sig .tc .vmem S2048x2048 .f32) (harg2 : arg2.IsWhole)
    (arg3 : Memref sig .tc .vmem S1x2048 .f32) (harg3 : arg3.IsWhole) (hc0 : ¬isFirst i) (hc1 : isLast i)
    (x0 : Vec F S2048x2048 .f32) (xo : Vec F S1x2048 .f32) : outLast c i arg2 harg2 arg3 harg3 hc0 hc1 x0 xo = k0_pay3 (k0_pay2 xo x0) := by
  unfold outLast
  rw [View.read_writes_eq_canon _ _ _ (coverLast c i arg2 harg2 arg3 harg3 hc0 hc1 x0 xo)]
  unfold runLast
  dsimp only
  sl_unfold_words
  rw [View.canon_cons_unit_zero (S := S1x2048) offs_zero]
  rw [View.readCov_unit_zero (S := S1x2048) _ offs_zero]
  simp only [View.readAt_eq_ld, harg2.read_unread, harg3.read_unread, View.ld_unit_zero (S := S2048x2048) offs_zero, View.ld_unit_zero (S := S1x2048) offs_zero]

/-- After a point ≡ 0 (mod 8) the output buffer holds the column sums of the point's block added to zero. -/
theorem outsAt_first (c : Dev nD) (t : Fin cfg0.N) (h : t.val % 8 = 0) :
    outsAt V c t.val t.isLt = k0_pay2 (k0_pay1 (F := F)) (iblk V c 0 t) :=
  (outsAt_caseFirst V c t h).trans (outFirst_eq c _ _ _ _ _ _ _ _)

/-- After a point ≢ 0, 7 (mod 8) it holds the column sums of the point's block added to what the point before left. -/
theorem outsAt_mid (c : Dev nD) (t : Fin cfg0.N) (h0 : ¬ t.val % 8 = 0) (h7 : ¬ t.val % 8 = 7) :
    outsAt V c t.val t.isLt = k0_pay2 (outsAt V c (t.val - 1) (Nat.lt_of_le_of_lt (Nat.sub_le _ _) t.isLt)) (iblk V c 0 t) :=
  (outsAt_caseMid V c t h0 h7).trans (outMid_eq c _ _ _ _ _ _ _ _ _)

/-- After a point ≡ 7 (mod 8) it holds 1 / (s + 1), `s` the column sums of the point's block added to what the point before left. -/
theorem outsAt_last (c : Dev nD) (t : Fin cfg0.N) (h0 : ¬ t.val % 8 = 0) (h7 : t.val % 8 = 7) :
    outsAt V c t.val t.isLt = k0_pay3 (k0_pay2 (outsAt V c (t.val - 1) (Nat.lt_of_le_of_lt (Nat.sub_le _ _) t.isLt)) (iblk V c 0 t)) :=
  (outsAt_caseLast V c t h0 h7).trans (outLast_eq c _ _ _ _ _ _ _ _ _)

end Cert.KernelIdeal.Colsum

end
-- ==== Proof.MainRuns.lean ====
import proofs.«154289_j20401094656620_2_alg».proof.Proof.Gen.KernelIdeal.Launch
import proofs.«154289_j20401094656620_2_alg».proof.Proof.Gen.KernelIdeal.Skeleton
import proofs.«154289_j20401094656620_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.MainK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the main kernel's body, in closed form over the grid -/

/-- The first conditional (the accumulator is zeroed): the K coordinate is 0. -/
abbrev condZ (i : grid1.Coords) : Prop :=
  (Scalar.cmpi .ne (Scalar.extui (Scalar.cmpi .eq (BitVec.ofNat 32 (i 1).val) 0#32)) 0#32) = 1#1

/-- It holds exactly at the first point of each sweep of the K axis. -/
theorem hcondZ : ∀ t : Fin cfg1.N, condZ (grid1.coords t) ↔ t.val % 16 = 0 :=
  (by decide +kernel : ∀ t : Fin grid1.N, condZ (grid1.coords t) ↔ t.val % 16 = 0)

/-- The second conditional (the output block is computed and stored): the K coordinate is 15. -/
abbrev condL (i : grid1.Coords) : Prop := k1_cond2 i = 1#1

/-- It holds exactly at the last point of each sweep of the K axis. -/
theorem hcondL : ∀ t : Fin cfg1.N, condL (grid1.coords t) ↔ t.val % 16 = 15 :=
  (by decide +kernel : ∀ t : Fin grid1.N, condL (grid1.coords t) ↔ t.val % 16 = 15)

/-! ## Where the windows are idle -/

/-- Away from the last point of a sweep the body stores nothing into the output block, -/
theorem idle6 : ∀ t : Fin cfg1.N, ¬condL (grid1.coords t) → cfg1.idle 6 (grid1.coords t) = true := by decide +kernel
/-- and the block is not written back there; -/
theorem noFlush6 : ∀ t : Fin cfg1.N, ¬condL (grid1.coords t) → (cfg1.win 6).flush t = false := by decide +kernel
/-- at the last point of a sweep the body stores the whole block. -/
theorem live6 : ∀ t : Fin cfg1.N, condL (grid1.coords t) → cfg1.idle 6 (grid1.coords t) = false := by decide +kernel

/-- The offsets of every access of the body: zero on both axes (each buffer is read and written whole), -/
theorem hz2 : (![0, 0] : Fin 2 → Nat) = fun _ => 0 := funext fun a => by fin_cases a <;> rfl
/-- and on the one axis of the bias. -/
theorem hz1 : (![0] : Fin 1 → Nat) = fun _ => 0 := funext fun a => by fin_cases a <;> rfl

/-- The accumulator: a whole scoped buffer of the kernel's own, carried from point to point. -/
abbrev scM : Memref sig .tc .vmem S2048x64 .f32 := Memref.whole cc1_scratch0

end Cert.KernelIdeal.MainK

end
-- ==== Proof.MainRun.lean ====
import proofs.«154289_j20401094656620_2_alg».proof.Proof.MainRuns

set_option maxRecDepth 16384

noncomputable section

namespace Cert.KernelIdeal.MainK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three cases, each run once on any whole buffers -/

set_option maxHeartbeats 1000000 in
/-- The body at the first point of a sweep (the accumulator is zeroed, the output block not touched): from the
    block of A at `x0`, the K block of xs at `x3` and the accumulator at anything, it leaves the accumulator at
    the product of the two blocks added to zero. -/
theorem run_first (c : Dev nD) (E : Set ℕ) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S2048x64 .f32) (harg8 : arg8.IsWhole) (arg9 : Memref sig .tc .vmem S2048x64 .f32) (harg9 : arg9.IsWhole)
    (hc0 : condZ i) (hc1 : ¬condL i)
    (x0 : Vec F S2048x1024 .f32) (x3 : Vec F S1024x64 .f32) (K : PUnit → sProp 𝕄) :
    iprop(owns (c : Thread nD τ) arg2 fullShare x0 ∗ owns (c : Thread nD τ) arg5 fullShare x3 ∗ (∃ d, owns (c : Thread nD τ) arg9 fullShare d)
        ∗ (iprop(owns (c : Thread nD τ) arg2 fullShare x0 ∗ owns (c : Thread nD τ) arg5 fullShare x3
            ∗ owns (c : Thread nD τ) arg9 fullShare (k1_pay2 x0 x3 (k1_pay1 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f3, %hf3, H3⟩, ⟨%ds, %fs, -, HS⟩, Hk⟩
  subst hf0; subst hf3
  sl_exec (disch := first | exact hc0 | exact hc1)
  sl_step
  iapply Hk
  isplitl [H0]
  · iexists f0; isplitr; · ipureintro; rfl
    iexact H0
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2048x64_S2048x64_0_0 y⟩)]
  rw [View.canon_cons_unit_zero (S := S2048x64) hz2]
  sl_unfold_words
  rw [View.readCov_unit_zero (S := S2048x64) _ hz2]
  simp only [View.readAt_eq_ld, View.ld_unit_zero (S := S2048x1024) hz2, View.ld_unit_zero (S := S1024x64) hz2]

set_option maxHeartbeats 1000000 in
/-- The body at a middle point of a sweep (neither conditional taken): from the block of A at `x0`, the K block of xs
    at `x3` and the accumulator at `xs`, it leaves the accumulator at `xs` plus the product of the two blocks. -/
theorem run_mid (c : Dev nD) (E : Set ℕ) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S2048x64 .f32) (harg8 : arg8.IsWhole) (arg9 : Memref sig .tc .vmem S2048x64 .f32) (harg9 : arg9.IsWhole)
    (hc0 : ¬condZ i) (hc1 : ¬condL i)
    (x0 : Vec F S2048x1024 .f32) (x3 : Vec F S1024x64 .f32) (xs : Vec F S2048x64 .f32) (K : PUnit → sProp 𝕄) :
    iprop(owns (c : Thread nD τ) arg2 fullShare x0 ∗ owns (c : Thread nD τ) arg5 fullShare x3 ∗ owns (c : Thread nD τ) arg9 fullShare xs
        ∗ (iprop(owns (c : Thread nD τ) arg2 fullShare x0 ∗ owns (c : Thread nD τ) arg5 fullShare x3
            ∗ owns (c : Thread nD τ) arg9 fullShare (k1_pay2 x0 x3 xs)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f3, %hf3, H3⟩, ⟨%fs, %hfs, HS⟩, Hk⟩
  subst hf0; subst hf3; subst hfs
  sl_exec (disch := first | exact hc0 | exact hc1)
  sl_step
  iapply Hk
  isplitl [H0]
  · iexists f0; isplitr; · ipureintro; rfl
    iexact H0
  isplitl [H3]
  · iexists f3; isplitr; · ipureintro; rfl
    iexact H3
  iexists _; isplitr
  swap; · iexact HS
  ipureintro
  rw [View.read_writes_eq_canon _ _ _ (fun y => ⟨_, List.mem_cons_self, View.mem_set_unit_zero hz2 inb_S2048x64_S2048x64_0_0 y⟩)]
  rw [View.canon_cons_unit_zero (S := S2048x64) hz2]
  simp only [View.readAt_eq_ld, View.ld_unit_zero (S := S2048x1024) hz2, View.ld_unit_zero (S := S1024x64) hz2, View.ld_unit_zero (S := S2048x64) hz2]

set_option maxHeartbeats 2000000 in
/-- The body at the last point of a sweep (the second conditional taken): it adds the product of the blocks into the
    accumulator, then stores into the output block the activation of the completed accumulator with the row block of
    xs, the scaling column, the weights and the bias. -/
theorem run_last (c : Dev nD) (E : Set ℕ) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S2048x64 .f32) (harg8 : arg8.IsWhole) (arg9 : Memref sig .tc .vmem S2048x64 .f32) (harg9 : arg9.IsWhole)
    (hc0 : ¬condZ i) (hc1 : condL i)
    (x0 : Vec F S2048x1024 .f32) (x1 : Vec F S2048x64 .f32) (x2 : Vec F S2048x1 .f32) (x3 : Vec F S1024x64 .f32)
    (x4 : Vec F S64x64 .f32) (x5 : Vec F S64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k1_pay3 (k1_pay2 x0 x3 xs) x1 x2 x4 x5)
            ∗ owns (c : Thread nD τ) arg9 fullShare (k1_pay2 x0 x3 xs)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_cons_self, View.mem_set_unit_zero hz2 inb_S2048x64_S2048x64_0_0 y⟩)]
    rw [View.canon_cons_unit_zero (S := S2048x64) hz2]
    sl_unfold_words
    rw [View.readCov_unit_zero (S := S2048x64) _ hz2]
    simp only [View.readAt_eq_ld, View.ld_unit_zero (S := S2048x1024) hz2, View.ld_unit_zero (S := S1024x64) hz2,
      View.ld_unit_zero (S := S2048x64) hz2, View.ld_unit_zero (S := S2048x1) hz2, View.ld_unit_zero (S := S64x64) hz2,
      View.ld_unit_zero (S := S64) hz1]
  iexists _; isplitr
  swap; · iexact HS
  ipureintro
  sl_unfold_words
  rw [View.read_writes_eq_canon _ _ _ (fun y => ⟨_, List.mem_cons_self, View.mem_set_unit_zero hz2 inb_S2048x64_S2048x64_0_0 y⟩)]
  rw [View.canon_cons_unit_zero (S := S2048x64) hz2]
  simp only [View.readAt_eq_ld, View.ld_unit_zero (S := S2048x1024) hz2, View.ld_unit_zero (S := S1024x64) hz2, View.ld_unit_zero (S := S2048x64) hz2]

end Cert.KernelIdeal.MainK

end
-- ==== Proof.MainBody.lean ====
import proofs.«154289_j20401094656620_2_alg».proof.Proof.MainRun

set_option maxRecDepth 16384

noncomputable section

namespace Cert.KernelIdeal.MainK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the accumulator and the output block hold after each point -/

/-- The accumulator after the body at position `n`: at the first point of a sweep of the K axis the product of
    the point's blocks added to zero, afterwards added to what the point before left. -/
def scrAt (c : Dev nD) : (n : ℕ) → n < cfg1.N → Vec F S2048x64 .f32
  | 0, hn => k1_pay2 (iblk V c 0 ⟨0, hn⟩) (iblk V c 3 ⟨0, hn⟩) (k1_pay1 (F := F))
  | n + 1, hn => k1_pay2 (iblk V c 0 ⟨n + 1, hn⟩) (iblk V c 3 ⟨n + 1, hn⟩)
      (if (n + 1) % 16 = 0 then k1_pay1 (F := F) else scrAt c n (Nat.lt_of_succ_lt hn))

/-- The output block's buffer and the accumulator after the body at position `n`. The first component is what the
    last point of a sweep stores from the accumulator it has just completed; elsewhere nothing reads it. -/
def outsAt (c : Dev nD) : (n : ℕ) → n < cfg1.N → Vec F S2048x64 .f32 × Vec F S2048x64 .f32 :=
  fun n hn => (k1_pay3 (scrAt V c n hn) (iblk V c 1 ⟨n, hn⟩) (iblk V c 2 ⟨n, hn⟩) (iblk V c 4 ⟨n, hn⟩) (iblk V c 5 ⟨n, hn⟩),
    scrAt V c n hn)

theorem scrAt_first (c : Dev nD) (t : Fin cfg1.N) (h : t.val % 16 = 0) :
    scrAt V c t.val t.isLt = k1_pay2 (iblk V c 0 t) (iblk V c 3 t) (k1_pay1 (F := F)) := by
  obtain ⟨n, hn⟩ := t
  cases n with
  | zero => rfl
  | succ n => unfold scrAt; rw [if_pos h]

theorem scrAt_next (c : Dev nD) (t : Fin cfg1.N) (h : ¬ t.val % 16 = 0) :
    scrAt V c t.val t.isLt = k1_pay2 (iblk V c 0 t) (iblk V c 3 t)
      (scrAt V c (t.val - 1) (Nat.lt_of_le_of_lt (Nat.sub_le _ _) t.isLt)) := by
  obtain ⟨n, hn⟩ := t
  cases n with
  | zero => exact absurd (Nat.zero_mod _) h
  | succ n => rw [scrAt, if_neg h]; rfl

/-! ## The region invariant -/

/-- A scoped buffer at some contents. -/
abbrev anyAt (c : Dev nD) (b : Ref sig .tc) : sProp 𝕄 :=
  iprop(∃ f : Buf (Elt F) ((c : Thread nD τ).loc b), ((c : Thread nD τ).loc b) ↦{fullShare} f)

/-- What the region is entered with, as a chain: the other region's four staging buffers at some contents, the
    accumulator at some contents, the generator register at some state. -/
theorem PhiA_eq (c : Dev nD) :
    (Pipeline.ΦA spec1 c : sProp 𝕄)
      = iprop((anyAt c cc0_stg0_0 ∗ anyAt c cc0_stg0_1 ∗ anyAt c cc0_stg1_0 ∗ anyAt c cc0_stg1_1
          ∗ (∃ d, owns (c : Thread nD τ) scM fullShare d)) ∗ (∃ r, prngReg c r)) := by
  unfold Pipeline.ΦA; rw [scopedRest1_eq]; simp only [scM, owns_whole]; try rfl

/-- The invariant before position `n`: before the first point what the region is entered with; afterwards the same
    with the accumulator at what the point before left. -/
def PhiS (c : Dev nD) : (n : ℕ) → n ≤ cfg1.N → sProp 𝕄
  | 0, _ => Pipeline.ΦA spec1 c
  | n + 1, hn => iprop((anyAt c cc0_stg0_0 ∗ anyAt c cc0_stg0_1 ∗ anyAt c cc0_stg1_0 ∗ anyAt c cc0_stg1_1
      ∗ owns (c : Thread nD τ) scM fullShare (scrAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((anyAt c cc0_stg0_0 ∗ anyAt c cc0_stg0_1 ∗ anyAt c cc0_stg1_0 ∗ anyAt c cc0_stg1_1
      ∗ owns (c : Thread nD τ) scM fullShare (scrAt V c n hn)) ∗ (∃ r, prngReg c r)) := rfl

theorem PhiS_pos (c : Dev nD) (n : ℕ) (h : n ≤ cfg1.N) (hz : n ≠ 0) :
    PhiS V c n h = iprop((anyAt c cc0_stg0_0 ∗ anyAt c cc0_stg0_1 ∗ anyAt c cc0_stg1_0 ∗ anyAt c cc0_stg1_1
      ∗ owns (c : Thread nD τ) scM fullShare (scrAt V c (n - 1) (by omega))) ∗ (∃ r, prngReg c r)) := by
  cases n with
  | zero => exact absurd rfl hz
  | succ n => rfl

/-! ## The proof data -/

/-- The proof data of the main kernel's pipeline on core `c`: the arrays as the region finds them; after the body
    each input's buffer at its block, the output's at `outsAt`; the invariant `PhiS`; the array the row blocks and
    the K blocks of xs are both read from held in two halves; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q w := match w with
    | ⟨0, _⟩ => fullShare
    | ⟨1, _⟩ => fullShare.left
    | ⟨2, _⟩ => fullShare
    | ⟨3, _⟩ => fullShare.right
    | ⟨4, _⟩ => fullShare
    | ⟨5, _⟩ => fullShare
    | ⟨6, _⟩ => fullShare
  owed _ := 0

theorem A_eq (c : Dev nD) (w : Fin cfg1.W) : (dat V c).A w = V c (Pipeline.arrRef spec1 w) := by
  dsimp only [dat]

theorem owed_eq (c : Dev nD) (t : Fin (cfg1.N + 1)) : (dat V c).owed t = 0 := by dsimp only [dat]

theorem recorded_eq (c : Dev nD) (t : Fin (cfg1.N + 1)) : (dat V c).recorded t = Set.univ := rfl

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
/-- Input window 0's current buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Window 0 is an input: the body leaves its block in place. -/
theorem leaves_0 (c : Dev nD) (t : Fin cfg1.N) :
    (dat V c).leavesExact 0 t = owns (c : Thread nD τ) (st1_0 t) fullShare (iblk V c 0 t) := by
  unfold Dat.leavesExact; rw [show cfg1.idle 0 (cfg1.grid.coords t) = false from rfl, after_0]

theorem after_1 (c : Dev nD) (t : Fin cfg1.N) : (dat V c).after 1 t = iblk V c 1 t := by dsimp only [dat]
/-- Input window 1's current buffer holds its block at every point, fetched there or not. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Window 1 is an input: the body leaves its block in place. -/
theorem leaves_1 (c : Dev nD) (t : Fin cfg1.N) :
    (dat V c).leavesExact 1 t = owns (c : Thread nD τ) (st1_1 t) fullShare (iblk V c 1 t) := by
  unfold Dat.leavesExact; rw [show cfg1.idle 1 (cfg1.grid.coords t) = false from rfl, after_1]

theorem after_2 (c : Dev nD) (t : Fin cfg1.N) : (dat V c).after 2 t = iblk V c 2 t := by dsimp only [dat]
/-- Input window 2's current buffer holds its block at every point, fetched there or not. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Window 2 is an input: the body leaves its block in place. -/
theorem leaves_2 (c : Dev nD) (t : Fin cfg1.N) :
    (dat V c).leavesExact 2 t = owns (c : Thread nD τ) (st1_2 t) fullShare (iblk V c 2 t) := by
  unfold Dat.leavesExact; rw [show cfg1.idle 2 (cfg1.grid.coords t) = false from rfl, after_2]

theorem after_3 (c : Dev nD) (t : Fin cfg1.N) : (dat V c).after 3 t = iblk V c 3 t := by dsimp only [dat]
/-- Input window 3's current buffer holds its block at every point, fetched there or not. -/
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Window 3 is an input: the body leaves its block in place. -/
theorem leaves_3 (c : Dev nD) (t : Fin cfg1.N) :
    (dat V c).leavesExact 3 t = owns (c : Thread nD τ) (st1_3 t) fullShare (iblk V c 3 t) := by
  unfold Dat.leavesExact; rw [show cfg1.idle 3 (cfg1.grid.coords t) = false from rfl, after_3]

theorem after_4 (c : Dev nD) (t : Fin cfg1.N) : (dat V c).after 4 t = iblk V c 4 t := by dsimp only [dat]
/-- Input window 4's current buffer holds its block at every point, fetched there or not. -/
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Window 4 is an input: the body leaves its block in place. -/
theorem leaves_4 (c : Dev nD) (t : Fin cfg1.N) :
    (dat V c).leavesExact 4 t = owns (c : Thread nD τ) (st1_4 t) fullShare (iblk V c 4 t) := by
  unfold Dat.leavesExact; rw [show cfg1.idle 4 (cfg1.grid.coords t) = false from rfl, after_4]

theorem after_5 (c : Dev nD) (t : Fin cfg1.N) : (dat V c).after 5 t = iblk V c 5 t := by dsimp only [dat]
/-- Input window 5's current buffer holds its block at every point, fetched there or not. -/
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
/-- Window 5 is an input: the body leaves its block in place. -/
theorem leaves_5 (c : Dev nD) (t : Fin cfg1.N) :
    (dat V c).leavesExact 5 t = owns (c : Thread nD τ) (st1_5 t) fullShare (iblk V c 5 t) := by
  unfold Dat.leavesExact; rw [show cfg1.idle 5 (cfg1.grid.coords t) = false from rfl, after_5]

theorem after_6 (c : Dev nD) (t : Fin cfg1.N) : (dat V c).after 6 t = (outsAt V c t.val t.isLt).1 := by dsimp only [dat]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point: the inputs' buffers hold their blocks; the closed forms say which case the point is in; the
    invariant hands the body the accumulator at what the point before left (at anything before the first point) and
    takes it back at this point's contents; the output block's buffer is handed back as found except at the last
    point of a sweep, where the body stores it whole; the other scoped buffers, the generator register and what the
    core owes pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5]
  have hN : t.val < 128 := lt_of_lt_of_eq t.isLt (show cfg1.N = 128 from N_1)
  by_cases h0 : t.val % 16 = 0
  · have h1 : ¬ t.val % 16 = 15 := by omega
    have hL : ¬ condL (grid1.coords t) := fun h => h1 ((hcondL t).mp h)
    rw [Dat.leavesExact_idle (dat V c) 6 t (idle6 t hL) (noFlush6 t hL)]
    rw [scrAt_first V c t h0]
    by_cases hz : t.val = 0
    · rw [PhiS_castSucc V c t, PhiS_zero V c _ _ hz, PhiA_eq]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, H6⟩
      iapply (run_first c Set.univ (grid1.coords t) _ _ _ _ _ _ _ _ _ _ _ _ _ _ _ _ ((hcondZ t).mpr h0) hL (iblk V c 0 t) (iblk V c 3 t) _)
      isplitl [H0]; · iexact H0
      isplitl [H3]; · iexact H3
      isplitl [HS]; · iexact HS
      iintro ⟨H0, H3, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc V c t, PhiS_pos V c _ _ hz]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, H6⟩
      iapply (run_first c Set.univ (grid1.coords t) _ _ _ _ _ _ _ _ _ _ _ _ _ _ _ _ ((hcondZ t).mpr h0) hL (iblk V c 0 t) (iblk V c 3 t) _)
      isplitl [H0]; · iexact H0
      isplitl [H3]; · iexact H3
      isplitl [HS]; · iexists _; iexact HS
      iintro ⟨H0, H3, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hZ : ¬ condZ (grid1.coords t) := fun h => h0 ((hcondZ t).mp h)
    have hz : t.val ≠ 0 := fun h => h0 (by rw [h])
    rw [scrAt_next V c t h0]
    rw [PhiS_castSucc V c t, PhiS_pos V c _ _ hz]
    by_cases h1 : t.val % 16 = 15
    · have hL : condL (grid1.coords t) := (hcondL t).mpr h1
      rw [show (dat V c).leavesExact 6 t = owns (c : Thread nD τ) (st1_6 t) fullShare ((dat V c).after 6 t) from by
        unfold Dat.leavesExact; rw [live6 t hL], after_6]
      rw [show (outsAt V c t.val t.isLt).1 = k1_pay3 (scrAt V c t.val t.isLt) (iblk V c 1 t) (iblk V c 2 t) (iblk V c 4 t) (iblk V c 5 t) from rfl]
      rw [scrAt_next V c t h0]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid1.coords t) _ _ _ _ _ _ _ _ _ _ _ _ _ _ _ _ hZ hL (iblk V c 0 t) (iblk V c 1 t) (iblk V c 2 t) (iblk V c 3 t) (iblk V c 4 t) (iblk V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hL : ¬ condL (grid1.coords t) := fun h => h1 ((hcondL t).mp h)
      rw [Dat.leavesExact_idle (dat V c) 6 t (idle6 t hL) (noFlush6 t hL)]
      iintro ⟨⟨⟨HE0, HE1, HE2, HE3, HS⟩, Hg⟩, Ho, ⟨%d0, H0⟩, ⟨%d1, H1⟩, ⟨%d2, H2⟩, ⟨%d3, H3⟩, ⟨%d4, H4⟩, ⟨%d5, H5⟩, H6⟩
      iapply (run_mid c Set.univ (grid1.coords t) _ _ _ _ _ _ _ _ _ _ _ _ _ _ _ _ hZ hL (iblk V c 0 t) (iblk V c 3 t) _ _)
      isplitl [H0]; · iexact H0
      isplitl [H3]; · iexact H3
      isplitl [HS]; · iexact HS
      iintro ⟨H0, H3, HS⟩
      isplitl [HE0 HE1 HE2 HE3 HS Hg]
      · isplitr [Hg]
        · isplitl [HE0]; · iexact HE0
          isplitl [HE1]; · iexact HE1
          isplitl [HE2]; · iexact HE2
          isplitl [HE3]; · iexact HE3
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the region was entered with: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HE0, HE1, HE2, HE3, HS⟩, Hg⟩
  isplitr [Hg]
  · isplitl [HE0]; · iexact HE0
    isplitl [HE1]; · iexact HE1
    isplitl [HE2]; · iexact HE2
    isplitl [HE3]; · iexact HE3
    iexists _; iexact HS
  iexact Hg

theorem hout (c : Dev nD) : (dat V c).Φ (Fin.last cfg1.N) ⊢ Pipeline.ΦA spec1 c :=
  Phi_out V c _ (by rw [Fin.val_last]; have : cfg1.N = 128 := N_1; omega)

/-! ## The accumulator and the output block, point by point, over the body's payloads -/

theorem scratch_first (c : Dev nD) (t : Fin cfg1.N) (h : t.val % 16 = 0) :
    (outsAt V c t.val t.isLt).2 = k1_pay2 (iblk V c 0 t) (iblk V c 3 t) (k1_pay1 (F := F)) :=
  scrAt_first V c t h

theorem scratch_next (c : Dev nD) (t : Fin cfg1.N) (h : ¬ t.val % 16 = 0) :
    (outsAt V c t.val t.isLt).2 = k1_pay2 (iblk V c 0 t) (iblk V c 3 t)
      (outsAt V c (t.val - 1) (Nat.lt_of_le_of_lt (Nat.sub_le _ _) t.isLt)).2 :=
  scrAt_next V c t h

theorem out_last (c : Dev nD) (t : Fin cfg1.N) (h : t.val % 16 = 15) :
    (outsAt V c t.val t.isLt).1 = k1_pay3 (outsAt V c t.val t.isLt).2 (iblk V c 1 t) (iblk V c 2 t) (iblk V c 4 t) (iblk V c 5 t) :=
  rfl

end Cert.KernelIdeal.MainK

end
-- ==== Proof.TwoRegions.lean ====
import proofs.«154289_j20401094656620_2_alg».proof.Proof.Gen.KernelIdeal.Launch
import proofs.«154289_j20401094656620_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.TwoRegions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers at some moment of @main. -/
abbrev Contents (F : FTy → Type) [FloatOps F] : Type := (c : Dev nD) → (b : Ref sig .tc) → Buf (Elt F) ((c : Thread nD τ).loc b)

/-- How the full share of the array that two input windows of the second kernel read (the scaled features,
    by row block and by contraction block) is dealt between them; every other window holds its array whole. -/
def shareOf : Fin cfg1.W → PosShare TreeShare
  | ⟨1, _⟩ => fullShare.left
  | ⟨3, _⟩ => fullShare.right
  | _ => fullShare

/-- What the two kernels' own proofs provide, at ANY contents `V` the buffers may hold when a region is entered:
    the proof data of each pipeline (arrays read off `V`), its body obligation at every grid point, and how its
    invariant starts from and ends at the scoped buffers and the generator register alone. -/
structure Halves (F : FTy → Type) [FloatOps F] where
  dat0 : Contents F → (c : Dev nD) → Dat τ (Elt F) Unit ℕ (UR sig nD τ) ℕ cfg0 c
  A0 : ∀ V c w, (dat0 V c).A w = V c (Pipeline.arrRef spec0 w)
  q0 : ∀ V c w, (dat0 V c).q w = fullShare
  owed0 : ∀ V c t, (dat0 V c).owed t = 0
  rec0 : ∀ V c t, (dat0 V c).recorded t = Set.univ
  in0 : ∀ V c, Pipeline.ΦA spec0 c ⊢ (dat0 V c).Φ 0
  out0 : ∀ V c, (dat0 V c).Φ (Fin.last cfg0.N) ⊢ Pipeline.ΦA spec0 c
  body0 : ∀ V c, BodyObligation (dat0 V c) (defs₀ (F := F)) Variants.none () Set.univ
  dat1 : Contents F → (c : Dev nD) → Dat τ (Elt F) Unit ℕ (UR sig nD τ) ℕ cfg1 c
  A1 : ∀ V c w, (dat1 V c).A w = V c (Pipeline.arrRef spec1 w)
  q1 : ∀ V c w, (dat1 V c).q w = shareOf w
  owed1 : ∀ V c t, (dat1 V c).owed t = 0
  rec1 : ∀ V c t, (dat1 V c).recorded t = Set.univ
  in1 : ∀ V c, Pipeline.ΦA spec1 c ⊢ (dat1 V c).Φ 0
  out1 : ∀ V c, (dat1 V c).Φ (Fin.last cfg1.N) ⊢ Pipeline.ΦA spec1 c
  body1 : ∀ V c, BodyObligation (dat1 V c) (defs₀ (F := F)) Variants.none () Set.univ

variable (H : Halves F) (m : (ℓ : Loc nD τ sig) → Buf (Elt F) ℓ) (ρ : Dev nD → PrngReg)

/-! ## The buffers' contents at each boundary of @main -/

/-- At launch. -/
abbrev C0 : Contents F := fun c b => Gen.V0 m c b

/-- What the first region leaves in its output array: the write-backs of all 64 points folded. -/
def res0 (c : Dev nD) : Buf (Elt F) ((c : Thread nD τ).loc main_v0) := (H.dat0 (C0 m) c).arrAt 1 cfg0.N

/-- The regions' results as the unknowns the generated valuations are written over, the first region's only. -/
def outsA : Gen.Outs (F := F) := fun _ r c =>
  Function.update (β := fun r : Ref sig .tc => Buf (Elt F) ((c : Thread nD τ).loc r)) (fun r => m ((c : Thread nD τ).loc r)) main_v0 (res0 H m c) r

/-- When the second region is entered: after the first region and the three host operations. -/
abbrev C2 : Contents F := fun c b => Gen.V2 m (outsA H m) c b

/-- What the second region leaves in its output array. -/
def res1 (c : Dev nD) : Buf (Elt F) ((c : Thread nD τ).loc main_v4) := (H.dat1 (C2 H m) c).arrAt 6 cfg1.N

/-- Both regions' results. -/
def outs : Gen.Outs (F := F) := fun J r c =>
  if J = 3 then Function.update (β := fun r : Ref sig .tc => Buf (Elt F) ((c : Thread nD τ).loc r)) (fun r => m ((c : Thread nD τ).loc r)) main_v4 (res1 H m c) r
  else outsA H m J r c

theorem outs_one (c : Dev nD) : outs H m 1 main_v0 c = res0 H m c := by
  unfold outs outsA; rw [if_neg (by decide)]; exact Function.update_self ..
theorem outs_three (c : Dev nD) : outs H m 3 main_v4 c = res1 H m c := by
  unfold outs; rw [if_pos rfl]; exact Function.update_self ..
theorem V1_outs (c : Dev nD) : Gen.V1 m (outs H m) c = Gen.V1 m (outsA H m) c := by
  unfold Gen.V1; rw [outs_one]; unfold outsA; rw [Function.update_self]
theorem V2_outs (c : Dev nD) : Gen.V2 m (outs H m) c = Gen.V2 m (outsA H m) c := by
  unfold Gen.V2; rw [V1_outs]

/-! ## The proof data family and the thread state -/

/-- The prefetched tables' admissible contents: neither pipeline has a table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => H.dat0 (C0 m) c
  | ⟨1, _⟩ => fun c => H.dat1 (C2 H m) c

abbrev 𝒱₀ : Variants := Variants.none
/-- No core owes another anything. -/
abbrev Lz : GSem nD τ sig → Finset Unit := fun _ => ∅
abbrev lvz : GSem nD τ sig → Unit → ℕ := fun _ _ => 0

/-- What rides beside the buffers through every segment: the generator register at some state and the core owing nothing. -/
abbrev Rest (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region -/

/-- After the first region each of its arrays holds what the pipeline leaves there: the input array as entered,
    the output array its folded write-backs. -/
theorem hF0 (c : Dev nD) (w : Fin cfg0.W) : (H.dat0 (C0 m) c).arrAt w cfg0.N = Gen.V1 m (outsA H m) c (Pipeline.arrRef spec0 w) := by
  match w with
  | ⟨0, _⟩ =>
    refine (((H.dat0 (C0 m) c).arrAt_in 0 rfl _).trans (H.A0 _ c 0)).trans ?_
    exact (Gen.V1_of m (outsA H m) c main_arg0 (by decide)).symm
  | ⟨1, _⟩ =>
    show res0 H m c = _
    unfold Gen.V1 outsA
    rw [Function.update_self, Function.update_self]

theorem hrest0 (c : Dev nD) : ∀ b, b ∉ Finset.univ.image (Pipeline.arrRef spec0) → (fun b : Ref sig .tc => Gen.V1 m (outsA H m) c b) b = C0 m c b :=
  fun b hb => Gen.V1_of m (outsA H m) c b (fun h => hb (by
    rw [List.mem_singleton] at h; subst h
    exact Finset.mem_image.mpr ⟨1, Finset.mem_univ _, rfl⟩))

-- unification with the pinned configuration may need to unfold plain definitions in a metavariable's type
set_option backward.isDefEq.respectTransparency.types false in
/-- THE FIRST REGION over the thread state: entered from every unscoped buffer at the launch contents, left with the
    output array at its folded write-backs and every other unscoped buffer as entered. Its arrays are split out of
    the unscoped buffers and put back; the generator register goes through the kernel's invariant and comes out. -/
def reg0 : Pipeline.RegionSeg (pcfgs (F := F)) adm (pdats H m) () defs₀ 𝒱₀ Lz lvz 0 where
  win := launch0.win.to₀
  block_pos := launch0.block_pos
  stage_whole := launch0.stage_whole
  K := PEmpty
  osem k := k.elim
  ho := Pipeline.OwnSemFacts.none _
  hbody c := (H.body0 (C0 m) c).loose
  hwaits := Pipeline.hwaits_of_owed_zero _ _ _ _ Lz lvz 0 fun c t => H.owed0 (C0 m) c t
  pre c := iprop(StableHlo.held (c : Thread nD τ) (Pipeline.ucRefs τ sig) (Gen.V0 m c) ∗ Rest c)
  post c := iprop(StableHlo.held (c : Thread nD τ) (Pipeline.ucRefs τ sig) (Gen.V1 m (outs H m) c) ∗ Rest c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats H m) launch0.win launch0.arr_whole c
      ((pdats H m 0 c).share_full fun w => H.q0 (C0 m) c w) (C0 m c) fun w => H.A0 (C0 m) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats H m 0 c).recorded 0 = Set.univ from H.rec0 (C0 m) c 0]; trivial)
      rw [show (pdats H m 0 c).owed 0 = 0 from H.owed0 (C0 m) c 0]
      iexact HO
    isplitl [Hp]; · iexact Hp
    iexact Hrest
  hin c := by
    refine (show _ ⊢ Pipeline.ΦA (U := UR sig nD τ) (Val := Elt F) spec0 c from ?_).trans (H.in0 (C0 m) c)
    unfold Pipeline.ΦA
    iintro ⟨Hp, -, Hr⟩
    isplitl [Hr]; · iexact Hr
    iexact Hp
  hout c := by
    rw [Pipeline.ownSems0_none]
    refine (H.out0 (C0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m) ((pdats H m 0 c).share_full fun w => H.q0 (C0 m) c w)
      (C0 m c) (fun b : Ref sig .tc => Gen.V1 m (outsA H m) c b) ((pdats H m 0 c).arrAt · cfg0.N) (hF0 H m c) (hrest0 H m c)
    rw [Pipeline.unscopedBufs_held] at hjoin
    rw [V1_outs]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 0 c).owed (Fin.last _) = 0 from H.owed0 (C0 m) c _]
    iexact HO

/-! ## The second region's arrays: one buffer behind two windows -/

section Shared

variable {c : Dev nD} (dat : Dat τ (Elt F) Unit ℕ (UR sig nD τ) ℕ cfg1 c) (hq : ∀ w, dat.q w = shareOf w)
  (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))

/-- The six distinct buffers behind the seven windows' arrays, one by one. -/
theorem arrBufs1_eq : (Pipeline.arrBufs (Ix := Unit) (Name := ℕ) (U := UR sig nD τ) (Lvl := ℕ) spec1 c V : sProp 𝕄)
    = iprop((((c : Thread nD τ).loc main_arg0) ↦{fullShare} V main_arg0) ∗ (((c : Thread nD τ).loc main_v3) ↦{fullShare} V main_v3)
        ∗ (((c : Thread nD τ).loc main_v1) ↦{fullShare} V main_v1) ∗ (((c : Thread nD τ).loc main_arg2) ↦{fullShare} V main_arg2)
        ∗ (((c : Thread nD τ).loc main_arg3) ↦{fullShare} V main_arg3) ∗ (((c : Thread nD τ).loc main_v4) ↦{fullShare} V main_v4)) := by
  unfold Pipeline.arrBufs
  exact bigSep_eq_bigSepL_of_eq [main_arg0, main_v3, main_v1, main_arg2, main_arg3, main_v4] (by decide) (by decide) _

include hq in
/-- The pipeline's arrays, window by window, each at its share: the scaled features' buffer appears twice, at the two halves. -/
theorem arrays1_eq : (dat.arrays G : sProp 𝕄)
    = iprop((((c : Thread nD τ).loc main_arg0) ↦{fullShare} G 0) ∗ (((c : Thread nD τ).loc main_v3) ↦{fullShare.left} G 1)
        ∗ (((c : Thread nD τ).loc main_v1) ↦{fullShare} G 2) ∗ (((c : Thread nD τ).loc main_v3) ↦{fullShare.right} G 3)
        ∗ (((c : Thread nD τ).loc main_arg2) ↦{fullShare} G 4) ∗ (((c : Thread nD τ).loc main_arg3) ↦{fullShare} G 5)
        ∗ (((c : Thread nD τ).loc main_v4) ↦{fullShare} G 6)) := by
  unfold Dat.arrays
  rw [bigSep_W1]
  rw [(arr_whole1 0).set_eq_univ, (arr_whole1 1).set_eq_univ, (arr_whole1 2).set_eq_univ,
    (arr_whole1 4).set_eq_univ, (arr_whole1 5).set_eq_univ, (arr_whole1 6).set_eq_univ]
  unfold Dat.share
  rw [hq 0, hq 1, hq 2, hq 3, hq 4, hq 5]
  rfl

end Shared

section SharedEntail

variable {c : Dev nD} (dat : Dat τ (Elt F) Unit ℕ (UR sig nD τ) ℕ cfg1 c) (hq : ∀ w, dat.q w = shareOf w)
  (V : (b : Ref sig .tc) → Buf (Elt F) ((c : Thread nD τ).loc b))
  (G : (w : Fin cfg1.W) → Buf (Elt F) ((cfg1.win w).arr.view.loc (c : Thread nD τ)))
  (hG : ∀ w, G w = V (Pipeline.arrRef spec1 w))

include hq hG in
/-- ENTRY: the six buffers whole make the seven windows' arrays, the scaled features' buffer dealt in two halves. -/
theorem arrays1_of_bufs : (Pipeline.arrBufs (Ix := Unit) (Name := ℕ) (U := UR sig nD τ) (Lvl := ℕ) spec1 c V : sProp 𝕄) ⊢ dat.arrays G := by
  rw [arrBufs1_eq, arrays1_eq dat hq G, hG 0, hG 1, hG 2, hG 3, hG 4, hG 5, hG 6]
  iintro ⟨H0, H3, H1, H2, H5, H6⟩
  ihave Hs := (pointsTo_share (PosShare.mem_left_op_right fullShare)).1 $$ H3
  icases Hs with ⟨Hl, Hr⟩
  isplitl [H0]; · iexact H0
  isplitl [Hl]; · iexact Hl
  isplitl [H1]; · iexact H1
  isplitl [Hr]; · iexact Hr
  isplitl [H2]; · iexact H2
  isplitl [H5]; · iexact H5
  iexact H6

include hq hG in
/-- EXIT: the seven arrays, the two halves holding the same contents, make the six buffers whole again. -/
theorem bufs_of_arrays1 : (dat.arrays G : sProp 𝕄) ⊢ Pipeline.arrBufs (Ix := Unit) (Name := ℕ) (U := UR sig nD τ) (Lvl := ℕ) spec1 c V := by
  rw [arrBufs1_eq, arrays1_eq dat hq G, hG 0, hG 1, hG 2, hG 3, hG 4, hG 5, hG 6]
  iintro ⟨H0, Hl, H1, Hr, H2, H5, H6⟩
  isplitl [H0]; · iexact H0
  isplitl [Hl Hr]
  · iapply (pointsTo_share (PosShare.mem_left_op_right fullShare)).2
    isplitl [Hl]; · iexact Hl
    iexact Hr
  isplitl [H1]; · iexact H1
  isplitl [H2]; · iexact H2
  isplitl [H5]; · iexact H5
  iexact H6

end SharedEntail

/-! ## The second region -/

/-- After the second region each of its arrays holds what the pipeline leaves there: the six input arrays as entered
    (no window of theirs is written back), the output array its folded write-backs. -/
theorem hF1 (c : Dev nD) (w : Fin cfg1.W) :
    (H.dat1 (C2 H m) c).arrAt w cfg1.N = (fun b : Ref sig .tc => Gen.V3 m (outs H m) c b) (Pipeline.arrRef spec1 w) := by
  have hin : ∀ (w : Fin cfg1.W) (hw : (cfg1.win w).isOut = false) (r : Ref sig .tc), Pipeline.arrRef spec1 w = r → r ∉ ([main_v4] : List (Ref sig .tc)) →
      (H.dat1 (C2 H m) c).arrAt w cfg1.N = (fun b : Ref sig .tc => Gen.V3 m (outs H m) c b) (Pipeline.arrRef spec1 w) := by
    intro w hw r hr hne
    refine (((H.dat1 (C2 H m) c).arrAt_in w hw _).trans (H.A1 _ c w)).trans ?_
    subst hr
    show Gen.V2 m (outsA H m) c _ = Gen.V3 m (outs H m) c _
    rw [Gen.V3_of m (outs H m) c _ hne, V2_outs]
  match w with
  | ⟨0, _⟩ => exact hin 0 rfl main_arg0 rfl (by decide)
  | ⟨1, _⟩ => exact hin 1 rfl main_v3 rfl (by decide)
  | ⟨2, _⟩ => exact hin 2 rfl main_v1 rfl (by decide)
  | ⟨3, _⟩ => exact hin 3 rfl main_v3 rfl (by decide)
  | ⟨4, _⟩ => exact hin 4 rfl main_arg2 rfl (by decide)
  | ⟨5, _⟩ => exact hin 5 rfl main_arg3 rfl (by decide)
  | ⟨6, _⟩ =>
    show res1 H m c = _
    show _ = Gen.V3 m (outs H m) c main_v4
    unfold Gen.V3
    rw [outs_three, Function.update_self]

theorem hrest1 (c : Dev nD) : ∀ b, b ∉ Finset.univ.image (Pipeline.arrRef spec1) →
    (fun b : Ref sig .tc => Gen.V3 m (outs H m) c b) b = C2 H m c b :=
  fun b hb => by
    show Gen.V3 m (outs H m) c b = Gen.V2 m (outsA H m) c b
    rw [Gen.V3_of m (outs H m) c b (fun h => hb (by
      rw [List.mem_singleton] at h; subst h
      exact Finset.mem_image.mpr ⟨6, Finset.mem_univ _, rfl⟩)), V2_outs]

/-- The last thread state without the core's debts: every unscoped buffer at the final contents, the generator register at some state. -/
abbrev Tend (c : Dev nD) : sProp 𝕄 :=
  iprop(StableHlo.held (c : Thread nD τ) (Pipeline.ucRefs τ sig) (Gen.V3 m (outs H m) c) ∗ ∃ r, prngReg c r)

set_option backward.isDefEq.respectTransparency.types false in
/-- THE SECOND REGION over the thread state: entered from every unscoped buffer as the host operations left them, left
    with the result array at its folded write-backs. The scaled features' buffer, read through two windows, is dealt
    to them in two halves at the entry and made whole again at the exit; the generator register and the accumulator
    scratch go through the kernel's invariant. -/
def reg1 : Pipeline.RegionSeg (pcfgs (F := F)) adm (pdats H m) () defs₀ 𝒱₀ Lz lvz 1 where
  win := winFacts₀1
  block_pos := block_pos1
  stage_whole := stage_whole1
  K := PEmpty
  osem k := k.elim
  ho := Pipeline.OwnSemFacts.none _
  hbody c := (H.body1 (C2 H m) c).loose
  hwaits := Pipeline.hwaits_of_owed_zero _ _ _ _ Lz lvz 1 fun c t => H.owed1 (C2 H m) c t
  pre c := iprop(StableHlo.held (c : Thread nD τ) (Pipeline.ucRefs τ sig) (Gen.V2 m (outs H m) c) ∗ Rest c)
  post c := iprop(Tend H m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 H m c)
  hentry c := by
    rw [Pipeline.ownSems0_none, V2_outs]
    have hs : (StableHlo.held (c : Thread nD τ) (Pipeline.ucRefs τ sig) (Gen.V2 m (outsA H m) c) : sProp 𝕄)
        = iprop(Pipeline.arrBufs (Ix := Unit) (Name := ℕ) (U := UR sig nD τ) (Lvl := ℕ) spec1 c (C2 H m c)
            ∗ Pipeline.unscopedRest (Ix := Unit) (Name := ℕ) (U := UR sig nD τ) (Lvl := ℕ) spec1 c (C2 H m c)) := by
      rw [← Pipeline.unscopedBufs_held]
      exact Pipeline.unscopedBufs_split₀ cfgs 1 winFacts₀1.arr_unscoped c (C2 H m c)
    iintro ⟨⟨Hub, Hp, HO⟩, -, -⟩
    ihave Hs := (Entails.of_eq hs) $$ Hub
    icases Hs with ⟨Hb, Hrest⟩
    ihave Ha := (arrays1_of_bufs (pdats H m 1 c) (H.q1 (C2 H m) c) (C2 H m c) ((pdats H m 1 c).arrAt · 0) (fun w => H.A1 (C2 H m) c w)) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats H m 1 c).recorded 0 = Set.univ from H.rec1 (C2 H m) c 0]; trivial)
      rw [show (pdats H m 1 c).owed 0 = 0 from H.owed1 (C2 H m) c 0]
      iexact HO
    isplitl [Hp]; · iexact Hp
    iexact Hrest
  hin c := by
    refine (show _ ⊢ Pipeline.ΦA (U := UR sig nD τ) (Val := Elt F) spec1 c from ?_).trans (H.in1 (C2 H m) c)
    unfold Pipeline.ΦA
    iintro ⟨Hp, -, Hr⟩
    isplitl [Hr]; · iexact Hr
    iexact Hp
  hout c := by
    rw [Pipeline.ownSems0_none]
    refine (H.out1 (C2 H m) c).trans ?_
    unfold Pipeline.ΦA
    iintro ⟨Hr, Hp⟩
    isplitl [Hp]; · iexact Hp
    isplitr; · iempintro
    iexact Hr
  hexit c := by
    have hr : Pipeline.unscopedRest (Ix := Unit) (Name := ℕ) (U := UR sig nD τ) (Lvl := ℕ) spec1 c (fun b : Ref sig .tc => Gen.V3 m (outs H m) c b)
        = Pipeline.unscopedRest (Ix := Unit) (Name := ℕ) (U := UR sig nD τ) (Lvl := ℕ) spec1 c (C2 H m c) := by
      unfold Pipeline.unscopedRest
      exact bigSep_congr fun b hb => by rw [hrest1 H m c b (Finset.mem_sdiff.mp hb).2]
    have hs : (StableHlo.held (c : Thread nD τ) (Pipeline.ucRefs τ sig) (Gen.V3 m (outs H m) c) : sProp 𝕄)
        = iprop(Pipeline.arrBufs (Ix := Unit) (Name := ℕ) (U := UR sig nD τ) (Lvl := ℕ) spec1 c (fun b : Ref sig .tc => Gen.V3 m (outs H m) c b)
            ∗ Pipeline.unscopedRest (Ix := Unit) (Name := ℕ) (U := UR sig nD τ) (Lvl := ℕ) spec1 c (C2 H m c)) := by
      rw [← hr, ← Pipeline.unscopedBufs_held]
      exact Pipeline.unscopedBufs_split₀ cfgs 1 winFacts₀1.arr_unscoped c (fun b : Ref sig .tc => Gen.V3 m (outs H m) c b)
    iintro ⟨Ha, HO, HY, Hrest⟩
    imodintro
    isplitl [Ha Hrest HY]
    · isplitl [Ha Hrest]
      · iapply (Entails.of_eq hs.symm)
        isplitl [Ha]
        · iapply (bufs_of_arrays1 (pdats H m 1 c) (H.q1 (C2 H m) c) (fun b : Ref sig .tc => Gen.V3 m (outs H m) c b) ((pdats H m 1 c).arrAt · cfg1.N) (hF1 H m c))
          iexact Ha
        iexact Hrest
      iexact HY
    unfold Pipeline.Dat.owesAt Pipeline.owesWithin
    icases HO with ⟨%W, -, HO⟩; iexists W
    rw [show (pdats H m 1 c).owed (Fin.last _) = 0 from H.owed1 (C2 H m) c _]
    iexact HO

/-! ## @main as segments, and the launch -/

/-- The three host operations between the regions as a segment, from the first region's exit contents. -/
abbrev hostSeg : Pipeline.HostSeg (Name := ℕ) (U := UR sig nD τ) (pcfgs (F := F)) defs₀ 𝒱₀ Lz lvz :=
  Gen.seg1 m (outs H m) 𝒱₀ Lz lvz (fun _ => Rest)

/-- @main's three segments in order. -/
abbrev segs : List (Pipeline.Seg (pcfgs (F := F)) adm (pdats H m) () defs₀ 𝒱₀ Lz lvz) :=
  [ .region (reg0 H m), .host (hostSeg H m), .region (reg1 H m) ]

/-- @main is the run of the segments. -/
theorem main_run (c : Dev nD) : main (F := F) c = Pipeline.Seg.run (segs H m) := (main_chain c).trans (by chain_rfl)

set_option backward.isDefEq.respectTransparency.types false in
/-- THE RUN. From any memory with zero counters every weakly fair execution of @main terminates, nothing faulting, and
    every final state holds every unscoped TensorCore buffer at the last boundary's contents: the arguments as
    launched, the result array at the second region's folded write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V3 m (outs H m) c b) :=
  Pipeline.θ_run_regions_kit (pcfgs (F := F)) adm (pdats H m) () cellOf_inj emb₁ defs₀ 𝒱₀ Lz lvz m ρ main (segs H m)
    (fun c Q => by rw [main_run H m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c)) (Tₙ := Tend H m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs H m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V3 m (outs H m) c) s')
      isplitl [Hh] <;> iassumption)
    (hQ := fun s h c => h c)

include H in
/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Gen.V3_main_arg0 m (outs H m) c),
     (h c _ (mem_uc main_arg1 (by decide))).trans (Gen.V3_main_arg1 m (outs H m) c),
     (h c _ (mem_uc main_arg2 (by decide))).trans (Gen.V3_main_arg2 m (outs H m) c),
     (h c _ (mem_uc main_arg3 (by decide))).trans (Gen.V3_main_arg3 m (outs H m) c)⟩) (run_all H m ρ)

/-- THE RESULT: the result array ends at the second region's folded write-backs, and every argument array as launched. -/
theorem result : θ_run defs (onTc (τ := τ) (main (F := F))) ⟨m, fun _ => 0, ρ⟩ (fun r => ∀ c : Dev nD,
      r.2.mem ((c.tc : Thread nD τ).loc main_v4) = res1 H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (by
        show Gen.V3 m (outs H m) c main_v4 = _
        unfold Gen.V3; rw [outs_three, Function.update_self]),
     (h c _ (mem_uc main_arg0 (by decide))).trans (Gen.V3_main_arg0 m (outs H m) c),
     (h c _ (mem_uc main_arg1 (by decide))).trans (Gen.V3_main_arg1 m (outs H m) c),
     (h c _ (mem_uc main_arg2 (by decide))).trans (Gen.V3_main_arg2 m (outs H m) c),
     (h c _ (mem_uc main_arg3 (by decide))).trans (Gen.V3_main_arg3 m (outs H m) c)⟩) (run_all H m ρ)

end Cert.KernelIdeal.TwoRegions

end
-- ==== Proof.Frames.lean ====
import proofs.«154289_j20401094656620_2_alg».proof.Proof.ColsumBody
import proofs.«154289_j20401094656620_2_alg».proof.Proof.MainBody
import proofs.«154289_j20401094656620_2_alg».proof.Proof.TwoRegions

noncomputable section

namespace Cert.KernelIdeal.Frames

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The two kernels' proof data and body obligations, as the two-region run takes them: the column-sum kernel
    keeps nothing but its output block between points (its invariant is the scoped buffers and the generator
    register throughout); the main kernel's invariant carries its accumulator and starts from and ends at the same. -/
def halves : TwoRegions.Halves F where
  dat0 := Colsum.dat
  A0 := Colsum.A_eq
  q0 := fun V c w => by dsimp only [Colsum.dat]
  owed0 := fun V c t => by dsimp only [Colsum.dat]
  rec0 := fun V c t => rfl
  in0 := fun V c => by rw [show (Colsum.dat V c).Φ 0 = Pipeline.ΦA spec0 c from rfl]
  out0 := fun V c => by rw [show (Colsum.dat V c).Φ (Fin.last cfg0.N) = Pipeline.ΦA spec0 c from rfl]
  body0 := Colsum.body_obligation
  dat1 := MainK.dat
  A1 := MainK.A_eq
  q1 := fun V c w => by
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  owed1 := MainK.owed_eq
  rec1 := fun V c t => rfl
  in1 := MainK.hin
  out1 := MainK.hout
  body1 := MainK.body_obligation

/-- Every weakly fair execution of the kernel's @main terminates, nothing faulting, with the argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  TwoRegions.frame halves m ρ

end Cert.KernelIdeal.Frames

end
-- ==== Proof.LibSumBlocks.lean ====
import Idealize.ShloMosaic.Lib.ValueIdx

/-!
A sum taken block by block.

`sum_blocks`: in any additive commutative monoid, a sum over `n · b` terms is the sum over `n` blocks of the sums of
`b` consecutive terms, block `i` holding the terms `i · b, …, i · b + b − 1`. Only commutativity and associativity are
used, so it holds on the extended reals, where a kernel that accumulates over a grid axis (a column sum over row
blocks, a matrix product over contraction blocks) meets a reference that takes the sum whole.
-/

namespace Cert.SumBlocks

/-- A sum over `n · b` terms is the sum, over the `n` blocks, of each block's `b` consecutive terms. -/
theorem sum_blocks {M : Type*} [AddCommMonoid M] (n b : Nat) (f : Fin (n * b) → M) :
    ∑ r : Fin (n * b), f r = ∑ i : Fin n, ∑ q : Fin b, f ⟨i.val * b + q.val, by
      have hi := i.isLt; have hq := q.isLt
      calc i.val * b + q.val < i.val * b + b := by omega
        _ = (i.val + 1) * b := by ring
        _ ≤ n * b := Nat.mul_le_mul_right b hi⟩ := by
  rw [← Fintype.sum_prod_type', ← Equiv.sum_comp finProdFinEquiv.symm]
  refine Fintype.sum_congr _ _ fun r => ?_
  refine congrArg f (Fin.ext ?_)
  simp only [finProdFinEquiv_symm_apply, Fin.coe_divNat, Fin.coe_modNat]
  exact (Nat.div_add_mod' r.val b).symm ▸ rfl

end Cert.SumBlocks
-- ==== Proof.Spec.lean ====
import Idealize.ShloMosaic.PureOps.Ideal
import Idealize.ShloMosaic.PureOps.Ideal.Laws
import Idealize.ShloMosaic.Lib.ValueIdx
import proofs.«154289_j20401094656620_2_alg».proof.Proof.LibSumBlocks

/-!
The layer both programs compute, on the extended reals, index by index.

With `A` the 16384 x 16384 matrix, `X` the 16384 x 64 features, `W` the 64 x 64 weights and `b` the 64 biases:
`d j = 1 / (∑ r, A r j + 1)` (one over the column sum plus one), `xs k f = X k f · d k` (features scaled by row),
`agg i f = (∑ k, A i k · xs k f + xs i f) · d i`, and the result `max (∑ f, agg i f · W f n + b n) 0`.
The float words `1.0` and `0.0` are kept as words: the same word stands on both sides and is never evaluated.
-/

noncomputable section

namespace Cert.Gcn

open Idealize.ShloMosaic Idealize.ShloMosaic.ValueIdx

/-- An extended-real matrix of literal extents, indexed as the programs' arrays are. -/
abbrev Mat (a b : Nat) : Type := (⟨2, ![a, b]⟩ : Shape).Idx → EReal
/-- An extended-real vector of a literal extent. -/
abbrev Vect (a : Nat) : Type := (⟨1, ![a]⟩ : Shape).Idx → EReal

/-- The word `1.0` read as an extended real. -/
def one : EReal := Ideal.ofBits .f32 0x3F800000#32
/-- The word `0.0` read as an extended real (it is `0`, but the result's `max` keeps the word). -/
def zero : EReal := Ideal.ofBits .f32 0x00000000#32

/-- The sum of column `j` of `A`. -/
def colsum (A : Mat 16384 16384) (j : Fin 16384) : EReal := ∑ r : Fin 16384, A (ix2 r j)

/-- One over (the column sum plus one). -/
def dinv (A : Mat 16384 16384) (j : Fin 16384) : EReal := Ideal.div one (colsum A j + one)

/-- The aggregated features of row `i`, from the scaled features `xs` and the scale as a column `dcol`:
    `(∑ k, A i k · xs k f + xs i f) · dcol i`. -/
def agg (A : Mat 16384 16384) (xs : Mat 16384 64) (dcol : Mat 16384 1) (i : Fin 16384) (f : Fin 64) : EReal :=
  ((∑ k : Fin 16384, A (ix2 i k) * xs (ix2 k f)) + xs (ix2 i f)) * dcol (ix2 i (0 : Fin 1))

/-- The layer's output at row `i`, unit `n`: `max (∑ f, agg i f · W f n + b n) 0`. -/
def out (A : Mat 16384 16384) (xs : Mat 16384 64) (dcol : Mat 16384 1) (W : Mat 64 64) (b : Vect 64) (i : Fin 16384) (n : Fin 64) : EReal :=
  max ((∑ f : Fin 64, agg A xs dcol i f * W (ix2 f n)) + b (ix1 n)) zero

/-- The features scaled by row: `xs k f = X k f · d k`. -/
def xsOf (A : Mat 16384 16384) (X : Mat 16384 64) : Mat 16384 64 := fun kf => X kf * dinv A (kf 0)

/-- The scale as a column. -/
def dcolOf (A : Mat 16384 16384) : Mat 16384 1 := fun i0 => dinv A (i0 0)

/-- The whole layer as a function of the four arguments. -/
def layer (A : Mat 16384 16384) (X : Mat 16384 64) (W : Mat 64 64) (b : Vect 64) (i : Fin 16384) (n : Fin 64) : EReal :=
  out A (xsOf A X) (dcolOf A) W b i n

/-- A sum over `n · b` terms taken block by block: `n` blocks of `b` consecutive terms. Only commutativity and
    associativity of the sum are used, so it holds on the extended reals. -/
theorem sum_blocks {M : Type*} [AddCommMonoid M] (n b : Nat) (f : Fin (n * b) → M) :
    ∑ r : Fin (n * b), f r = ∑ i : Fin n, ∑ q : Fin b, f ⟨i.val * b + q.val, by
      have hi := i.isLt; have hq := q.isLt
      calc i.val * b + q.val < i.val * b + b := by omega
        _ = (i.val + 1) * b := by ring
        _ ≤ n * b := Nat.mul_le_mul_right b hi⟩ :=
  Cert.SumBlocks.sum_blocks n b f

end Cert.Gcn

end
-- ==== Proof.ColsumValue.lean ====
import proofs.«154289_j20401094656620_2_alg».proof.Proof.ColsumBody
import proofs.«154289_j20401094656620_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.ColsumValue

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn (Mat one colsum dinv)

/-! # The value of the column-sum region on the extended reals

After the region the 1 x 16384 result array holds, at column q, one over (the sum of column q of the
16384 x 16384 matrix plus one). The grid's point `t = 8 · jb + i` adds the part of column block `jb`
that lies in row block `i`; the last point of a sweep closes the sum and its block is written back. -/

/-! ## The kernel's three payloads at an index, on the extended reals -/

/-- The zero block is 0 everywhere. -/
theorem pay1_apply (u : Fin 1) (p : Fin 2048) : k0_pay1 (F := Ideal) (ix2 u p) = 0 := by
  unfold k0_pay1
  exact Ideal.ofBits_zero_f32

/-- The sum over the rows of a 2048 x 2048 block, at column `p`. -/
theorem colsums_apply (v5 : Vec Ideal S2048x2048 .f32) (h : S2048x2048.Reduces [0] S2048) (hφ : FKind.Formats FTy.f32)
    (hacc : (0x00000000#32 : BitVec 32) = 0x00000000#32) (p : Fin 2048) :
    multiReduction (F := Ideal) .add [0] S2048 v5 0x00000000#32 h hφ hacc (ix1 p) = ∑ r : Fin 2048, v5 (ix2 r p) := by
  refine (Ideal.multiReduction_add_single v5 0x00000000#32 h hφ hacc (ix1 p)).trans ?_
  refine Finset.sum_congr rfl fun r _ => congrArg v5 ?_
  funext a
  match a with
  | ⟨0, _⟩ => rfl
  | ⟨1, _⟩ => rfl

/-- The accumulating payload at column `p`: the running value there plus the block's column sum. -/
theorem pay2_apply (v3 : Vec Ideal S1x2048 .f32) (v5 : Vec Ideal S2048x2048 .f32) (u : Fin 1) (p : Fin 2048) :
    k0_pay2 v3 v5 (ix2 u p) = v3 (ix2 u p) + ∑ r : Fin 2048, v5 (ix2 r p) := by
  unfold k0_pay2
  refine (addf_apply _ _ _).trans ?_
  refine congrArg₂ (· + ·) ?_ ?_
  · exact congrFun (shapeCast_self v3 _) _
  · refine (shapeCast_a_1a_apply _ _ u p).trans ?_
    exact colsums_apply v5 _ _ _ p

/-- The closing payload at column `p`: one over (the value there plus one). -/
theorem pay3_apply (v : Vec Ideal S1x2048 .f32) (u : Fin 1) (p : Fin 2048) :
    k0_pay3 v (ix2 u p) = Ideal.div one (v (ix2 u p) + one) := by
  unfold k0_pay3
  refine (divf_apply _ _ _).trans ?_
  refine congrArg₂ Ideal.div rfl ?_
  refine (addf_apply _ _ _).trans ?_
  refine congrArg₂ (· + ·) ?_ rfl
  exact congrFun (shapeCast_self v _) _

/-! ## Where the blocks sit

A point of the 8 x 8 grid is `t = 8 · jb + i`: `jb = t / 8` the column block, `i = t % 8` the row block. -/

variable (V : (c : Dev nD) → (b : Ref sig .tc) → Buf (Elt Ideal) ((c : Thread nD τ).loc b))

/-- The windows' block indices at a point, decided over the grid: the matrix's block is (row block,
    column block); the output's block is (0, column block). -/
theorem idx_facts : ∀ t : Fin cfg0.N, win0_0.index t (0 : Fin 2) = t.val % 8 ∧ win0_0.index t (1 : Fin 2) = t.val / 8
    ∧ win0_1.index t (0 : Fin 2) = 0 ∧ win0_1.index t (1 : Fin 2) = t.val / 8 :=
  (by decide +kernel : ∀ t : Fin grid0.N, win0_0.index t (0 : Fin 2) = t.val % 8 ∧ win0_0.index t (1 : Fin 2) = t.val / 8
    ∧ win0_1.index t (0 : Fin 2) = 0 ∧ win0_1.index t (1 : Fin 2) = t.val / 8)

/-- Row `r` of row block `i` (taken mod 8), as a row of the matrix. -/
def rowIx (i : ℕ) (r : Fin 2048) : Fin 16384 := ⟨2048 * (i % 8) + r.val, by have := r.isLt; omega⟩
/-- Column `p` of column block `jb` (taken mod 8), as a column of the matrix. -/
def colIx (jb : ℕ) (p : Fin 2048) : Fin 16384 := ⟨2048 * (jb % 8) + p.val, by have := p.isLt; omega⟩

/-- The matrix's block at point `t`, at (r, p), is the matrix at (2048 · (t % 8) + r, 2048 · (t / 8) + p). -/
theorem iblk_apply (c : Dev nD) (t : Fin cfg0.N) (r p : Fin 2048) :
    (Colsum.iblk V c 0 t : Vec Ideal S2048x2048 .f32) (ix2 r p)
      = (V c main_arg0 : S16384x16384.Idx → EReal) (ix2 (rowIx t.val r) (colIx (t.val / 8) p)) := by
  have hN : t.val < 64 := lt_of_lt_of_eq t.isLt (show cfg0.N = 64 from N_0)
  obtain ⟨e0, e1, -, -⟩ := idx_facts t
  unfold Colsum.iblk
  rw [View.read_apply]
  show V c main_arg0 _ = V c main_arg0 _
  congr 1
  funext a
  apply Fin.ext
  match a with
  | ⟨0, _⟩ => show win0_0.index t 0 * 2048 + 1 * r.val = 2048 * (t.val % 8) + r.val; rw [e0]; omega
  | ⟨1, _⟩ => show win0_0.index t 1 * 2048 + 1 * p.val = 2048 * (t.val / 8 % 8) + p.val; rw [e1]; omega

/-! ## The running sum along a sweep of the row blocks -/

theorem rowIx_congr {i i' : ℕ} (h : i % 8 = i' % 8) (r : Fin 2048) : rowIx i r = rowIx i' r :=
  Fin.ext (by show 2048 * (i % 8) + r.val = 2048 * (i' % 8) + r.val; rw [h])
theorem colIx_congr {j j' : ℕ} (h : j % 8 = j' % 8) (p : Fin 2048) : colIx j p = colIx j' p :=
  Fin.ext (by show 2048 * (j % 8) + p.val = 2048 * (j' % 8) + p.val; rw [h])

/-- The sum of the entries of column (jb, p) of `A` that lie in row block `i`. -/
def blockSum (A : Mat 16384 16384) (jb i : ℕ) (p : Fin 2048) : EReal :=
  ∑ r : Fin 2048, A (ix2 (rowIx i r) (colIx jb p))

theorem blockSum_congr (A : Mat 16384 16384) {jb jb' i i' : ℕ} (hj : jb % 8 = jb' % 8) (hi : i % 8 = i' % 8) (p : Fin 2048) :
    blockSum A jb i p = blockSum A jb' i' p := by
  unfold blockSum
  refine Finset.sum_congr rfl fun r _ => ?_
  rw [rowIx_congr hi r, colIx_congr hj p]

/-- The running sum of column (jb, p) after row blocks 0 … k, in the order the grid adds them. -/
def chain (A : Mat 16384 16384) (jb : ℕ) (p : Fin 2048) : ℕ → EReal
  | 0 => 0 + blockSum A jb 0 p
  | k + 1 => chain A jb p k + blockSum A jb (k + 1) p

/-- What a point's accumulating store holds at column `p`: the running value there plus its row
    block's part of column (t / 8, p). -/
theorem pay2_block (c : Dev nD) (t : Fin cfg0.N) (v3 : Vec Ideal S1x2048 .f32) (u : Fin 1) (p : Fin 2048) :
    k0_pay2 v3 (Colsum.iblk V c 0 t) (ix2 u p) = v3 (ix2 u p) + blockSum (V c main_arg0) (t.val / 8) t.val p :=
  (pay2_apply v3 _ u p).trans (congrArg (v3 (ix2 u p) + ·) (Finset.sum_congr rfl fun r _ => iblk_apply V c t r p))

/-- After a point that is not the last of its sweep, the output buffer holds at column `p` the running
    sum of column (t / 8, p) over the row blocks 0 … t % 8. -/
theorem outs_running (c : Dev nD) : ∀ (n : ℕ) (h : n < cfg0.N), ¬ n % 8 = 7 → ∀ (u : Fin 1) (p : Fin 2048),
    Colsum.outsAt V c n h (ix2 u p) = chain (V c main_arg0) (n / 8) p (n % 8)
  | 0, h, _, u, p => by
    refine ((congrFun (Colsum.outsAt_first V c ⟨0, h⟩ rfl) (ix2 u p)).trans (pay2_block V c ⟨0, h⟩ _ u p)).trans ?_
    rw [pay1_apply]
    rfl
  | n + 1, h, h7, u, p => by
    have hN : n + 1 < 64 := lt_of_lt_of_eq h (show cfg0.N = 64 from N_0)
    by_cases h0 : (n + 1) % 8 = 0
    · refine ((congrFun (Colsum.outsAt_first V c ⟨n + 1, h⟩ h0) (ix2 u p)).trans (pay2_block V c ⟨n + 1, h⟩ _ u p)).trans ?_
      rw [pay1_apply, h0]
      show 0 + blockSum _ ((n + 1) / 8) (n + 1) p = 0 + blockSum _ ((n + 1) / 8) 0 p
      rw [blockSum_congr _ rfl (show (n + 1) % 8 = 0 % 8 from h0) p]
    · refine ((congrFun (Colsum.outsAt_mid V c ⟨n + 1, h⟩ h0 h7) (ix2 u p)).trans (pay2_block V c ⟨n + 1, h⟩ _ u p)).trans ?_
      have ih := outs_running c n (Nat.lt_of_succ_lt h) (by omega) u p
      have e1 : (n + 1) / 8 = n / 8 := by omega
      have e2 : (n + 1) % 8 = n % 8 + 1 := by omega
      show Colsum.outsAt V c n _ (ix2 u p) + blockSum _ ((n + 1) / 8) (n + 1) p = chain _ ((n + 1) / 8) p ((n + 1) % 8)
      rw [ih, e1, e2]
      show _ = chain _ (n / 8) p (n % 8) + blockSum _ (n / 8) (n % 8 + 1) p
      rw [blockSum_congr _ rfl (show (n + 1) % 8 = (n % 8 + 1) % 8 by omega) p]

/-- After the last point of a sweep the output buffer holds at column `p` one over (the full running
    sum of column (t / 8, p) plus one). -/
theorem outs_closed (c : Dev nD) (t : Fin cfg0.N) (h7 : t.val % 8 = 7) (u : Fin 1) (p : Fin 2048) :
    Colsum.outsAt V c t.val t.isLt (ix2 u p) = Ideal.div one (chain (V c main_arg0) (t.val / 8) p 7 + one) := by
  have hN : t.val < 64 := lt_of_lt_of_eq t.isLt (show cfg0.N = 64 from N_0)
  refine ((congrFun (Colsum.outsAt_last V c t (by omega) h7) (ix2 u p)).trans (pay3_apply _ u p)).trans ?_
  refine congrArg (fun x => Ideal.div one (x + one)) ?_
  refine (pay2_block V c t _ u p).trans ?_
  rw [outs_running V c (t.val - 1) _ (by omega) u p]
  have e1 : (t.val - 1) / 8 = t.val / 8 := by omega
  have e2 : (t.val - 1) % 8 = 6 := by omega
  rw [e1, e2]
  show _ = chain _ (t.val / 8) p 6 + blockSum _ (t.val / 8) 7 p
  rw [blockSum_congr _ rfl (show t.val % 8 = 7 % 8 from h7) p]

/-! ## The full running sum is the column sum -/

/-- Row block `i` of column (jb, p), as a stretch of 2048 consecutive terms of the column's sum. -/
theorem blockSum_eq (A : Mat 16384 16384) (jb : ℕ) (p : Fin 2048) (i : Fin 8) :
    (∑ r : Fin 2048, A (ix2 (⟨i.val * 2048 + r.val, by have := i.isLt; have := r.isLt; omega⟩ : Fin 16384) (colIx jb p)))
      = blockSum A jb i.val p := by
  unfold blockSum
  refine Finset.sum_congr rfl fun r _ => congrArg (fun k => A (ix2 k (colIx jb p))) (Fin.ext ?_)
  show i.val * 2048 + r.val = 2048 * (i.val % 8) + r.val
  have := i.isLt
  omega

/-- Adding the eight row blocks in order gives the sum of the whole column: the sum over 16384 rows
    taken as 8 blocks of 2048, and `0 + x = x`. -/
theorem chain_eq_colsum (A : Mat 16384 16384) (jb : ℕ) (p : Fin 2048) :
    chain A jb p 7 = colsum A (colIx jb p) := by
  unfold colsum
  have e := Cert.Gcn.sum_blocks 8 2048 (fun r : Fin (8 * 2048) => A (ix2 (r : Fin 16384) (colIx jb p)))
  refine Eq.trans ?_ e.symm
  rw [Fin.sum_univ_eight]
  simp only [chain, zero_add]
  rw [blockSum_eq A jb p 0, blockSum_eq A jb p 1, blockSum_eq A jb p 2, blockSum_eq A jb p 3,
    blockSum_eq A jb p 4, blockSum_eq A jb p 5, blockSum_eq A jb p 6, blockSum_eq A jb p 7]
  rfl

/-! ## From the written-back blocks to the result array -/

/-- The region's result as one function of the matrix: at (0, q), one over (the sum of column q plus one). -/
def G (A : Mat 16384 16384) : S1x16384.Idx → EReal := fun i => dinv A ⟨(i 1).val, idx2_lt1 i⟩

set_option maxRecDepth 131072 in
/-- What the last point of a sweep writes back is its block of `G`: columns 2048 · (t / 8) … + 2047. -/
theorem flushed_eq (c : Dev nD) (t : Fin cfg0.N) (hf : (cfg0.win 1).flush t = true) :
    (Colsum.dat V c).flushed 1 t = ((cfg0.win 1).blk t).view.read (Elt Ideal) (G (V c main_arg0)) := by
  have hN : t.val < 64 := lt_of_lt_of_eq t.isLt (show cfg0.N = 64 from N_0)
  have h7 : t.val % 8 = 7 := (flush0_1 t).mp hf
  obtain ⟨-, -, e0, e1⟩ := idx_facts t
  show (cfg0.win 1).cut (grid0.coords t) ((Colsum.dat V c).after 1 t) = _
  rw [Colsum.after_1]
  funext y
  revert y
  show ∀ y : S1x2048.Idx, Colsum.outsAt V c t.val t.isLt y = G (V c main_arg0) (((cfg0.win 1).blk t).view.emb y)
  intro y
  obtain ⟨u, p, rfl⟩ : ∃ (u : Fin 1) (p : Fin 2048), y = ix2 u p := ⟨y 0, y 1, eq_ix2 y⟩
  rw [outs_closed V c t h7 u p, chain_eq_colsum]
  refine congrArg (dinv _) (Fin.ext ?_)
  show 2048 * (t.val / 8 % 8) + p.val = win0_1.index t 1 * 2048 + 1 * p.val
  rw [e1]; omega

/-- An index of the result array is in point `t`'s block iff each coordinate is in the block's range. -/
theorem mem_blk (t : Fin cfg0.N) (i : S1x16384.Idx) :
    i ∈ ((cfg0.win 1).blk t).view.set ↔ ∀ a : Fin 2, win0_1.index t a * S1x2048.size a ≤ (i a).val ∧ (i a).val < win0_1.index t a * S1x2048.size a + S1x2048.size a := by
  show i ∈ ((View.whole main_v0).slice (win0_1.rect t)).set ↔ _
  rw [View.set_slice_whole, Rect.mem_set_unit]
  exact Iff.rfl

/-- The result array after the region: column q is written back by the last point of the sweep of
    column block q / 2048, so the eight written-back blocks cover the array. -/
theorem final (c : Dev nD) : (Colsum.dat V c).arrAt 1 cfg0.N = G (V c main_arg0) :=
  (Colsum.dat V c).arrAt_eq_of_cover 1 (G (V c main_arg0)) (flushed_eq V c) fun (i : S1x16384.Idx) => by
    have hN : cfg0.N = 64 := N_0
    have h0 : (i 0).val < 1 := idx2_lt0 i
    have h1 : (i 1).val < 16384 := idx2_lt1 i
    have ht : 8 * ((i 1).val / 2048) + 7 < cfg0.N := by rw [hN]; omega
    refine ⟨⟨8 * ((i 1).val / 2048) + 7, ht⟩, (flush0_1 _).mpr (by show (8 * ((i 1).val / 2048) + 7) % 8 = 7; omega), ?_⟩
    rw [mem_blk]
    obtain ⟨-, -, e0, e1⟩ := idx_facts ⟨8 * ((i 1).val / 2048) + 7, ht⟩
    intro a
    match a with
    | ⟨0, _⟩ =>
      show win0_1.index ⟨8 * ((i 1).val / 2048) + 7, ht⟩ 0 * 1 ≤ (i 0).val ∧ (i 0).val < win0_1.index ⟨8 * ((i 1).val / 2048) + 7, ht⟩ 0 * 1 + 1
      rw [e0]; omega
    | ⟨1, _⟩ =>
      show win0_1.index ⟨8 * ((i 1).val / 2048) + 7, ht⟩ 1 * 2048 ≤ (i 1).val ∧ (i 1).val < win0_1.index ⟨8 * ((i 1).val / 2048) + 7, ht⟩ 1 * 2048 + 2048
      rw [e1]
      show (8 * ((i 1).val / 2048) + 7) / 8 * 2048 ≤ (i 1).val ∧ (i 1).val < (8 * ((i 1).val / 2048) + 7) / 8 * 2048 + 2048
      omega

/-- THE VALUE OF THE REGION: after it, the result array holds at (0, q) one over (the sum of column q
    of the matrix, as the region found it, plus one). -/
theorem result (V : (c : Dev nD) → (b : Ref sig .tc) → Buf (Elt Ideal) ((c : Thread nD τ).loc b)) (c : Dev nD) (q : Fin 16384) :
    (Colsum.dat (F := Ideal) V c).arrAt 1 cfg0.N (ValueIdx.ix2 (0 : Fin 1) q) = Cert.Gcn.dinv (V c main_arg0) q :=
  (congrFun (final V c) (ix2 (0 : Fin 1) q)).trans rfl

end Cert.KernelIdeal.ColsumValue

end
-- ==== Proof.MainPay.lean ====
import proofs.«154289_j20401094656620_2_alg».proof.Proof.Gen.KernelIdeal.Skeleton
import proofs.«154289_j20401094656620_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.MainValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## The two products' operand indices, coordinate by coordinate -/

theorem lhsA_0 (i : S2048x64.Idx) (q : dot_S2048x1024_S1024x64_S2048x64_1_0_0_1_n_n.contr.Idx) : (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhsA_1 (i : S2048x64.Idx) (q : dot_S2048x1024_S1024x64_S2048x64_1_0_0_1_n_n.contr.Idx) : (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhsA_0 (i : S2048x64.Idx) (q : dot_S2048x1024_S1024x64_S2048x64_1_0_0_1_n_n.contr.Idx) : (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhsA_1 (i : S2048x64.Idx) (q : dot_S2048x1024_S1024x64_S2048x64_1_0_0_1_n_n.contr.Idx) : (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A product of an `[M, K]` block by a `[K, N]` block into the zero block, read at `(r, f)`: the sum over the
    contraction of the products. -/
theorem matmulA_apply (a : FVec Ideal S2048x1024 .bf16) (x : FVec Ideal S1024x64 .bf16) (r : Fin 2048) (f : Fin 64) :
    FloatOps.matmul dot_S2048x1024_S1024x64_S2048x64_1_0_0_1_n_n none a x (constant (F := Ideal) S2048x64 .f32 0x00000000#32) (ix2 r f)
      = ∑ k : Fin 1024, a (ix2 r k) * x (ix2 k f) := by
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 r f) ((contrEquiv1 dot_S2048x1024_S1024x64_S2048x64_1_0_0_1_n_n 1024 rfl rfl).symm k) = ix2 r k := funext fun a => Fin.ext (by
    match a with
    | ⟨0, _⟩ => exact lhsA_0 _ _
    | ⟨1, _⟩ => exact (lhsA_1 _ _).trans hk)
  have er : dot_S2048x1024_S1024x64_S2048x64_1_0_0_1_n_n.rhsIdx (ix2 r f) ((contrEquiv1 dot_S2048x1024_S1024x64_S2048x64_1_0_0_1_n_n 1024 rfl rfl).symm k) = ix2 k f := funext fun a => Fin.ext (by
    match a with
    | ⟨0, _⟩ => exact (rhsA_0 _ _).trans hk
    | ⟨1, _⟩ => exact rhsA_1 _ _)
  rw [el, er]

theorem lhsB_0 (i : S2048x64.Idx) (q : dot_S2048x64_S64x64_S2048x64_1_0_0_1_n_n.contr.Idx) : (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhsB_1 (i : S2048x64.Idx) (q : dot_S2048x64_S64x64_S2048x64_1_0_0_1_n_n.contr.Idx) : (dot_S2048x64_S64x64_S2048x64_1_0_0_1_n_n.lhsIdx i q 1).val = (q ⟨0, by decide⟩).val :=
  dot_S2048x64_S64x64_S2048x64_1_0_0_1_n_n.lhsIdx_val_of_single rfl i q
theorem rhsB_0 (i : S2048x64.Idx) (q : dot_S2048x64_S64x64_S2048x64_1_0_0_1_n_n.contr.Idx) : (dot_S2048x64_S64x64_S2048x64_1_0_0_1_n_n.rhsIdx i q 0).val = (q ⟨0, by decide⟩).val :=
  dot_S2048x64_S64x64_S2048x64_1_0_0_1_n_n.rhsIdx_val_of_single rfl i q
theorem rhsB_1 (i : S2048x64.Idx) (q : dot_S2048x64_S64x64_S2048x64_1_0_0_1_n_n.contr.Idx) : (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- A product of an `[M, K]` block by a `[K, N]` block into the zero block, read at `(r, f)`: the sum over the
    contraction of the products. -/
theorem matmulB_apply (a : FVec Ideal S2048x64 .bf16) (x : FVec Ideal S64x64 .bf16) (r : Fin 2048) (f : Fin 64) :
    FloatOps.matmul dot_S2048x64_S64x64_S2048x64_1_0_0_1_n_n none a x (constant (F := Ideal) S2048x64 .f32 0x00000000#32) (ix2 r f)
      = ∑ k : Fin 64, a (ix2 r k) * x (ix2 k f) := by
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r f) ((contrEquiv1 dot_S2048x64_S64x64_S2048x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S2048x64_S64x64_S2048x64_1_0_0_1_n_n.rhsIdx (ix2 r f) ((contrEquiv1 dot_S2048x64_S64x64_S2048x64_1_0_0_1_n_n 64 rfl rfl).symm k) = ix2 k f := funext fun a => Fin.ext (by
    match a with
    | ⟨0, _⟩ => exact (rhsB_0 _ _).trans hk
    | ⟨1, _⟩ => exact rhsB_1 _ _)
  rw [el, er]

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's three stored values, read at an index -/

/-- The zeroed accumulator is zero everywhere. -/
theorem pay1_apply (j : S2048x64.Idx) : k1_pay1 (F := Ideal) j = 0 := by
  unfold k1_pay1
  rw [shapeCast_self]
  exact Ideal.ofBits_zero_f32

/-- The accumulation step at `(r, f)`: the accumulator there plus the sum over the block's 1024 columns of the products. -/
theorem pay2_apply (a : Vec Ideal S2048x1024 .f32) (x : Vec Ideal S1024x64 .f32) (acc : Vec Ideal S2048x64 .f32)
    (r : Fin 2048) (f : Fin 64) :
    k1_pay2 (F := Ideal) a x acc (ix2 r f) = acc (ix2 r f) + ∑ k : Fin 1024, a (ix2 r k) * x (ix2 k f) := by
  unfold k1_pay2
  rw [shapeCast_self, shapeCast_self]
  refine (addf_apply _ _ _).trans (congrArg (acc (ix2 r f) + ·) ?_)
  exact matmulA_apply _ _ r f

/-- The output block at `(r, n)`: the completed accumulator plus the row's own features, scaled by the row's factor,
    times the weights, plus the bias, clipped below at the zero word. -/
theorem pay3_apply (acc xi : Vec Ideal S2048x64 .f32) (dc : Vec Ideal S2048x1 .f32) (W : Vec Ideal S64x64 .f32)
    (b : Vec Ideal S64 .f32) (r : Fin 2048) (n : Fin 64) :
    k1_pay3 (F := Ideal) acc xi dc W b (ix2 r n)
      = max ((∑ f : Fin 64, ((acc (ix2 r f) + xi (ix2 r f)) * dc (ix2 r (0 : Fin 1))) * W (ix2 f n)) + b (ix1 n)) Cert.Gcn.zero := by
  unfold k1_pay3
  rw [shapeCast_self, shapeCast_self]
  refine (maximumf_apply _ _ _).trans ?_
  refine congrArg₂ max ?_ rfl
  refine (addf_apply _ _ _).trans ?_
  refine congrArg₂ (· + ·) ?_ ?_
  · refine (matmulB_apply _ _ r n).trans (Finset.sum_congr rfl fun f _ => ?_)
    refine congrArg₂ (· * ·) ?_ rfl
    refine (mulf_apply _ _ _).trans (congrArg₂ (· * ·) (addf_apply _ _ _) ?_)
    exact broadcastTo_a1_ab_apply dc _ r f
  · exact (broadcastTo_1b_ab_apply _ _ r n).trans (shapeCast_a_1a_apply b _ 0 n)

end Cert.KernelIdeal.MainValue

end
-- ==== Proof.MainBlocks.lean ====
import proofs.«154289_j20401094656620_2_alg».proof.Proof.MainBody
import proofs.«154289_j20401094656620_2_alg».proof.Proof.MainPay

noncomputable section

namespace Cert.KernelIdeal.MainValue

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The windows' block indices over the grid: point `t` is row block `t / 16`, contraction block `t % 16` -/

theorem idx_facts : ∀ t : Fin cfg1.N,
    win1_0.index t (0 : Fin 2) = t.val / 16 ∧ win1_0.index t (1 : Fin 2) = t.val % 16
    ∧ win1_1.index t (0 : Fin 2) = t.val / 16 ∧ win1_1.index t (1 : Fin 2) = 0
    ∧ win1_2.index t (0 : Fin 2) = t.val / 16 ∧ win1_2.index t (1 : Fin 2) = 0
    ∧ win1_3.index t (0 : Fin 2) = t.val % 16 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val / 16 ∧ win1_6.index t (1 : Fin 2) = 0 :=
  (by decide +kernel : ∀ t : Fin grid1.N, _)

/-! ## Each input block at a point, read at an index: the array where the block sits -/

/-- The block of A at point `t`: rows from `2048 · (t / 16)`, columns from `1024 · (t % 16)`. -/
theorem blk0_apply (c : Dev nD) (t : Fin cfg1.N) (r : Fin 2048) (k : Fin 1024) (i kk : Fin 16384)
    (hi : i.val = 2048 * (t.val / 16) + r.val) (hk : kk.val = 1024 * (t.val % 16) + k.val) :
    (MainK.iblk V c 0 t : Vec Ideal S2048x1024 .f32) (ix2 r k) = (V c main_arg0 : S16384x16384.Idx → EReal) (ix2 i kk) := by
  obtain ⟨e0, e1, -⟩ := idx_facts t
  show (V c main_arg0) (((cfg1.win 0).blk t).view.emb (ix2 r k)) = _
  refine congrArg (V c main_arg0) (funext fun a => Fin.ext ?_)
  match a with
  | ⟨0, _⟩ => show win1_0.index t (0 : Fin 2) * 2048 + 1 * r.val = i.val; rw [e0, hi]; omega
  | ⟨1, _⟩ => show win1_0.index t (1 : Fin 2) * 1024 + 1 * k.val = kk.val; rw [e1, hk]; omega

/-- The row block of the scaled features at point `t`: rows from `2048 · (t / 16)`. -/
theorem blk1_apply (c : Dev nD) (t : Fin cfg1.N) (r : Fin 2048) (f : Fin 64) (i : Fin 16384)
    (hi : i.val = 2048 * (t.val / 16) + r.val) :
    (MainK.iblk V c 1 t : Vec Ideal S2048x64 .f32) (ix2 r f) = (V c main_v3 : S16384x64.Idx → EReal) (ix2 i f) := by
  obtain ⟨-, -, e0, e1, -⟩ := idx_facts t
  show (V c main_v3) (((cfg1.win 1).blk t).view.emb (ix2 r f)) = _
  refine congrArg (V c main_v3) (funext fun a => Fin.ext ?_)
  match a with
  | ⟨0, _⟩ => show win1_1.index t (0 : Fin 2) * 2048 + 1 * r.val = i.val; rw [e0, hi]; omega
  | ⟨1, _⟩ => show win1_1.index t (1 : Fin 2) * 64 + 1 * f.val = f.val; rw [e1]; omega

/-- The block of the scaling column at point `t`: rows from `2048 · (t / 16)`. -/
theorem blk2_apply (c : Dev nD) (t : Fin cfg1.N) (r : Fin 2048) (i : Fin 16384)
    (hi : i.val = 2048 * (t.val / 16) + r.val) :
    (MainK.iblk V c 2 t : Vec Ideal S2048x1 .f32) (ix2 r (0 : Fin 1)) = (V c main_v1 : S16384x1.Idx → EReal) (ix2 i (0 : Fin 1)) := by
  obtain ⟨-, -, -, -, e0, e1, -⟩ := idx_facts t
  show (V c main_v1) (((cfg1.win 2).blk t).view.emb (ix2 r (0 : Fin 1))) = _
  refine congrArg (V c main_v1) (funext fun a => Fin.ext ?_)
  match a with
  | ⟨0, _⟩ => show win1_2.index t (0 : Fin 2) * 2048 + 1 * r.val = i.val; rw [e0, hi]; omega
  | ⟨1, _⟩ => show win1_2.index t (1 : Fin 2) * 1 + 1 * 0 = 0; rw [e1]

/-- The contraction block of the scaled features at point `t`: rows from `1024 · (t % 16)`. -/
theorem blk3_apply (c : Dev nD) (t : Fin cfg1.N) (k : Fin 1024) (f : Fin 64) (kk : Fin 16384)
    (hk : kk.val = 1024 * (t.val % 16) + k.val) :
    (MainK.iblk V c 3 t : Vec Ideal S1024x64 .f32) (ix2 k f) = (V c main_v3 : S16384x64.Idx → EReal) (ix2 kk f) := by
  obtain ⟨-, -, -, -, -, -, e0, e1, -⟩ := idx_facts t
  show (V c main_v3) (((cfg1.win 3).blk t).view.emb (ix2 k f)) = _
  refine congrArg (V c main_v3) (funext fun a => Fin.ext ?_)
  match a with
  | ⟨0, _⟩ => show win1_3.index t (0 : Fin 2) * 1024 + 1 * k.val = kk.val; rw [e0, hk]; omega
  | ⟨1, _⟩ => show win1_3.index t (1 : Fin 2) * 64 + 1 * f.val = f.val; rw [e1]; omega

/-- The weights' block is the whole array at every point. -/
theorem blk4_apply (c : Dev nD) (t : Fin cfg1.N) (f n : Fin 64) :
    (MainK.iblk V c 4 t : Vec Ideal S64x64 .f32) (ix2 f n) = (V c main_arg2 : S64x64.Idx → EReal) (ix2 f n) := by
  obtain ⟨-, -, -, -, -, -, -, -, e0, e1, -⟩ := idx_facts t
  show (V c main_arg2) (((cfg1.win 4).blk t).view.emb (ix2 f n)) = _
  refine congrArg (V c main_arg2) (funext fun a => Fin.ext ?_)
  match a with
  | ⟨0, _⟩ => show win1_4.index t (0 : Fin 2) * 64 + 1 * f.val = f.val; rw [e0]; omega
  | ⟨1, _⟩ => show win1_4.index t (1 : Fin 2) * 64 + 1 * n.val = n.val; rw [e1]; omega

/-- The bias's block is the whole array at every point. -/
theorem blk5_apply (c : Dev nD) (t : Fin cfg1.N) (n : Fin 64) :
    (MainK.iblk V c 5 t : Vec Ideal S64 .f32) (ix1 n) = (V c main_arg3 : S64.Idx → EReal) (ix1 n) := by
  obtain ⟨-, -, -, -, -, -, -, -, -, -, e0, -⟩ := idx_facts t
  show (V c main_arg3) (((cfg1.win 5).blk t).view.emb (ix1 n)) = _
  refine congrArg (V c main_arg3) (funext fun a => Fin.ext ?_)
  match a with
  | ⟨0, _⟩ => show win1_5.index t (0 : Fin 1) * 64 + 1 * n.val = n.val; rw [e0]; omega

end Cert.KernelIdeal.MainValue

end
-- ==== Proof.MainSum.lean ====
import proofs.«154289_j20401094656620_2_alg».proof.Proof.MainBlocks

noncomputable section

namespace Cert.KernelIdeal.MainValue

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The accumulator along a sweep: the sum over the contraction blocks seen so far -/

/-- The matrix A and the scaled features as the region finds them, and their blocks at a point, at their literal types. -/
abbrev arrA (c : Dev nD) : Cert.Gcn.Mat 16384 16384 := V c main_arg0
abbrev arrX (c : Dev nD) : Cert.Gcn.Mat 16384 64 := V c main_v3
abbrev blkA (c : Dev nD) (t : Fin cfg1.N) : Vec Ideal S2048x1024 .f32 := MainK.iblk V c 0 t
abbrev blkX (c : Dev nD) (t : Fin cfg1.N) : Vec Ideal S1024x64 .f32 := MainK.iblk V c 3 t

/-- One term of the whole contraction of row `i` of A with column `f` of the scaled features. -/
abbrev term (c : Dev nD) (i : Fin 16384) (f : Fin 64) (k : Fin 16384) : EReal :=
  arrA V c (ix2 i k) * arrX V c (ix2 k f)

/-- Contraction block `q` (1024 consecutive terms) of that sum; zero beyond the sixteen blocks. -/
def blockSum (c : Dev nD) (i : Fin 16384) (f : Fin 64) (q : ℕ) : EReal :=
  if h : q < 16 then ∑ k : Fin 1024, term V c i f ⟨q * 1024 + k.val, by have := k.isLt; omega⟩ else 0

/-- The first `m` blocks. -/
def part (c : Dev nD) (i : Fin 16384) (f : Fin 64) (m : ℕ) : EReal := ∑ q ∈ Finset.range m, blockSum V c i f q

/-- The product of the two blocks at point `t`, at `(r, f)`: contraction block `t % 16` of row `2048 · (t / 16) + r`. -/
theorem blocks_prod (c : Dev nD) (t : Fin cfg1.N) (r : Fin 2048) (f : Fin 64) (i : Fin 16384)
    (hi : i.val = 2048 * (t.val / 16) + r.val) :
    ∑ k : Fin 1024, blkA V c t (ix2 r k) * blkX V c t (ix2 k f) = blockSum V c i f (t.val % 16) := by
  have hq : t.val % 16 < 16 := Nat.mod_lt _ (by decide)
  unfold blockSum; rw [dif_pos hq]
  refine Finset.sum_congr rfl fun k _ => ?_
  have hk : k.val < 1024 := k.isLt
  exact congrArg₂ (· * ·)
    (blk0_apply V c t r k i ⟨t.val % 16 * 1024 + k.val, by omega⟩ hi (by show t.val % 16 * 1024 + k.val = _; omega))
    (blk3_apply V c t k f ⟨t.val % 16 * 1024 + k.val, by omega⟩ (by show t.val % 16 * 1024 + k.val = _; omega))

/-- After point `n` the accumulator holds, at `(r, f)`, the first `n % 16 + 1` blocks of the contraction of the row
    the point's row block puts at `r`. -/
theorem scr_eq (c : Dev nD) (r : Fin 2048) (f : Fin 64) : ∀ (n : ℕ) (hn : n < cfg1.N) (i : Fin 16384),
    i.val = 2048 * (n / 16) + r.val → MainK.scrAt V c n hn (ix2 r f) = part V c i f (n % 16 + 1)
  | 0, hn, i, hi => by
    rw [MainK.scrAt]
    refine (pay2_apply (MainK.iblk V c 0 ⟨0, hn⟩) (MainK.iblk V c 3 ⟨0, hn⟩) _ r f).trans ?_
    rw [pay1_apply, zero_add]
    refine (blocks_prod V c ⟨0, hn⟩ r f i hi).trans ?_
    show blockSum V c i f (0 % 16) = part V c i f (0 % 16 + 1)
    unfold part; rw [show 0 % 16 + 1 = 1 from rfl, Finset.sum_range_one]
  | n + 1, hn, i, hi => by
    have hN : n + 1 < 128 := lt_of_lt_of_eq hn N_1
    rw [MainK.scrAt]
    refine (pay2_apply (MainK.iblk V c 0 ⟨n + 1, hn⟩) (MainK.iblk V c 3 ⟨n + 1, hn⟩) _ r f).trans ?_
    by_cases h0 : (n + 1) % 16 = 0
    · rw [if_pos h0, pay1_apply, zero_add]
      refine (blocks_prod V c ⟨n + 1, hn⟩ r f i hi).trans ?_
      show blockSum V c i f ((n + 1) % 16) = part V c i f ((n + 1) % 16 + 1)
      rw [h0]; unfold part; rw [Finset.sum_range_one]
    · rw [if_neg h0]
      rw [scr_eq c r f n (Nat.lt_of_succ_lt hn) i (by omega)]
      refine (congrArg (part V c i f (n % 16 + 1) + ·) (blocks_prod V c ⟨n + 1, hn⟩ r f i hi)).trans ?_
      show part V c i f (n % 16 + 1) + blockSum V c i f ((n + 1) % 16) = part V c i f ((n + 1) % 16 + 1)
      rw [show (n + 1) % 16 = n % 16 + 1 from by omega]
      unfold part; rw [Finset.sum_range_succ _ (n % 16 + 1)]

/-- At the last point of a sweep the accumulator holds the whole contraction. -/
theorem scr_last (c : Dev nD) (t : Fin cfg1.N) (h : t.val % 16 = 15) (r : Fin 2048) (f : Fin 64) (i : Fin 16384)
    (hi : i.val = 2048 * (t.val / 16) + r.val) :
    MainK.scrAt V c t.val t.isLt (ix2 r f) = ∑ k : Fin 16384, term V c i f k := by
  rw [scr_eq V c r f t.val t.isLt i hi, h]
  unfold part
  rw [Finset.sum_range]
  refine Eq.trans (Finset.sum_congr rfl fun q _ => ?_) (Cert.Gcn.sum_blocks 16 1024 (fun k => term V c i f k)).symm
  unfold blockSum; rw [dif_pos q.isLt]

end Cert.KernelIdeal.MainValue

end
-- ==== Proof.MainValue.lean ====
import proofs.«154289_j20401094656620_2_alg».proof.Proof.MainSum

noncomputable section

namespace Cert.KernelIdeal.MainValue

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## What the last point of a sweep writes back, and the result array after the run -/

/-- The layer's output over the arrays as the region finds them, as contents of the result array. -/
abbrev G (c : Dev nD) : S16384x64.Idx → EReal := fun j =>
  Cert.Gcn.out (V c main_arg0) (V c main_v3) (V c main_v1) (V c main_arg2) (V c main_arg3) (j 0) (j 1)

/-- The last point of the sweep over row block `t / 16` writes back that row block of the layer's output. -/
theorem flushed_eq (c : Dev nD) (t : Fin cfg1.N) (hf : (cfg1.win 6).flush t = true) :
    (MainK.dat V c).flushed 6 t = ((cfg1.win 6).blk t).view.read (Elt Ideal) (G V c) := by
  have h15 : t.val % 16 = 15 := (flush1_6 t).mp hf
  have hN : t.val < 128 := lt_of_lt_of_eq t.isLt N_1
  obtain ⟨-, -, -, -, -, -, -, -, -, -, -, e0, e1⟩ := idx_facts t
  show (cfg1.win 6).cut (grid1.coords t) ((MainK.dat V c).after 6 t) = _
  rw [MainK.after_6]
  funext j
  obtain ⟨r, n, rfl⟩ : ∃ (r : Fin 2048) (n : Fin 64), j = ix2 r n := ⟨j 0, j 1, eq_ix2 j⟩
  have hr : r.val < 2048 := r.isLt
  show k1_pay3 (F := Ideal) (MainK.scrAt V c t.val t.isLt) (MainK.iblk V c 1 t) (MainK.iblk V c 2 t) (MainK.iblk V c 4 t) (MainK.iblk V c 5 t) (ix2 r n)
    = G V c (((cfg1.win 6).blk t).view.emb (ix2 r n))
  have hemb : ((cfg1.win 6).blk t).view.emb (ix2 r n) = ix2 (⟨2048 * (t.val / 16) + r.val, by omega⟩ : Fin 16384) n := by
    funext a; apply Fin.ext
    match a with
    | ⟨0, _⟩ => show win1_6.index t (0 : Fin 2) * 2048 + 1 * r.val = 2048 * (t.val / 16) + r.val; rw [e0]; omega
    | ⟨1, _⟩ => show win1_6.index t (1 : Fin 2) * 64 + 1 * n.val = n.val; rw [e1]; omega
  rw [hemb]
  refine (pay3_apply (MainK.scrAt V c t.val t.isLt) (MainK.iblk V c 1 t) (MainK.iblk V c 2 t) (MainK.iblk V c 4 t) (MainK.iblk V c 5 t) r n).trans ?_
  show _ = Cert.Gcn.out (V c main_arg0) (V c main_v3) (V c main_v1) (V c main_arg2) (V c main_arg3) (⟨2048 * (t.val / 16) + r.val, by omega⟩ : Fin 16384) n
  unfold Cert.Gcn.out
  refine congrArg₂ max (congrArg₂ (· + ·) (Finset.sum_congr rfl fun f _ => ?_) (blk5_apply V c t n)) rfl
  refine congrArg₂ (· * ·) ?_ (blk4_apply V c t f n)
  unfold Cert.Gcn.agg
  exact congrArg₂ (· * ·) (congrArg₂ (· + ·) (scr_last V c t h15 r f _ rfl) (blk1_apply V c t r f _ rfl)) (blk2_apply V c t r _ rfl)

/-- An index of the result array is in point `t`'s block iff each coordinate is in the block's range on its axis. -/
theorem mem_blk6 (t : Fin cfg1.N) (i : S16384x64.Idx) :
    i ∈ ((cfg1.win 6).blk t).view.set ↔ ∀ a : Fin 2, win1_6.index t a * S2048x64.size a ≤ (i a).val ∧ (i a).val < win1_6.index t a * S2048x64.size a + S2048x64.size a := by
  show i ∈ ((View.whole main_v4).slice (win1_6.rect t)).set ↔ _
  rw [View.set_slice_whole, Rect.mem_set_unit]
  exact Iff.rfl

/-- The eight row blocks tile the result array: row `i` is written back by the last point of the sweep over row block `i / 2048`. -/
theorem cover6 (i : S16384x64.Idx) : ∃ t : Fin cfg1.N, (cfg1.win 6).flush t = true ∧ i ∈ ((cfg1.win 6).blk t).view.set := by
  have h0 : (i 0).val < 16384 := (i 0).isLt
  have h1 : (i 1).val < 64 := (i 1).isLt
  have hN : cfg1.N = 128 := N_1
  have hb : 16 * ((i 0).val / 2048) + 15 < cfg1.N := by rw [hN]; omega
  refine ⟨⟨16 * ((i 0).val / 2048) + 15, hb⟩, (flush1_6 _).mpr (by show (16 * ((i 0).val / 2048) + 15) % 16 = 15; omega), ?_⟩
  rw [mem_blk6]
  obtain ⟨-, -, -, -, -, -, -, -, -, -, -, e0, e1⟩ := idx_facts ⟨16 * ((i 0).val / 2048) + 15, hb⟩
  intro a
  match a with
  | ⟨0, _⟩ =>
    show win1_6.index ⟨16 * ((i 0).val / 2048) + 15, hb⟩ (0 : Fin 2) * 2048 ≤ (i 0).val ∧ (i 0).val < win1_6.index ⟨16 * ((i 0).val / 2048) + 15, hb⟩ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win1_6.index ⟨16 * ((i 0).val / 2048) + 15, hb⟩ (1 : Fin 2) * 64 ≤ (i 1).val ∧ (i 1).val < win1_6.index ⟨16 * ((i 0).val / 2048) + 15, hb⟩ (1 : Fin 2) * 64 + 64
    rw [e1]; omega

/-- The result array after the run is the layer's output. -/
theorem final6 (c : Dev nD) : (MainK.dat V c).arrAt 6 cfg1.N = G V c :=
  (MainK.dat V c).arrAt_eq_of_cover 6 (G V c) (fun t hf => flushed_eq V c t hf) cover6

/-- Index by index. -/
theorem result (c : Dev nD) (i : Fin 16384) (n : Fin 64) :
    (MainK.dat (F := Ideal) V c).arrAt 6 cfg1.N (ix2 i n)
      = Cert.Gcn.out (V c main_arg0) (V c main_v3) (V c main_v1) (V c main_arg2) (V c main_arg3) i n :=
  congrFun (final6 V c) (ix2 i n)

end Cert.KernelIdeal.MainValue

end
-- ==== Proof.HostGlue.lean ====
import proofs.«154289_j20401094656620_2_alg».proof.Proof.Gen.KernelIdeal.Regions
import proofs.«154289_j20401094656620_2_alg».proof.Proof.Spec
import Idealize.ShloMosaic.Lib.StableHlo.Run
import Idealize.ShloMosaic.Lib.Pipeline.Value
import Idealize.ShloMosaic.Lib.ValueIdx

/-!
The three host operations between the two kernels, read at an index: the first kernel's (1, 16384) row is
reshaped to a (16384, 1) column (same entries: entry `i` of the column is entry `i` of the row), the column
is broadcast along the 64 features, and the features are multiplied by it. So the second kernel finds
`d` as a column and `xs k f = X k f · d k`; the arguments it reads are as launched.
-/

noncomputable section

namespace Cert.KernelIdeal.HostGlue

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (outs : Gen.Outs (F := Ideal)) (c : Dev nD)

/-- The first kernel's row, -/
abbrev row : S1x16384.Idx → EReal := outs 1 main_v0 c
/-- the column the second kernel reads, -/
abbrev col : S16384x1.Idx → EReal := Gen.V2 m outs c (Proc.devRef .tc main_v1)
/-- the features as launched, -/
abbrev feat : S16384x64.Idx → EReal := m ((c : Thread nD τ).loc main_arg1)
/-- and the scaled features the second kernel reads. -/
abbrev xs : S16384x64.Idx → EReal := Gen.V2 m outs c (Proc.devRef .tc main_v3)

/-- The column is the row reshaped. -/
theorem col_eq : col m outs c = fun j => shapeCast S16384x1 (row outs c) shapeCasts_S1x16384_S16384x1 j := by
  show StableHlo.after hostOps1 (Gen.V1 m outs c) (Proc.devRef .tc main_v1) = _
  after_results
  show (fun j => shapeCast S16384x1 (Gen.V1 m outs c (Proc.devRef .tc main_v0)) shapeCasts_S1x16384_S16384x1 j) = _
  unfold Gen.V1
  rw [Function.update_self]

/-- Entry `i` of the column is entry `i` of the row. -/
theorem col_apply (i : Fin 16384) : col m outs c (ix2 i (0 : Fin 1)) = row outs c (ix2 (0 : Fin 1) i) := by
  rw [col_eq]
  exact shapeCast_apply (row outs c) shapeCasts_S1x16384_S16384x1 (ix2 i (0 : Fin 1)) (ix2 (0 : Fin 1) i) (by
    show (S1x16384.rowMajor (ix2 (0 : Fin 1) i)).val = (S16384x1.rowMajor (ix2 i (0 : Fin 1))).val
    rw [Shape.rowMajor_val_two, Shape.rowMajor_val_two]
    show 0 * 16384 + i.val = i.val * 1 + 0
    omega)

/-- The scaled features are the features times the column broadcast along the features. -/
theorem xs_eq : xs m outs c
    = mulf (F := Ideal) (φ := .f32) (feat m c) (broadcastInDim S16384x64 ![0, 1] bcast_S16384x1_S16384x64_0_1 (col m outs c)) := by
  rw [col_eq]
  show StableHlo.after hostOps1 (Gen.V1 m outs c) (Proc.devRef .tc main_v3) = _
  after_results
  show mulf (F := Ideal) (φ := .f32) (Gen.V1 m outs c (Proc.devRef .tc main_arg1))
      (broadcastInDim S16384x64 ![0, 1] bcast_S16384x1_S16384x64_0_1 (fun j => shapeCast S16384x1 (Gen.V1 m outs c (Proc.devRef .tc main_v0)) shapeCasts_S1x16384_S16384x1 j)) = _
  rw [show Gen.V1 m outs c (Proc.devRef .tc main_arg1) = m ((c : Thread nD τ).loc main_arg1) from Gen.V1_of m outs c main_arg1 (by decide)]
  unfold Gen.V1
  rw [Function.update_self]

/-- `xs k f = X k f · d k`, with `d k` entry `k` of the first kernel's row. -/
theorem xs_apply (k : Fin 16384) (f : Fin 64) :
    xs m outs c (ix2 k f) = feat m c (ix2 k f) * row outs c (ix2 (0 : Fin 1) k) := by
  rw [xs_eq]
  show feat m c (ix2 k f) * broadcastInDim S16384x64 ![0, 1] bcast_S16384x1_S16384x64_0_1 (col m outs c) (ix2 k f) = _
  rw [broadcastInDim_apply _ bcast_S16384x1_S16384x64_0_1 (col m outs c) (ix2 k f) (ix2 k (0 : Fin 1)) (fun a => match a with
    | ⟨0, _⟩ => by show k.val = if (16384 : Nat) = 1 then 0 else k.val; rw [if_neg (by decide)]
    | ⟨1, _⟩ => by show 0 = if (1 : Nat) = 1 then 0 else f.val; rw [if_pos rfl]), col_apply]

/-- The arguments the second kernel reads are as launched. -/
theorem arg0_eq : Gen.V2 m outs c (Proc.devRef .tc main_arg0) = m ((c : Thread nD τ).loc main_arg0) :=
  (Gen.V2_of m outs c main_arg0 (by decide)).trans (Gen.V1_of m outs c main_arg0 (by decide))
theorem arg2_eq : Gen.V2 m outs c (Proc.devRef .tc main_arg2) = m ((c : Thread nD τ).loc main_arg2) :=
  (Gen.V2_of m outs c main_arg2 (by decide)).trans (Gen.V1_of m outs c main_arg2 (by decide))
theorem arg3_eq : Gen.V2 m outs c (Proc.devRef .tc main_arg3) = m ((c : Thread nD τ).loc main_arg3) :=
  (Gen.V2_of m outs c main_arg3 (by decide)).trans (Gen.V1_of m outs c main_arg3 (by decide))

end Cert.KernelIdeal.HostGlue

end
-- ==== Proof.KernelValue.lean ====
import proofs.«154289_j20401094656620_2_alg».proof.Proof.Frames
import proofs.«154289_j20401094656620_2_alg».proof.Proof.ColsumValue
import proofs.«154289_j20401094656620_2_alg».proof.Proof.MainValue
import proofs.«154289_j20401094656620_2_alg».proof.Proof.HostGlue
import proofs.«154289_j20401094656620_2_alg».proof.Proof.Spec

/-!
The kernel program's result is the layer of `Spec.lean`, index by index: the first kernel leaves `d` as a row,
the host operations turn it into the column and the scaled features `xs`, and the second kernel computes
`max (∑ f, ((∑ k, A i k · xs k f + xs i f) · d i) · W f n + b n) 0` from them.
-/

noncomputable section

namespace Cert.KernelIdeal.KernelValue

open Cert.KernelIdeal Cert.KernelIdeal.Gen
open Idealize.ShloMosaic Idealize.ShloMosaic.TcCoe Idealize.ShloMosaic.ValueIdx
open Idealize.SL.Sem Cert.Gcn

variable (m : (ℓ : Loc nD τ sig) → Buf (Elt Ideal) ℓ) (c : Dev nD)

/-- The two kernels' proofs at the ideal instance. -/
abbrev Hi : TwoRegions.Halves Ideal := Frames.halves (F := Ideal)

/-- The first kernel's row holds `d`. -/
theorem row_apply (q : Fin 16384) :
    HostGlue.row (TwoRegions.outsA Hi m) c (ix2 (0 : Fin 1) q) = dinv (m ((c : Thread nD τ).loc main_arg0)) q := by
  show TwoRegions.outsA Hi m 1 main_v0 c (ix2 (0 : Fin 1) q) = _
  unfold TwoRegions.outsA
  rw [Function.update_self]
  exact ColsumValue.result (TwoRegions.C0 m) c q

/-- The column the second kernel reads is `d` as a column. -/
theorem col_eq : HostGlue.col m (TwoRegions.outsA Hi m) c = dcolOf (m ((c : Thread nD τ).loc main_arg0)) := by
  funext j
  obtain ⟨p, q, rfl⟩ : ∃ (p : Fin 16384) (q : Fin 1), j = ix2 p q := ⟨j 0, j 1, eq_ix2 j⟩
  obtain rfl : q = 0 := Subsingleton.elim _ _
  rw [HostGlue.col_apply, row_apply]
  rfl

/-- The scaled features the second kernel reads are `xs`. -/
theorem xs_eq : HostGlue.xs m (TwoRegions.outsA Hi m) c
    = xsOf (m ((c : Thread nD τ).loc main_arg0)) (m ((c : Thread nD τ).loc main_arg1)) := by
  funext j
  obtain ⟨p, q, rfl⟩ : ∃ (p : Fin 16384) (q : Fin 64), j = ix2 p q := ⟨j 0, j 1, eq_ix2 j⟩
  rw [HostGlue.xs_apply, row_apply]
  rfl

/-- THE KERNEL PROGRAM IS THE LAYER, index by index. -/
theorem result_eq (i : Fin 16384) (n : Fin 64) :
    TwoRegions.res1 Hi m c (ix2 i n)
      = layer (m ((c : Thread nD τ).loc main_arg0)) (m ((c : Thread nD τ).loc main_arg1)) (m ((c : Thread nD τ).loc main_arg2))
          (m ((c : Thread nD τ).loc main_arg3)) i n := by
  refine (MainValue.result (TwoRegions.C2 Hi m) c i n).trans ?_
  show out (Gen.V2 m (TwoRegions.outsA Hi m) c (Proc.devRef .tc main_arg0)) (HostGlue.xs m (TwoRegions.outsA Hi m) c)
      (HostGlue.col m (TwoRegions.outsA Hi m) c) (Gen.V2 m (TwoRegions.outsA Hi m) c (Proc.devRef .tc main_arg2))
      (Gen.V2 m (TwoRegions.outsA Hi m) c (Proc.devRef .tc main_arg3)) i n = _
  rw [HostGlue.arg0_eq, HostGlue.arg2_eq, HostGlue.arg3_eq, xs_eq, col_eq]
  rfl

end Cert.KernelIdeal.KernelValue

end
-- ==== Proof.RefValue.lean ====
import proofs.«154289_j20401094656620_2_alg».proof.Proof.Gen.ReferenceIdeal.Read
import proofs.«154289_j20401094656620_2_alg».proof.Proof.Spec

/-!
The reference's result, read one host operation at a time, is the layer of `Spec.lean` index by index: its
column sum starts from the word `0.0` (which is `0`), its two broadcasts of `d` read `d` at the row, its two
`dot_general`s are the two sums, and its `relu` is the `max` with the word `0.0`.
-/

noncomputable section

namespace Cert.ReferenceIdeal.RefValue

open Cert.ReferenceIdeal Cert.ReferenceIdeal.Read Idealize.ShloMosaic Idealize.ShloMosaic.ValueIdx Cert.Gcn

/-- The reference's `d` at row `i`: one over (the column sum plus one). -/
theorem v4_eq (x0 : (⟨S16384x16384, .f32⟩ : BufTy).Contents (Elt Ideal)) (i : S16384.Idx) :
    val_main_v4 (F := Ideal) x0 i = dinv x0 (i 0) := by
  rw [val_main_v4_apply, val_main_v3_apply, val_main_cst_1_apply, val_main_v2_apply, val_main_v0_apply, val_main_v1_apply,
    val_main_cst_0_apply, val_main_cst_apply]
  simp only [Ideal.hostDivf_def, Ideal.addf_def, Ideal.ofBits_def, Ideal.ofBits_zero_f32, zero_add]
  have e : ∀ k : Fin 16384, idx_main_v0 i k = ix2 k (i 0) := fun k => by
    funext a; match a with | ⟨0, _⟩ => rfl | ⟨1, _⟩ => rfl
  simp only [e]
  rfl

/-- The reference's scaled features are `xs`. -/
theorem v7_eq (x0 : (⟨S16384x16384, .f32⟩ : BufTy).Contents (Elt Ideal)) (x1 : (⟨S16384x64, .f32⟩ : BufTy).Contents (Elt Ideal)) (j : S16384x64.Idx) :
    val_main_v7 (F := Ideal) x0 x1 j = xsOf x0 x1 j := by
  rw [val_main_v7_apply, val_main_v6_apply, val_main_v5_apply, v4_eq]
  rfl

/-- The reference's second broadcast of `d` reads `d` at the row. -/
theorem v11_eq (x0 : (⟨S16384x16384, .f32⟩ : BufTy).Contents (Elt Ideal)) (j : S16384x64.Idx) :
    val_main_v11 (F := Ideal) x0 j = dinv x0 (j 0) := by
  rw [val_main_v11_apply, val_main_v10_apply, v4_eq]
  rfl

/-- The reference's aggregated features. -/
theorem v12_eq (x0 : (⟨S16384x16384, .f32⟩ : BufTy).Contents (Elt Ideal)) (x1 : (⟨S16384x64, .f32⟩ : BufTy).Contents (Elt Ideal))
    (i : Fin 16384) (f : Fin 64) :
    val_main_v12 (F := Ideal) x0 x1 (ix2 i f) = agg x0 (xsOf x0 x1) (dcolOf x0) i f := by
  rw [val_main_v12_apply, val_main_v9_apply, val_main_v8_apply, v11_eq, v7_eq]
  simp only [Ideal.mulf_def, Ideal.addf_def]
  have el : ∀ k : Fin 16384, lidx_main_v8 (ix2 i f) k = ix2 i k := fun k => by
    funext a; match a with | ⟨0, _⟩ => rfl | ⟨1, _⟩ => rfl
  have er : ∀ k : Fin 16384, ridx_main_v8 (ix2 i f) k = ix2 k f := fun k => by
    funext a; match a with | ⟨0, _⟩ => rfl | ⟨1, _⟩ => rfl
  simp only [el, er, v7_eq]
  rfl

/-- THE REFERENCE IS THE LAYER, index by index. -/
theorem result_eq (x0 : (⟨S16384x16384, .f32⟩ : BufTy).Contents (Elt Ideal)) (x1 : (⟨S16384x64, .f32⟩ : BufTy).Contents (Elt Ideal))
    (x2 : (⟨S64x64, .f32⟩ : BufTy).Contents (Elt Ideal)) (x3 : (⟨S64, .f32⟩ : BufTy).Contents (Elt Ideal)) (i : Fin 16384) (n : Fin 64) :
    val_main_v17 (F := Ideal) x0 x1 x2 x3 (ix2 i n) = layer x0 x1 x2 x3 i n := by
  rw [val_main_v17_apply, val_main_v16_apply, val_main_v13_apply, val_main_v15_apply, val_main_v14_apply,
    val_main_call0_v0_apply, val_main_call0_cst_apply]
  simp only [Ideal.maximumf_def, Ideal.addf_def, Ideal.ofBits_def]
  have el : ∀ f : Fin 64, lidx_main_v13 (ix2 i n) f = ix2 i f := fun f => by
    funext a; match a with | ⟨0, _⟩ => rfl | ⟨1, _⟩ => rfl
  have er : ∀ f : Fin 64, ridx_main_v13 (ix2 i n) f = ix2 f n := fun f => by
    funext a; match a with | ⟨0, _⟩ => rfl | ⟨1, _⟩ => rfl
  have eb : idx_main_v14 (idx_main_v15 (ix2 i n)) = ix1 n := by
    funext a; match a with | ⟨0, _⟩ => rfl
  simp only [el, er, eb, v12_eq]
  rfl

end Cert.ReferenceIdeal.RefValue

end
-- ==== Proof.lean ====
/-
  Both programs compute one layer: with `d j = 1 / (∑ r, A r j + 1)` and `xs k f = X k f · d k`, the result at
  (i, n) is `max (∑ f, ((∑ k, A i k · xs k f + xs i f) · d i) · W f n + b n) 0`. The kernel program builds `d` in a
  first kernel that sums the columns of `A` block by block, and the result in a second kernel that accumulates the
  product over sixteen blocks of the contraction; the reference takes both sums whole. At the ideal instance the two
  are the same function of the arguments: a sum taken block by block is the whole sum, by associativity and
  commutativity alone, so the precondition is never opened.
  The three frames: each kernel's body is run case by case of its two conditions on the grid point (first point of
  a sweep, middle, last), the accumulator (the output block of the first kernel, a scratch buffer of the second)
  carried from point to point; the reference's is its run with the result dropped.
-/
import proofs.«154289_j20401094656620_2_alg».proof.Defs
import proofs.«154289_j20401094656620_2_alg».proof.Proof.Gen.Kernel
import proofs.«154289_j20401094656620_2_alg».proof.Proof.Gen.KernelIdeal
import proofs.«154289_j20401094656620_2_alg».proof.Proof.Gen.ReferenceIdeal
import proofs.«154289_j20401094656620_2_alg».proof.Proof.Gen.ReferenceIdeal.Run
import proofs.«154289_j20401094656620_2_alg».proof.Proof.Gen.ReferenceIdeal.Read
import proofs.«154289_j20401094656620_2_alg».proof.Proof.Gen.Pre_finite_inputs
import proofs.«154289_j20401094656620_2_alg».proof.Proof.WFrames
import proofs.«154289_j20401094656620_2_alg».proof.Proof.Frames
import proofs.«154289_j20401094656620_2_alg».proof.Proof.KernelValue
import proofs.«154289_j20401094656620_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frames.frame m ρ

theorem frame_kernelIdeal : Cert.frame_KernelIdeal := fun m ρ _ => Cert.KernelIdeal.Frames.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal instance the kernel program's result array ends at the layer of its arguments (the two-region run and
    the value of each region), and the reference's at the layer of its own (its run read operation by operation);
    the arguments agree. -/
theorem algebraic : Cert.algebraic_KernelIdeal_ReferenceIdeal := by
  intro m ρ m' ρ' _ hagree
  refine ⟨fun c => Cert.KernelIdeal.TwoRegions.res1 Cert.KernelIdeal.KernelValue.Hi m c,
    Cert.KernelIdeal.TwoRegions.result Cert.KernelIdeal.KernelValue.Hi m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  funext j
  obtain ⟨p, q, rfl⟩ : ∃ (p : Fin 16384) (q : Fin 64), j = ValueIdx.ix2 p q := ⟨j 0, j 1, ValueIdx.eq_ix2 j⟩
  rw [Cert.ReferenceIdeal.RefValue.result_eq]
  exact (Cert.KernelIdeal.KernelValue.result_eq m c p q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
